-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x512x512x2 : Shape := ⟨4, ![8, 512, 512, 2]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x16x512x512 .f32) (main_arg1 : FVec F S8x512x512x2 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x16x512x512 : Shape := ⟨4, ![8, 16, 512, 512]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S4x8x16x512x512 : Shape := ⟨5, ![4, 8, 16, 512, 512]⟩
abbrev S4x8x512x512 : Shape := ⟨4, ![4, 8, 512, 512]⟩
abbrev S1x16x64x512 : Shape := ⟨4, ![1, 16, 64, 512]⟩
abbrev S1x64x512 : Shape := ⟨3, ![1, 64, 512]⟩
abbrev S4x1x16x64x512 : Shape := ⟨5, ![4, 1, 16, 64, 512]⟩
abbrev S4x1x64x512 : Shape := ⟨4, ![4, 1, 64, 512]⟩
abbrev S16x64x512 : Shape := ⟨3, ![16, 64, 512]⟩
abbrev S64x512 : Shape := ⟨2, ![64, 512]⟩
abbrev S1x1x16x64x512 : Shape := ⟨5, ![1, 1, 16, 64, 512]⟩
abbrev S1x1x64x512 : Shape := ⟨4, ![1, 1, 64, 512]⟩
abbrev S4x8x512x512x16 : Shape := ⟨5, ![4, 8, 512, 512, 16]⟩
abbrev S_ : Shape := ⟨0, ![]⟩
abbrev S8x512x512x16 : Shape := ⟨4, ![8, 512, 512, 16]⟩
abbrev S8 : Shape := ⟨1, ![8]⟩
abbrev S1x8x1x1 : Shape := ⟨4, ![1, 8, 1, 1]⟩
abbrev S4x8x512x512x1 : Shape := ⟨5, ![4, 8, 512, 512, 1]⟩
abbrev S4x8x512x512x3 : Shape := ⟨5, ![4, 8, 512, 512, 3]⟩

abbrev nBuf : Space → Nat
  | .hbm => 42
  | .vmem => 12
  | .smem => 0
  | _ => 0

abbrev bufTy : (tb : Table) → Fin (tcTables nBuf tb) → BufTy
  | .hbm, ⟨0, _⟩ => ⟨S8x16x512x512, .f32⟩
  | .hbm, ⟨1, _⟩ => ⟨S8x512x512x2, .f32⟩
  | .hbm, ⟨2, _⟩ => ⟨S8x512x512x1, .f32⟩
  | .hbm, ⟨3, _⟩ => ⟨S8x512x512, .f32⟩
  | .hbm, ⟨4, _⟩ => ⟨S8x512x512x1, .f32⟩
  | .hbm, ⟨5, _⟩ => ⟨S8x512x512, .f32⟩
  | .hbm, ⟨6, _⟩ => ⟨S4x8x16x512x512, .f32⟩
  | .hbm, ⟨7, _⟩ => ⟨S4x8x512x512, .i32⟩
  | .hbm, ⟨8, _⟩ => ⟨S4x8x512x512, .i32⟩
  | .hbm, ⟨9, _⟩ => ⟨S4x8x512x512x16, .f32⟩
  | .hbm, ⟨10, _⟩ => ⟨S_, .f32⟩
  | .hbm, ⟨11, _⟩ => ⟨S8x512x512x16, .f32⟩
  | .hbm, ⟨12, _⟩ => ⟨S8, .i32⟩
  | .hbm, ⟨13, _⟩ => ⟨S1x8x1x1, .i32⟩
  | .hbm, ⟨14, _⟩ => ⟨S4x8x512x512, .i32⟩
  | .hbm, ⟨15, _⟩ => ⟨S_, .i32⟩
  | .hbm, ⟨16, _⟩ => ⟨S4x8x512x512, .i32⟩
  | .hbm, ⟨17, _⟩ => ⟨S4x8x512x512, .i1⟩
  | .hbm, ⟨18, _⟩ => ⟨S_, .i32⟩
  | .hbm, ⟨19, _⟩ => ⟨S4x8x512x512, .i32⟩
  | .hbm, ⟨20, _⟩ => ⟨S4x8x512x512, .i32⟩
  | .hbm, ⟨21, _⟩ => ⟨S4x8x512x512, .i32⟩
  | .hbm, ⟨22, _⟩ => ⟨S_, .i32⟩
  | .hbm, ⟨23, _⟩ => ⟨S4x8x512x512, .i32⟩
  | .hbm, ⟨24, _⟩ => ⟨S4x8x512x512, .i1⟩
  | .hbm, ⟨25, _⟩ => ⟨S_, .i32⟩
  | .hbm, ⟨26, _⟩ => ⟨S4x8x512x512, .i32⟩
  | .hbm, ⟨27, _⟩ => ⟨S4x8x512x512, .i32⟩
  | .hbm, ⟨28, _⟩ => ⟨S4x8x512x512, .i32⟩
  | .hbm, ⟨29, _⟩ => ⟨S_, .i32⟩
  | .hbm, ⟨30, _⟩ => ⟨S4x8x512x512, .i32⟩
  | .hbm, ⟨31, _⟩ => ⟨S4x8x512x512, .i1⟩
  | .hbm, ⟨32, _⟩ => ⟨S_, .i32⟩
  | .hbm, ⟨33, _⟩ => ⟨S4x8x512x512, .i32⟩
  | .hbm, ⟨34, _⟩ => ⟨S4x8x512x512, .i32⟩
  | .hbm, ⟨35, _⟩ => ⟨S4x8x512x512, .i32⟩
  | .hbm, ⟨36, _⟩ => ⟨S4x8x512x512x1, .i32⟩
  | .hbm, ⟨37, _⟩ => ⟨S4x8x512x512x1, .i32⟩
  | .hbm, ⟨38, _⟩ => ⟨S4x8x512x512x1, .i32⟩
  | .hbm, ⟨39, _⟩ => ⟨S4x8x512x512x3, .i32⟩
  | .hbm, ⟨40, _⟩ => ⟨S8x512x512x16, .f32⟩
  | .hbm, ⟨41, _⟩ => ⟨S8x16x512x512, .f32⟩
  | .local _ .vmem, ⟨0, _⟩ => ⟨S1x16x64x512, .f32⟩
  | .local _ .vmem, ⟨1, _⟩ => ⟨S1x16x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S4x1x16x64x512, .f32⟩
  | .local _ .vmem, ⟨7, _⟩ => ⟨S4x1x16x64x512, .f32⟩
  | .local _ .vmem, ⟨8, _⟩ => ⟨S4x1x64x512, .i32⟩
  | .local _ .vmem, ⟨9, _⟩ => ⟨S4x1x64x512, .i32⟩
  | .local _ .vmem, ⟨10, _⟩ => ⟨S4x1x64x512, .i32⟩
  | .local _ .vmem, ⟨11, _⟩ => ⟨S4x1x64x512, .i32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x64x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x64x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  slices_S8x512x512x2_S8x512x512x1_0_0_0_1 : S8x512x512x2.Slices ![0, 0, 0, 1] S8x512x512x1
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  broadcasts_S1x64x512_S16x64x512 : S1x64x512.Broadcasts S16x64x512
  inb_S4x1x16x64x512_S1x1x16x64x512_0_0_0_0_0 : ∀ a, (![0, 0, 0, 0, 0] : Fin 5 → Nat) a + S1x1x16x64x512.size a ≤ S4x1x16x64x512.size a
  h_S1x1x16x64x512 : 0 < S1x1x16x64x512.numel
  shapeCasts_S1x1x16x64x512_S16x64x512 : S1x1x16x64x512.ShapeCasts S16x64x512
  shapeCasts_S16x64x512_S1x1x16x64x512 : S16x64x512.ShapeCasts S1x1x16x64x512
  inb_S4x1x64x512_S1x1x64x512_0_0_0_0 : ∀ a, (![0, 0, 0, 0] : Fin 4 → Nat) a + S1x1x64x512.size a ≤ S4x1x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S4x1x16x64x512_S1x1x16x64x512_1_0_0_0_0 : ∀ a, (![1, 0, 0, 0, 0] : Fin 5 → Nat) a + S1x1x16x64x512.size a ≤ S4x1x16x64x512.size a
  inb_S4x1x64x512_S1x1x64x512_1_0_0_0 : ∀ a, (![1, 0, 0, 0] : Fin 4 → Nat) a + S1x1x64x512.size a ≤ S4x1x64x512.size a
  inb_S4x1x16x64x512_S1x1x16x64x512_2_0_0_0_0 : ∀ a, (![2, 0, 0, 0, 0] : Fin 5 → Nat) a + S1x1x16x64x512.size a ≤ S4x1x16x64x512.size a
  inb_S4x1x64x512_S1x1x64x512_2_0_0_0 : ∀ a, (![2, 0, 0, 0] : Fin 4 → Nat) a + S1x1x64x512.size a ≤ S4x1x64x512.size a
  inb_S4x1x16x64x512_S1x1x16x64x512_3_0_0_0_0 : ∀ a, (![3, 0, 0, 0, 0] : Fin 5 → Nat) a + S1x1x16x64x512.size a ≤ S4x1x16x64x512.size a
  inb_S4x1x64x512_S1x1x64x512_3_0_0_0 : ∀ a, (![3, 0, 0, 0] : Fin 4 → Nat) a + S1x1x64x512.size a ≤ S4x1x64x512.size a
  transposes_S4x8x16x512x512_S4x8x512x512x16_0_1_3_4_2 : S4x8x16x512x512.Transposes [0, 1, 3, 4, 2] S4x8x512x512x16
  bcast_S_S8x512x512x16 : S_.BroadcastsInDim S8x512x512x16 (![] : Fin 0 → Fin S8x512x512x16.rank)
  bcast_S8_S1x8x1x1_1 : S8.BroadcastsInDim S1x8x1x1 (![1] : Fin 1 → Fin S1x8x1x1.rank)
  bcast_S1x8x1x1_S4x8x512x512_0_1_2_3 : S1x8x1x1.BroadcastsInDim S4x8x512x512 (![0, 1, 2, 3] : Fin 4 → Fin S4x8x512x512.rank)
  bcast_S_S4x8x512x512 : S_.BroadcastsInDim S4x8x512x512 (![] : Fin 0 → Fin S4x8x512x512.rank)
  bcast_S4x8x512x512_S4x8x512x512x1_0_1_2_3 : S4x8x512x512.BroadcastsInDim S4x8x512x512x1 (![0, 1, 2, 3] : Fin 4 → Fin S4x8x512x512x1.rank)
  concatenates_S4x8x512x512x1_S4x8x512x512x1_S4x8x512x512x1_S4x8x512x512x3_d4 : Shape.Concatenates [S4x8x512x512x1, S4x8x512x512x1, S4x8x512x512x1] S4x8x512x512x3 4
  transposes_S8x512x512x16_S8x16x512x512_0_3_1_2 : S8x512x512x16.Transposes [0, 3, 1, 2] S8x16x512x512
  scatter_S8x512x512x16_S4x8x512x512x3_S4x8x512x512x16_4_012_012_4_wf : ScatterDims.WF S8x512x512x16 S4x8x512x512x3 S4x8x512x512x16 [4] [0, 1, 2] [0, 1, 2] 4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x512.size a ≤ S8x16x512x512.size a
  hwx0_0 : ∀ i : grid0.Coords, EltTy.bits .f32 = 32 ∨ (Rect.block (s := S8x16x512x512) S1x16x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x512x512.size a
  hwx0_1 : ∀ i : grid0.Coords, EltTy.bits .f32 = 32 ∨ (Rect.block (s := S8x512x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S8x512x512.size a
  hwx0_2 : ∀ i : grid0.Coords, EltTy.bits .f32 = 32 ∨ (Rect.block (s := S8x512x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x16x64x512.size a ≤ S4x8x16x512x512.size a
  hwx0_3 : ∀ i : grid0.Coords, EltTy.bits .f32 = 32 ∨ (Rect.block (s := S4x8x16x512x512) S4x1x16x64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x64x512.size a ≤ S4x8x512x512.size a
  hwx0_4 : ∀ i : grid0.Coords, EltTy.bits .i32 = 32 ∨ (Rect.block (s := S4x8x512x512) S4x1x64x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1x64x512.size a ≤ S4x8x512x512.size a
  hwx0_5 : ∀ i : grid0.Coords, EltTy.bits .i32 = 32 ∨ (Rect.block (s := S4x8x512x512) S4x1x64x512.size (cc0_transform_5 i) (hinb0_5 i)).WholeWords (EltTy.packing .i32)

variable [Facts₀]

def scatter_S8x512x512x16_S4x8x512x512x3_S4x8x512x512x16_4_012_012_4 : ScatterDims S8x512x512x16 S4x8x512x512x3 S4x8x512x512x16 where
  updateWindowDims := [4]
  insertedWindowDims := [0, 1, 2]
  scatterDimsToOperandDims := [0, 1, 2]
  indexVectorDim := 4
  wf := scatter_S8x512x512x16_S4x8x512x512x3_S4x8x512x512x16_4_012_012_4_wf

abbrev win0_0 : Pipeline.Window sig grid0 :=
  Pipeline.Window.ofSpec (Memref.whole main_arg0) S1x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S4x1x16x64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S4x1x64x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S4x1x64x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x512x512x2 : Shape := ⟨4, ![8, 512, 512, 2]⟩
abbrev S_ : Shape := ⟨0, ![]⟩
abbrev S8x512x512x1 : Shape := ⟨4, ![8, 512, 512, 1]⟩
abbrev S8x512x512 : Shape := ⟨3, ![8, 512, 512]⟩
abbrev S8x16x515x515 : Shape := ⟨4, ![8, 16, 515, 515]⟩
abbrev S8 : Shape := ⟨1, ![8]⟩
abbrev S8x1x1 : Shape := ⟨3, ![8, 1, 1]⟩
abbrev S8x512x512x16 : Shape := ⟨4, ![8, 512, 512, 16]⟩
abbrev S8x512x512x3 : Shape := ⟨4, ![8, 512, 512, 3]⟩

abbrev nBuf : Space → Nat
  | .hbm => 270
  | .vmem => 0
  | .smem => 0
  | _ => 0

abbrev hbmTy0_0 (i : Nat) : BufTy := match i % 128 with
  | 0 => ⟨S8x16x512x512, .f32⟩
  | 1 => ⟨S8x512x512x2, .f32⟩
  | 2 => ⟨S_, .f32⟩
  | 3 => ⟨S8x512x512x2, .f32⟩
  | 4 => ⟨S8x512x512x2, .f32⟩
  | 5 => ⟨S_, .f32⟩
  | 6 => ⟨S8x512x512x2, .f32⟩
  | 7 => ⟨S8x512x512x2, .f32⟩
  | 8 => ⟨S8x512x512x1, .f32⟩
  | 9 => ⟨S8x512x512, .f32⟩
  | 10 => ⟨S_, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S_, .f32⟩
  | 17 => ⟨S_, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512x1, .f32⟩
  | 25 => ⟨S8x512x512, .f32⟩
  | 26 => ⟨S_, .f32⟩
  | 27 => ⟨S8x512x512, .f32⟩
  | 28 => ⟨S8x512x512, .f32⟩
  | 29 => ⟨S_, .f32⟩
  | 30 => ⟨S8x512x512, .f32⟩
  | 31 => ⟨S8x512x512, .f32⟩
  | 32 => ⟨S_, .f32⟩
  | 33 => ⟨S_, .f32⟩
  | 34 => ⟨S_, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .f32⟩
  | 41 => ⟨S8x512x512, .i32⟩
  | 42 => ⟨S8x512x512, .f32⟩
  | 43 => ⟨S8x512x512, .i32⟩
  | 44 => ⟨S_, .f32⟩
  | 45 => ⟨S8x16x515x515, .f32⟩
  | 46 => ⟨S8, .i32⟩
  | 47 => ⟨S8x1x1, .i32⟩
  | 48 => ⟨S8x512x512x16, .f32⟩
  | 49 => ⟨S_, .i32⟩
  | 50 => ⟨S8x512x512, .i32⟩
  | 51 => ⟨S8x512x512, .i32⟩
  | 52 => ⟨S8x512x512, .f32⟩
  | 53 => ⟨S8x512x512, .f32⟩
  | 54 => ⟨S8x512x512, .f32⟩
  | 55 => ⟨S_, .f32⟩
  | 56 => ⟨S8x512x512, .f32⟩
  | 57 => ⟨S8x512x512, .f32⟩
  | 58 => ⟨S_, .f32⟩
  | 59 => ⟨S8x512x512, .f32⟩
  | 60 => ⟨S8x512x512, .f32⟩
  | 61 => ⟨S_, .i32⟩
  | 62 => ⟨S8x512x512, .i32⟩
  | 63 => ⟨S8x512x512, .i32⟩
  | 64 => ⟨S8x512x512, .f32⟩
  | 65 => ⟨S8x512x512, .f32⟩
  | 66 => ⟨S8x512x512, .f32⟩
  | 67 => ⟨S_, .f32⟩
  | 68 => ⟨S8x512x512, .f32⟩
  | 69 => ⟨S8x512x512, .f32⟩
  | 70 => ⟨S_, .f32⟩
  | 71 => ⟨S8x512x512, .f32⟩
  | 72 => ⟨S8x512x512, .f32⟩
  | 73 => ⟨S8x512x512, .f32⟩
  | 74 => ⟨S8x512x512x1, .f32⟩
  | 75 => ⟨S_, .i32⟩
  | 76 => ⟨S8x512x512, .i32⟩
  | 77 => ⟨S8x512x512, .i32⟩
  | 78 => ⟨S_, .i32⟩
  | 79 => ⟨S8x512x512, .i32⟩
  | 80 => ⟨S8x512x512, .i32⟩
  | 81 => ⟨S8x512x512x16, .f32⟩
  | 82 => ⟨S8x512x512x16, .f32⟩
  | 83 => ⟨S_, .i32⟩
  | 84 => ⟨S8x1x1, .i32⟩
  | 85 => ⟨S8x1x1, .i1⟩
  | 86 => ⟨S_, .i32⟩
  | 87 => ⟨S8x1x1, .i32⟩
  | 88 => ⟨S8x1x1, .i32⟩
  | 89 => ⟨S8x1x1, .i32⟩
  | 90 => ⟨S_, .i32⟩
  | 91 => ⟨S8x512x512, .i32⟩
  | 92 => ⟨S8x512x512, .i1⟩
  | 93 => ⟨S_, .i32⟩
  | 94 => ⟨S8x512x512, .i32⟩
  | 95 => ⟨S8x512x512, .i32⟩
  | 96 => ⟨S8x512x512, .i32⟩
  | 97 => ⟨S_, .i32⟩
  | 98 => ⟨S8x512x512, .i32⟩
  | 99 => ⟨S8x512x512, .i1⟩
  | 100 => ⟨S_, .i32⟩
  | 101 => ⟨S8x512x512, .i32⟩
  | 102 => ⟨S8x512x512, .i32⟩
  | 103 => ⟨S8x512x512, .i32⟩
  | 104 => ⟨S8x512x512, .i32⟩
  | 105 => ⟨S8x512x512x1, .i32⟩
  | 106 => ⟨S8x512x512x1, .i32⟩
  | 107 => ⟨S8x512x512x1, .i32⟩
  | 108 => ⟨S8x512x512x3, .i32⟩
  | 109 => ⟨S8x16x515x515, .f32⟩
  | 110 => ⟨S_, .i32⟩
  | 111 => ⟨S8x512x512, .i32⟩
  | 112 => ⟨S8x512x512, .i32⟩
  | 113 => ⟨S8x512x512, .f32⟩
  | 114 => ⟨S8x512x512, .f32⟩
  | 115 => ⟨S8x512x512, .f32⟩
  | 116 => ⟨S_, .f32⟩
  | 117 => ⟨S8x512x512, .f32⟩
  | 118 => ⟨S8x512x512, .f32⟩
  | 119 => ⟨S_, .f32⟩
  | 120 => ⟨S8x512x512, .f32⟩
  | 121 => ⟨S8x512x512, .f32⟩
  | 122 => ⟨S8x512x512, .f32⟩
  | 123 => ⟨S8x512x512x1, .f32⟩
  | 124 => ⟨S_, .i32⟩
  | 125 => ⟨S8x512x512, .i32⟩
  | 126 => ⟨S8x512x512, .i32⟩
  | 127 => ⟨S_, .i32⟩
  | _ => ⟨S8x16x512x512, .f32⟩

abbrev hbmTy0_1 (i : Nat) : BufTy := match i % 128 with
  | 0 => ⟨S8x512x512, .i32⟩
  | 1 => ⟨S8x512x512, .i32⟩
  | 2 => ⟨S8x512x512x16, .f32⟩
  | 3 => ⟨S8x512x512x16, .f32⟩
  | 4 => ⟨S_, .i32⟩
  | 5 => ⟨S8x1x1, .i32⟩
  | 6 => ⟨S8x1x1, .i1⟩
  | 7 => ⟨S_, .i32⟩
  | 8 => ⟨S8x1x1, .i32⟩
  | 9 => ⟨S8x1x1, .i32⟩
  | 10 => ⟨S8x1x1, .i32⟩
  | 11 => ⟨S_, .i32⟩
  | 12 => ⟨S8x512x512, .i32⟩
  | 13 => ⟨S8x512x512, .i1⟩
  | 14 => ⟨S_, .i32⟩
  | 15 => ⟨S8x512x512, .i32⟩
  | 16 => ⟨S8x512x512, .i32⟩
  | 17 => ⟨S8x512x512, .i32⟩
  | 18 => ⟨S_, .i32⟩
  | 19 => ⟨S8x512x512, .i32⟩
  | 20 => ⟨S8x512x512, .i1⟩
  | 21 => ⟨S_, .i32⟩
  | 22 => ⟨S8x512x512, .i32⟩
  | 23 => ⟨S8x512x512, .i32⟩
  | 24 => ⟨S8x512x512, .i32⟩
  | 25 => ⟨S8x512x512, .i32⟩
  | 26 => ⟨S8x512x512x1, .i32⟩
  | 27 => ⟨S8x512x512x1, .i32⟩
  | 28 => ⟨S8x512x512x1, .i32⟩
  | 29 => ⟨S8x512x512x3, .i32⟩
  | 30 => ⟨S8x16x515x515, .f32⟩
  | 31 => ⟨S_, .i32⟩
  | 32 => ⟨S8x512x512, .i32⟩
  | 33 => ⟨S8x512x512, .i32⟩
  | 34 => ⟨S8x512x512, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S_, .f32⟩
  | 41 => ⟨S8x512x512, .f32⟩
  | 42 => ⟨S8x512x512, .f32⟩
  | 43 => ⟨S_, .i32⟩
  | 44 => ⟨S8x512x512, .i32⟩
  | 45 => ⟨S8x512x512, .i32⟩
  | 46 => ⟨S8x512x512, .f32⟩
  | 47 => ⟨S8x512x512, .f32⟩
  | 48 => ⟨S8x512x512, .f32⟩
  | 49 => ⟨S_, .f32⟩
  | 50 => ⟨S8x512x512, .f32⟩
  | 51 => ⟨S8x512x512, .f32⟩
  | 52 => ⟨S_, .f32⟩
  | 53 => ⟨S8x512x512, .f32⟩
  | 54 => ⟨S8x512x512, .f32⟩
  | 55 => ⟨S8x512x512, .f32⟩
  | 56 => ⟨S8x512x512x1, .f32⟩
  | 57 => ⟨S_, .i32⟩
  | 58 => ⟨S8x512x512, .i32⟩
  | 59 => ⟨S8x512x512, .i32⟩
  | 60 => ⟨S_, .i32⟩
  | 61 => ⟨S8x512x512, .i32⟩
  | 62 => ⟨S8x512x512, .i32⟩
  | 63 => ⟨S8x512x512x16, .f32⟩
  | 64 => ⟨S8x512x512x16, .f32⟩
  | 65 => ⟨S_, .i32⟩
  | 66 => ⟨S8x1x1, .i32⟩
  | 67 => ⟨S8x1x1, .i1⟩
  | 68 => ⟨S_, .i32⟩
  | 69 => ⟨S8x1x1, .i32⟩
  | 70 => ⟨S8x1x1, .i32⟩
  | 71 => ⟨S8x1x1, .i32⟩
  | 72 => ⟨S_, .i32⟩
  | 73 => ⟨S8x512x512, .i32⟩
  | 74 => ⟨S8x512x512, .i1⟩
  | 75 => ⟨S_, .i32⟩
  | 76 => ⟨S8x512x512, .i32⟩
  | 77 => ⟨S8x512x512, .i32⟩
  | 78 => ⟨S8x512x512, .i32⟩
  | 79 => ⟨S_, .i32⟩
  | 80 => ⟨S8x512x512, .i32⟩
  | 81 => ⟨S8x512x512, .i1⟩
  | 82 => ⟨S_, .i32⟩
  | 83 => ⟨S8x512x512, .i32⟩
  | 84 => ⟨S8x512x512, .i32⟩
  | 85 => ⟨S8x512x512, .i32⟩
  | 86 => ⟨S8x512x512, .i32⟩
  | 87 => ⟨S8x512x512x1, .i32⟩
  | 88 => ⟨S8x512x512x1, .i32⟩
  | 89 => ⟨S8x512x512x1, .i32⟩
  | 90 => ⟨S8x512x512x3, .i32⟩
  | 91 => ⟨S8x16x515x515, .f32⟩
  | 92 => ⟨S_, .i32⟩
  | 93 => ⟨S8x512x512, .i32⟩
  | 94 => ⟨S8x512x512, .i32⟩
  | 95 => ⟨S8x512x512, .f32⟩
  | 96 => ⟨S8x512x512, .f32⟩
  | 97 => ⟨S8x512x512, .f32⟩
  | 98 => ⟨S_, .f32⟩
  | 99 => ⟨S8x512x512, .f32⟩
  | 100 => ⟨S8x512x512, .f32⟩
  | 101 => ⟨S_, .f32⟩
  | 102 => ⟨S8x512x512, .f32⟩
  | 103 => ⟨S8x512x512, .f32⟩
  | 104 => ⟨S8x512x512, .f32⟩
  | 105 => ⟨S8x512x512x1, .f32⟩
  | 106 => ⟨S_, .i32⟩
  | 107 => ⟨S8x512x512, .i32⟩
  | 108 => ⟨S8x512x512, .i32⟩
  | 109 => ⟨S_, .i32⟩
  | 110 => ⟨S8x512x512, .i32⟩
  | 111 => ⟨S8x512x512, .i32⟩
  | 112 => ⟨S8x512x512x16, .f32⟩
  | 113 => ⟨S8x512x512x16, .f32⟩
  | 114 => ⟨S_, .i32⟩
  | 115 => ⟨S8x1x1, .i32⟩
  | 116 => ⟨S8x1x1, .i1⟩
  | 117 => ⟨S_, .i32⟩
  | 118 => ⟨S8x1x1, .i32⟩
  | 119 => ⟨S8x1x1, .i32⟩
  | 120 => ⟨S8x1x1, .i32⟩
  | 121 => ⟨S_, .i32⟩
  | 122 => ⟨S8x512x512, .i32⟩
  | 123 => ⟨S8x512x512, .i1⟩
  | 124 => ⟨S_, .i32⟩
  | 125 => ⟨S8x512x512, .i32⟩
  | 126 => ⟨S8x512x512, .i32⟩
  | 127 => ⟨S8x512x512, .i32⟩
  | _ => ⟨S8x16x512x512, .f32⟩

abbrev hbmTy0_2 (i : Nat) : BufTy := match i % 128 with
  | 0 => ⟨S_, .i32⟩
  | 1 => ⟨S8x512x512, .i32⟩
  | 2 => ⟨S8x512x512, .i1⟩
  | 3 => ⟨S_, .i32⟩
  | 4 => ⟨S8x512x512, .i32⟩
  | 5 => ⟨S8x512x512, .i32⟩
  | 6 => ⟨S8x512x512, .i32⟩
  | 7 => ⟨S8x512x512, .i32⟩
  | 8 => ⟨S8x512x512x1, .i32⟩
  | 9 => ⟨S8x512x512x1, .i32⟩
  | 10 => ⟨S8x512x512x1, .i32⟩
  | 11 => ⟨S8x512x512x3, .i32⟩
  | 12 => ⟨S8x16x515x515, .f32⟩
  | 13 => ⟨S8x16x512x512, .f32⟩
  | _ => ⟨S8x16x512x512, .f32⟩

abbrev hbmTy (i : Nat) : BufTy := match i / 128 with
  | 0 => hbmTy0_0 i
  | 1 => hbmTy0_1 i
  | 2 => hbmTy0_2 i
  | _ => ⟨S8x16x512x512, .f32⟩

abbrev bufTy : (tb : Table) → Fin (tcTables nBuf tb) → BufTy
  | .hbm, ⟨i, _⟩ => hbmTy i
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_cst_8 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_10 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_12 : Ref sig .tc := ⟨.hbm, 67, rfl⟩
abbrev main_v39 : Ref sig .tc := ⟨.hbm, 68, rfl⟩
abbrev main_v40 : Ref sig .tc := ⟨.hbm, 69, rfl⟩
abbrev main_call3_cst : Ref sig .tc := ⟨.hbm, 70, rfl⟩
abbrev main_call3_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_13 : Ref sig .tc := ⟨.hbm, 75, rfl⟩
abbrev main_v44 : Ref sig .tc := ⟨.hbm, 76, rfl⟩
abbrev main_v45 : Ref sig .tc := ⟨.hbm, 77, rfl⟩
abbrev main_c_14 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_15 : Ref sig .tc := ⟨.hbm, 83, rfl⟩
abbrev main_v50 : Ref sig .tc := ⟨.hbm, 84, rfl⟩
abbrev main_v51 : Ref sig .tc := ⟨.hbm, 85, rfl⟩
abbrev main_c_16 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_17 : Ref sig .tc := ⟨.hbm, 90, rfl⟩
abbrev main_v55 : Ref sig .tc := ⟨.hbm, 91, rfl⟩
abbrev main_v56 : Ref sig .tc := ⟨.hbm, 92, rfl⟩
abbrev main_c_18 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_19 : Ref sig .tc := ⟨.hbm, 97, rfl⟩
abbrev main_v60 : Ref sig .tc := ⟨.hbm, 98, rfl⟩
abbrev main_v61 : Ref sig .tc := ⟨.hbm, 99, rfl⟩
abbrev main_c_20 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_21 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_22 : Ref sig .tc := ⟨.hbm, 116, rfl⟩
abbrev main_v76 : Ref sig .tc := ⟨.hbm, 117, rfl⟩
abbrev main_v77 : Ref sig .tc := ⟨.hbm, 118, rfl⟩
abbrev main_call4_cst : Ref sig .tc := ⟨.hbm, 119, rfl⟩
abbrev main_call4_v0 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_23 : Ref sig .tc := ⟨.hbm, 124, rfl⟩
abbrev main_v81 : Ref sig .tc := ⟨.hbm, 125, rfl⟩
abbrev main_v82 : Ref sig .tc := ⟨.hbm, 126, rfl⟩
abbrev main_c_24 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_25 : Ref sig .tc := ⟨.hbm, 132, rfl⟩
abbrev main_v87 : Ref sig .tc := ⟨.hbm, 133, rfl⟩
abbrev main_v88 : Ref sig .tc := ⟨.hbm, 134, rfl⟩
abbrev main_c_26 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_c_27 : Ref sig .tc := ⟨.hbm, 139, rfl⟩
abbrev main_v92 : Ref sig .tc := ⟨.hbm, 140, rfl⟩
abbrev main_v93 : Ref sig .tc := ⟨.hbm, 141, rfl⟩
abbrev main_c_28 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_29 : Ref sig .tc := ⟨.hbm, 146, rfl⟩
abbrev main_v97 : Ref sig .tc := ⟨.hbm, 147, rfl⟩
abbrev main_v98 : Ref sig .tc := ⟨.hbm, 148, rfl⟩
abbrev main_c_30 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_c_31 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_cst_32 : Ref sig .tc := ⟨.hbm, 165, rfl⟩
abbrev main_v113 : Ref sig .tc := ⟨.hbm, 166, rfl⟩
abbrev main_v114 : Ref sig .tc := ⟨.hbm, 167, rfl⟩
abbrev main_call5_cst : Ref sig .tc := ⟨.hbm, 168, rfl⟩
abbrev main_call5_v0 : Ref sig .tc := ⟨.hbm, 169, rfl⟩
abbrev main_v115 : Ref sig .tc := ⟨.hbm, 170, rfl⟩
abbrev main_c_33 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_34 : Ref sig .tc := ⟨.hbm, 177, rfl⟩
abbrev main_v121 : Ref sig .tc := ⟨.hbm, 178, rfl⟩
abbrev main_v122 : Ref sig .tc := ⟨.hbm, 179, rfl⟩
abbrev main_call6_cst : Ref sig .tc := ⟨.hbm, 180, rfl⟩
abbrev main_call6_v0 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_c_35 : Ref sig .tc := ⟨.hbm, 185, rfl⟩
abbrev main_v126 : Ref sig .tc := ⟨.hbm, 186, rfl⟩
abbrev main_v127 : Ref sig .tc := ⟨.hbm, 187, rfl⟩
abbrev main_c_36 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_c_37 : Ref sig .tc := ⟨.hbm, 193, rfl⟩
abbrev main_v132 : Ref sig .tc := ⟨.hbm, 194, rfl⟩
abbrev main_v133 : Ref sig .tc := ⟨.hbm, 195, rfl⟩
abbrev main_c_38 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_c_39 : Ref sig .tc := ⟨.hbm, 200, rfl⟩
abbrev main_v137 : Ref sig .tc := ⟨.hbm, 201, rfl⟩
abbrev main_v138 : Ref sig .tc := ⟨.hbm, 202, rfl⟩
abbrev main_c_40 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_c_41 : Ref sig .tc := ⟨.hbm, 207, rfl⟩
abbrev main_v142 : Ref sig .tc := ⟨.hbm, 208, rfl⟩
abbrev main_v143 : Ref sig .tc := ⟨.hbm, 209, rfl⟩
abbrev main_c_42 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_c_43 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_cst_44 : Ref sig .tc := ⟨.hbm, 226, rfl⟩
abbrev main_v158 : Ref sig .tc := ⟨.hbm, 227, rfl⟩
abbrev main_v159 : Ref sig .tc := ⟨.hbm, 228, rfl⟩
abbrev main_call7_cst : Ref sig .tc := ⟨.hbm, 229, rfl⟩
abbrev main_call7_v0 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_c_45 : Ref sig .tc := ⟨.hbm, 234, rfl⟩
abbrev main_v163 : Ref sig .tc := ⟨.hbm, 235, rfl⟩
abbrev main_v164 : Ref sig .tc := ⟨.hbm, 236, rfl⟩
abbrev main_c_46 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_c_47 : Ref sig .tc := ⟨.hbm, 242, rfl⟩
abbrev main_v169 : Ref sig .tc := ⟨.hbm, 243, rfl⟩
abbrev main_v170 : Ref sig .tc := ⟨.hbm, 244, rfl⟩
abbrev main_c_48 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_c_49 : Ref sig .tc := ⟨.hbm, 249, rfl⟩
abbrev main_v174 : Ref sig .tc := ⟨.hbm, 250, rfl⟩
abbrev main_v175 : Ref sig .tc := ⟨.hbm, 251, rfl⟩
abbrev main_c_50 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_51 : Ref sig .tc := ⟨.hbm, 256, rfl⟩
abbrev main_v179 : Ref sig .tc := ⟨.hbm, 257, rfl⟩
abbrev main_v180 : Ref sig .tc := ⟨.hbm, 258, rfl⟩
abbrev main_c_52 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩

abbrev nD : Nat := 1
abbrev τ : Topo := Topo.v7x

variable {F : FTy → Type} [FloatOps F]

class Facts₀ : Prop where
  bcast_S_S8x512x512x2 : S_.BroadcastsInDim S8x512x512x2 (![] : Fin 0 → Fin S8x512x512x2.rank)
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S_S8x16x515x515 : S_.BroadcastsInDim S8x16x515x515 (![] : Fin 0 → Fin S8x16x515x515.rank)
  bcast_S8_S8x1x1_0 : S8.BroadcastsInDim S8x1x1 (![0] : Fin 1 → Fin S8x1x1.rank)
  transposes_S8x16x512x512_S8x512x512x16_0_2_3_1 : S8x16x512x512.Transposes [0, 2, 3, 1] S8x512x512x16
  bcast_S8x512x512_S8x512x512x1_0_1_2 : S8x512x512.BroadcastsInDim S8x512x512x1 (![0, 1, 2] : Fin 3 → Fin S8x512x512x1.rank)
  bcast_S8x512x512x1_S8x512x512x16_0_1_2_3 : S8x512x512x1.BroadcastsInDim S8x512x512x16 (![0, 1, 2, 3] : Fin 4 → Fin S8x512x512x16.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  concatenates_S8x512x512x1_S8x512x512x1_S8x512x512x1_S8x512x512x3_d3 : Shape.Concatenates [S8x512x512x1, S8x512x512x1, S8x512x512x1] S8x512x512x3 3
  slices_S8x16x515x515_S8x16x512x512_0_0_1_1 : S8x16x515x515.Slices ![0, 0, 1, 1] S8x16x512x512
  scatter_S8x16x515x515_S8x512x512x3_S8x512x512x16_3_023_023_3_wf : ScatterDims.WF S8x16x515x515 S8x512x512x3 S8x512x512x16 [3] [0, 2, 3] [0, 2, 3] 3

variable [Facts₀]

def scatter_S8x16x515x515_S8x512x512x3_S8x512x512x16_3_023_023_3 : ScatterDims S8x16x515x515 S8x512x512x3 S8x512x512x16 where
  updateWindowDims := [3]
  insertedWindowDims := [0, 2, 3]
  scatterDimsToOperandDims := [0, 2, 3]
  indexVectorDim := 3
  wf := scatter_S8x16x515x515_S8x512x512x3_S8x512x512x16_3_023_023_3_wf

class Facts : Prop extends Facts₀ where

variable [Facts]
-- ==== Proof.KernelFrame.lean ====
/- The frame of `Cert.Kernel`: @main around its one region, the contents of the argument arrays there, each
   window's block at a grid point, what the body leaves in each output window's buffer (the canon of its four
   stores over the three input blocks), the body's triple, the proof data of the pipeline, the body obligation,
   the run of @main and the frame claim at any `F`. -/
import proofs.«149145_j3066606649873_2_alg».proof.Proof.Gen.Kernel.Launch
import proofs.«149145_j3066606649873_2_alg».proof.Proof.Gen.Kernel.Skeleton
import proofs.«149145_j3066606649873_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered, as a valuation: after the four host operations before
    the region (the two slices of `main_arg1` and their reshapes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No operation after the region writes window `w`'s array: each writes only its own result buffer, which is no
    array of the pipeline. -/
theorem hostOps1_keeps (w : Fin 6) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact fun w => (List.forall_iff_forall_mem.mp (hostOps1_keeps w)) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor `main_arg1` (they read it). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from a run to the library's frame post, for any proof data whose arrays are the
    region-entry contents: `main_arg0` is input window 0's array, which ends at its entry contents, as launched;
    `main_arg1` is no window's array, and no operation before or after the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## The body's accesses -/

/-- The whole of input window 0's buffer, and of input window 1's and 2's. -/
abbrev rI0 : Rect S1x16x64x512 := Rect.unit (s := S1x16x64x512) ![0, 0, 0, 0] S1x16x64x512.size inb_S1x16x64x512_S1x16x64x512_0_0_0_0
abbrev rI1 : Rect S1x64x512 := Rect.unit (s := S1x64x512) ![0, 0, 0] S1x64x512.size inb_S1x64x512_S1x64x512_0_0_0
/-- Slab `k` (of four, along axis 0) of output window 3's buffer. -/
abbrev rA0 : Rect S4x1x16x64x512 := Rect.unit (s := S4x1x16x64x512) ![0, 0, 0, 0, 0] S1x1x16x64x512.size inb_S4x1x16x64x512_S1x1x16x64x512_0_0_0_0_0
abbrev rA1 : Rect S4x1x16x64x512 := Rect.unit (s := S4x1x16x64x512) ![1, 0, 0, 0, 0] S1x1x16x64x512.size inb_S4x1x16x64x512_S1x1x16x64x512_1_0_0_0_0
abbrev rA2 : Rect S4x1x16x64x512 := Rect.unit (s := S4x1x16x64x512) ![2, 0, 0, 0, 0] S1x1x16x64x512.size inb_S4x1x16x64x512_S1x1x16x64x512_2_0_0_0_0
abbrev rA3 : Rect S4x1x16x64x512 := Rect.unit (s := S4x1x16x64x512) ![3, 0, 0, 0, 0] S1x1x16x64x512.size inb_S4x1x16x64x512_S1x1x16x64x512_3_0_0_0_0
/-- Slab `k` (of four, along axis 0) of output window 4's and 5's buffers. -/
abbrev rB0 : Rect S4x1x64x512 := Rect.unit (s := S4x1x64x512) ![0, 0, 0, 0] S1x1x64x512.size inb_S4x1x64x512_S1x1x64x512_0_0_0_0
abbrev rB1 : Rect S4x1x64x512 := Rect.unit (s := S4x1x64x512) ![1, 0, 0, 0] S1x1x64x512.size inb_S4x1x64x512_S1x1x64x512_1_0_0_0
abbrev rB2 : Rect S4x1x64x512 := Rect.unit (s := S4x1x64x512) ![2, 0, 0, 0] S1x1x64x512.size inb_S4x1x64x512_S1x1x64x512_2_0_0_0
abbrev rB3 : Rect S4x1x64x512 := Rect.unit (s := S4x1x64x512) ![3, 0, 0, 0] S1x1x64x512.size inb_S4x1x64x512_S1x1x64x512_3_0_0_0

/-! ## The values the body computes from the three input blocks

`x0` is input window 0's block (the feature slab), `x1` and `x2` input windows 1's and 2's (the two coordinate
planes). Each value below is the body's value of the same number, as a function of the blocks. -/

/-- The feature slab without its unit axis. -/
def p_v1 (x0 : Vec F S1x16x64x512 .f32) : FVec F S16x64x512 .f32 := k0_pay2 (View.ld x0 rI0)
/-- The first coordinate in pixels, clamped to [0, 513]. -/
def p_v21 (x1 : Vec F S1x64x512 .f32) : FVec F S64x512 .f32 := k0_pay3 (View.ld x1 rI1)
/-- The second coordinate in pixels, clamped to [0, 513]. -/
def p_v29 (x2 : Vec F S1x64x512 .f32) : FVec F S64x512 .f32 := k0_pay4 (View.ld x2 rI1)
/-- Their integer floors. -/
def p_v31 (x1 : Vec F S1x64x512 .f32) : IVec S64x512 32 := k0_pay5 (View.ld x1 rI1)
def p_v33 (x2 : Vec F S1x64x512 .f32) : IVec S64x512 32 := k0_pay6 (View.ld x2 rI1)
/-- The constant -1. -/
def p_v34 : IVec S64x512 32 := k0_pay7
/-- The first corner index (floor minus one), whether it is in range, and its weight. -/
def p_v35 (x1 : Vec F S1x64x512 .f32) : IVec S64x512 32 := k0_pay8 (p_v31 x1) p_v34
def p_v40 (x1 : Vec F S1x64x512 .f32) : IVec S64x512 1 := k0_pay9 (p_v31 x1) p_v34
def p_v49 (x1 : Vec F S1x64x512 .f32) : FVec F S64x512 .f32 := k0_pay10 (p_v21 x1) (p_v31 x1)
/-- The second coordinate's two corner indices of the first pair of slabs. -/
def p_v51 (x2 : Vec F S1x64x512 .f32) : IVec S64x512 32 := k0_pay11 (p_v33 x2)
def p_v91 (x2 : Vec F S1x64x512 .f32) : IVec S64x512 32 := k0_pay15 (p_v33 x2)
/-- Slab 1's weighted features. -/
def p_v112 (x0 : Vec F S1x16x64x512 .f32) (x1 x2 : Vec F S1x64x512 .f32) : FVec F S16x64x512 .f32 :=
  k0_pay16 (p_v1 x0) (p_v29 x2) (p_v33 x2) (p_v40 x1) (p_v49 x1)
/-- The second corner index of the first coordinate, whether it is in range, and its weight. -/
def p_v131 (x1 : Vec F S1x64x512 .f32) : IVec S64x512 32 := k0_pay20 (p_v31 x1)
def p_v136 (x1 : Vec F S1x64x512 .f32) : IVec S64x512 1 := k0_pay21 (p_v31 x1)
def p_v145 (x1 : Vec F S1x64x512 .f32) : FVec F S64x512 .f32 := k0_pay22 (p_v21 x1) (p_v31 x1)
/-- The second coordinate's corner indices of the second pair of slabs. -/
def p_v147 (x2 : Vec F S1x64x512 .f32) : IVec S64x512 32 := k0_pay23 (p_v33 x2)
def p_v182 (x2 : Vec F S1x64x512 .f32) : IVec S64x512 32 := k0_pay26 (p_v147 x2)
def p_v220 (x2 : Vec F S1x64x512 .f32) : IVec S64x512 32 := k0_pay31 (p_v33 x2)

/-! ## What the body leaves in each output window's buffer -/

/-- Window 3's staging buffer after the body, from the input windows' blocks: its four stores, one per slab, as
    pieces, last first. -/
def out0_3 (x0 : Vec F S1x16x64x512 .f32) (x1 x2 : Vec F S1x64x512 .f32) : Vec F S4x1x16x64x512 .f32 :=
  View.canon [⟨rA3, k0_pay29 (p_v1 x0) (p_v29 x2) (p_v33 x2) (p_v136 x1) (p_v145 x1)⟩,
    ⟨rA2, k0_pay24 (p_v1 x0) (p_v29 x2) (p_v33 x2) (p_v136 x1) (p_v145 x1) (p_v147 x2) 0#32⟩,
    ⟨rA1, k0_pay17 (p_v112 x0 x1 x2)⟩,
    ⟨rA0, k0_pay12 (p_v1 x0) (p_v21 x1) (p_v29 x2) (p_v31 x1) (p_v33 x2) p_v34⟩]

/-- Its stores tile the buffer (checked by evaluation), so they cover it. -/
theorem cover0_3 (p0 p1 p2 p3 : Vec F S1x1x16x64x512 .f32) (y : S4x1x16x64x512.Idx) :
    ∃ pc ∈ ([⟨rA3, p0⟩, ⟨rA2, p1⟩, ⟨rA1, p2⟩, ⟨rA0, p3⟩] : List (View.Piece (Elt F) S4x1x16x64x512 .f32)), y ∈ pc.1.set :=
  View.cover_of_tiled [⟨rA3, p0⟩, ⟨rA2, p1⟩, ⟨rA1, p2⟩, ⟨rA0, p3⟩] S1x1x16x64x512.size (by rfl) y

/-- Window 4's staging buffer after the body: its four stores (the first coordinate's corner indices, clamped), last
    first. -/
def out0_4 (x0 : Vec F S1x16x64x512 .f32) (x1 x2 : Vec F S1x64x512 .f32) : Vec F S4x1x64x512 .i32 :=
  View.canon [⟨rB3, k0_pay30 (p_v131 x1)⟩,
    ⟨rB2, k0_pay25 (p_v131 x1)⟩,
    ⟨rB1, k0_pay18 (p_v35 x1)⟩,
    ⟨rB0, k0_pay13 (p_v35 x1) 0#32⟩]

theorem cover0_4 (p0 p1 p2 p3 : Vec F S1x1x64x512 .i32) (y : S4x1x64x512.Idx) :
    ∃ pc ∈ ([⟨rB3, p0⟩, ⟨rB2, p1⟩, ⟨rB1, p2⟩, ⟨rB0, p3⟩] : List (View.Piece (Elt F) S4x1x64x512 .i32)), y ∈ pc.1.set :=
  View.cover_of_tiled [⟨rB3, p0⟩, ⟨rB2, p1⟩, ⟨rB1, p2⟩, ⟨rB0, p3⟩] S1x1x64x512.size (by rfl) y

/-- Window 5's staging buffer after the body: its four stores (the second coordinate's corner indices, clamped), last
    first. -/
def out0_5 (x0 : Vec F S1x16x64x512 .f32) (x1 x2 : Vec F S1x64x512 .f32) : Vec F S4x1x64x512 .i32 :=
  View.canon [⟨rB3, k0_pay1 511#32 (p_v220 x2)⟩,
    ⟨rB2, k0_pay27 (p_v182 x2)⟩,
    ⟨rB1, k0_pay19 (p_v91 x2)⟩,
    ⟨rB0, k0_pay14 (p_v51 x2)⟩]

theorem cover0_5 (p0 p1 p2 p3 : Vec F S1x1x64x512 .i32) (y : S4x1x64x512.Idx) :
    ∃ pc ∈ ([⟨rB3, p0⟩, ⟨rB2, p1⟩, ⟨rB1, p2⟩, ⟨rB0, p3⟩] : List (View.Piece (Elt F) S4x1x64x512 .i32)), y ∈ pc.1.set :=
  View.cover_of_tiled [⟨rB3, p0⟩, ⟨rB2, p1⟩, ⟨rB1, p2⟩, ⟨rB0, p3⟩] S1x1x64x512.size (by rfl) y

/-! ## The body's triple -/

set_option maxHeartbeats 4000000 in
/-- The kernel body on whole staging memrefs, the inputs' at read contents `xW` and the outputs' at anything, runs to
    the continuation holding the inputs' as they were and each output's at `out0_W` of the inputs': the body reads the
    three input buffers whole, and fills each output buffer slab by slab (reading each slab before it stores it; what
    it reads there it never uses). -/
theorem sound_kernel (c : Dev nD) (E : Set ℕ) (i : grid0.Coords) (arg2 : Memref sig .tc .vmem S1x16x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S4x1x16x64x512 .f32) (harg5 : arg5.IsWhole) (arg6 : Memref sig .tc .vmem S4x1x64x512 .i32) (harg6 : arg6.IsWhole) (arg7 : Memref sig .tc .vmem S4x1x64x512 .i32) (harg7 : arg7.IsWhole)
    (x0 : Vec F S1x16x64x512 .f32) (x1 : Vec F S1x64x512 .f32) (x2 : Vec F S1x64x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__prep_kernel i arg2 harg2 arg3 harg3 arg4 harg4 arg5 harg5 arg6 harg6 arg7 harg7) K := by
  simp only [cc0__prep_kernel_eq_skeleton]; unfold cc0__prep_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _ _ _ _)
  isplitl [H4]
  · iexists _; isplitr
    swap; · iexact H4
    ipureintro
    try dsimp only
    exact View.read_writes_eq_canon _ _ _ (cover0_4 _ _ _ _)
  iexists _; isplitr
  swap; · iexact H5
  ipureintro
  try dsimp only
  exact View.read_writes_eq_canon _ _ _ (cover0_5 _ _ _ _)

/-! ## The pipeline's proof data -/

/-- The proof data of the one pipeline on core `c`: the arrays as the region finds them (`V`); after the body at
    point `t` each input's buffer at its block and each output's at `out0_W` of the three input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
    | ⟨5, _⟩ => out0_5 (iblk m c 0 t) (iblk m c 1 t) (iblk m c 2 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- For any values, from any memory with zero counters: every weakly fair execution of @main on the TensorCores
    terminates, and every final state has every array of the pipeline at what the proof data give and every other
    unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Frm

end
-- ==== Proof.KernelIdealFrame.lean ====
/- The frame of `Cert.KernelIdeal`: @main around its one region, the contents of the argument arrays there, each
   window's block at a grid point, what the body leaves in each output window's buffer (the canon of its four
   stores over the three input blocks), the body's triple, the proof data of the pipeline, the body obligation,
   the run of @main and the frame claim at any `F`. -/
import proofs.«149145_j3066606649873_2_alg».proof.Proof.Gen.KernelIdeal.Launch
import proofs.«149145_j3066606649873_2_alg».proof.Proof.Gen.KernelIdeal.Skeleton
import proofs.«149145_j3066606649873_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s buffer contents when the region is entered, as a valuation: after the four host operations before
    the region (the two slices of `main_arg1` and their reshapes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No operation after the region writes window `w`'s array: each writes only its own result buffer, which is no
    array of the pipeline. -/
theorem hostOps1_keeps (w : Fin 6) : (hostOps1 : List (HloOp τ sig (Elt F))).Forall fun op =>
    Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact fun w => (List.forall_iff_forall_mem.mp (hostOps1_keeps w)) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- Nor `main_arg1` (they read it). -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from a run to the library's frame post, for any proof data whose arrays are the
    region-entry contents: `main_arg0` is input window 0's array, which ends at its entry contents, as launched;
    `main_arg1` is no window's array, and no operation before or after the region writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c)⟩) h

/-! ## The body's accesses -/

/-- The whole of input window 0's buffer, and of input window 1's and 2's. -/
abbrev rI0 : Rect S1x16x64x512 := Rect.unit (s := S1x16x64x512) ![0, 0, 0, 0] S1x16x64x512.size inb_S1x16x64x512_S1x16x64x512_0_0_0_0
abbrev rI1 : Rect S1x64x512 := Rect.unit (s := S1x64x512) ![0, 0, 0] S1x64x512.size inb_S1x64x512_S1x64x512_0_0_0
/-- Slab `k` (of four, along axis 0) of output window 3's buffer. -/
abbrev rA0 : Rect S4x1x16x64x512 := Rect.unit (s := S4x1x16x64x512) ![0, 0, 0, 0, 0] S1x1x16x64x512.size inb_S4x1x16x64x512_S1x1x16x64x512_0_0_0_0_0
abbrev rA1 : Rect S4x1x16x64x512 := Rect.unit (s := S4x1x16x64x512) ![1, 0, 0, 0, 0] S1x1x16x64x512.size inb_S4x1x16x64x512_S1x1x16x64x512_1_0_0_0_0
abbrev rA2 : Rect S4x1x16x64x512 := Rect.unit (s := S4x1x16x64x512) ![2, 0, 0, 0, 0] S1x1x16x64x512.size inb_S4x1x16x64x512_S1x1x16x64x512_2_0_0_0_0
abbrev rA3 : Rect S4x1x16x64x512 := Rect.unit (s := S4x1x16x64x512) ![3, 0, 0, 0, 0] S1x1x16x64x512.size inb_S4x1x16x64x512_S1x1x16x64x512_3_0_0_0_0
/-- Slab `k` (of four, along axis 0) of output window 4's and 5's buffers. -/
abbrev rB0 : Rect S4x1x64x512 := Rect.unit (s := S4x1x64x512) ![0, 0, 0, 0] S1x1x64x512.size inb_S4x1x64x512_S1x1x64x512_0_0_0_0
abbrev rB1 : Rect S4x1x64x512 := Rect.unit (s := S4x1x64x512) ![1, 0, 0, 0] S1x1x64x512.size inb_S4x1x64x512_S1x1x64x512_1_0_0_0
abbrev rB2 : Rect S4x1x64x512 := Rect.unit (s := S4x1x64x512) ![2, 0, 0, 0] S1x1x64x512.size inb_S4x1x64x512_S1x1x64x512_2_0_0_0
abbrev rB3 : Rect S4x1x64x512 := Rect.unit (s := S4x1x64x512) ![3, 0, 0, 0] S1x1x64x512.size inb_S4x1x64x512_S1x1x64x512_3_0_0_0

/-! ## The values the body computes from the three input blocks

`x0` is input window 0's block (the feature slab), `x1` and `x2` input windows 1's and 2's (the two coordinate
planes). Each value below is the body's value of the same number, as a function of the blocks. -/

/-- The feature slab without its unit axis. -/
def p_v1 (x0 : Vec F S1x16x64x512 .f32) : FVec F S16x64x512 .f32 := k0_pay2 (View.ld x0 rI0)
/-- The first coordinate in pixels, clamped to [0, 513]. -/
def p_v21 (x1 : Vec F S1x64x512 .f32) : FVec F S64x512 .f32 := k0_pay3 (View.ld x1 rI1)
/-- The second coordinate in pixels, clamped to [0, 513]. -/
def p_v29 (x2 : Vec F S1x64x512 .f32) : FVec F S64x512 .f32 := k0_pay4 (View.ld x2 rI1)
/-- Their integer floors. -/
def p_v31 (x1 : Vec F S1x64x512 .f32) : IVec S64x512 32 := k0_pay5 (View.ld x1 rI1)
def p_v33 (x2 : Vec F S1x64x512 .f32) : IVec S64x512 32 := k0_pay6 (View.ld x2 rI1)
/-- The constant -1. -/
def p_v34 : IVec S64x512 32 := k0_pay7
/-- The first corner index (floor minus one), whether it is in range, and its weight. -/
def p_v35 (x1 : Vec F S1x64x512 .f32) : IVec S64x512 32 := k0_pay8 (p_v31 x1) p_v34
def p_v40 (x1 : Vec F S1x64x512 .f32) : IVec S64x512 1 := k0_pay9 (p_v31 x1) p_v34
def p_v49 (x1 : Vec F S1x64x512 .f32) : FVec F S64x512 .f32 := k0_pay10 (p_v21 x1) (p_v31 x1)
/-- The second coordinate's two corner indices of the first pair of slabs. -/
def p_v51 (x2 : Vec F S1x64x512 .f32) : IVec S64x512 32 := k0_pay11 (p_v33 x2)
def p_v91 (x2 : Vec F S1x64x512 .f32) : IVec S64x512 32 := k0_pay15 (p_v33 x2)
/-- Slab 1's weighted features. -/
def p_v112 (x0 : Vec F S1x16x64x512 .f32) (x1 x2 : Vec F S1x64x512 .f32) : FVec F S16x64x512 .f32 :=
  k0_pay16 (p_v1 x0) (p_v29 x2) (p_v33 x2) (p_v40 x1) (p_v49 x1)
/-- The second corner index of the first coordinate, whether it is in range, and its weight. -/
def p_v131 (x1 : Vec F S1x64x512 .f32) : IVec S64x512 32 := k0_pay20 (p_v31 x1)
def p_v136 (x1 : Vec F S1x64x512 .f32) : IVec S64x512 1 := k0_pay21 (p_v31 x1)
def p_v145 (x1 : Vec F S1x64x512 .f32) : FVec F S64x512 .f32 := k0_pay22 (p_v21 x1) (p_v31 x1)
/-- The second coordinate's corner indices of the second pair of slabs. -/
def p_v147 (x2 : Vec F S1x64x512 .f32) : IVec S64x512 32 := k0_pay23 (p_v33 x2)
def p_v182 (x2 : Vec F S1x64x512 .f32) : IVec S64x512 32 := k0_pay26 (p_v147 x2)
def p_v220 (x2 : Vec F S1x64x512 .f32) : IVec S64x512 32 := k0_pay31 (p_v33 x2)

/-! ## What the body leaves in each output window's buffer -/

/-- Window 3's staging buffer after the body, from the input windows' blocks: its four stores, one per slab, as
    pieces, last first. -/
def out0_3 (x0 : Vec F S1x16x64x512 .f32) (x1 x2 : Vec F S1x64x512 .f32) : Vec F S4x1x16x64x512 .f32 :=
  View.canon [⟨rA3, k0_pay29 (p_v1 x0) (p_v29 x2) (p_v33 x2) (p_v136 x1) (p_v145 x1)⟩,
    ⟨rA2, k0_pay24 (p_v1 x0) (p_v29 x2) (p_v33 x2) (p_v136 x1) (p_v145 x1) (p_v147 x2) 0#32⟩,
    ⟨rA1, k0_pay17 (p_v112 x0 x1 x2)⟩,
    ⟨rA0, k0_pay12 (p_v1 x0) (p_v21 x1) (p_v29 x2) (p_v31 x1) (p_v33 x2) p_v34⟩]

/-- Its stores tile the buffer (checked by evaluation), so they cover it. -/
theorem cover0_3 (p0 p1 p2 p3 : Vec F S1x1x16x64x512 .f32) (y : S4x1x16x64x512.Idx) :
    ∃ pc ∈ ([⟨rA3, p0⟩, ⟨rA2, p1⟩, ⟨rA1, p2⟩, ⟨rA0, p3⟩] : List (View.Piece (Elt F) S4x1x16x64x512 .f32)), y ∈ pc.1.set :=
  View.cover_of_tiled [⟨rA3, p0⟩, ⟨rA2, p1⟩, ⟨rA1, p2⟩, ⟨rA0, p3⟩] S1x1x16x64x512.size (by rfl) y

/-- Window 4's staging buffer after the body: its four stores (the first coordinate's corner indices, clamped), last
    first. -/
def out0_4 (x0 : Vec F S1x16x64x512 .f32) (x1 x2 : Vec F S1x64x512 .f32) : Vec F S4x1x64x512 .i32 :=
  View.canon [⟨rB3, k0_pay30 (p_v131 x1)⟩,
    ⟨rB2, k0_pay25 (p_v131 x1)⟩,
    ⟨rB1, k0_pay18 (p_v35 x1)⟩,
    ⟨rB0, k0_pay13 (p_v35 x1) 0#32⟩]

theorem cover0_4 (p0 p1 p2 p3 : Vec F S1x1x64x512 .i32) (y : S4x1x64x512.Idx) :
    ∃ pc ∈ ([⟨rB3, p0⟩, ⟨rB2, p1⟩, ⟨rB1, p2⟩, ⟨rB0, p3⟩] : List (View.Piece (Elt F) S4x1x64x512 .i32)), y ∈ pc.1.set :=
  View.cover_of_tiled [⟨rB3, p0⟩, ⟨rB2, p1⟩, ⟨rB1, p2⟩, ⟨rB0, p3⟩] S1x1x64x512.size (by rfl) y

/-- Window 5's staging buffer after the body: its four stores (the second coordinate's corner indices, clamped), last
    first. -/
def out0_5 (x0 : Vec F S1x16x64x512 .f32) (x1 x2 : Vec F S1x64x512 .f32) : Vec F S4x1x64x512 .i32 :=
  View.canon [⟨rB3, k0_pay1 511#32 (p_v220 x2)⟩,
    ⟨rB2, k0_pay27 (p_v182 x2)⟩,
    ⟨rB1, k0_pay19 (p_v91 x2)⟩,
    ⟨rB0, k0_pay14 (p_v51 x2)⟩]

theorem cover0_5 (p0 p1 p2 p3 : Vec F S1x1x64x512 .i32) (y : S4x1x64x512.Idx) :
    ∃ pc ∈ ([⟨rB3, p0⟩, ⟨rB2, p1⟩, ⟨rB1, p2⟩, ⟨rB0, p3⟩] : List (View.Piece (Elt F) S4x1x64x512 .i32)), y ∈ pc.1.set :=
  View.cover_of_tiled [⟨rB3, p0⟩, ⟨rB2, p1⟩, ⟨rB1, p2⟩, ⟨rB0, p3⟩] S1x1x64x512.size (by rfl) y

/-! ## The body's triple -/

set_option maxHeartbeats 4000000 in
/-- The kernel body on whole staging memrefs, the inputs' at read contents `xW` and the outputs' at anything, runs to
    the continuation holding the inputs' as they were and each output's at `out0_W` of the inputs': the body reads the
    three input buffers whole, and fills each output buffer slab by slab (reading each slab before it stores it; what
    it reads there it never uses). -/
theorem sound_kernel (c : Dev nD) (E : Set ℕ) (i : grid0.Coords) (arg2 : Memref sig .tc .vmem S1x16x64x512 .f32) (harg2 : arg2.IsWhole) (arg3 : Memref sig .tc .vmem S1x64x512 .f32) (harg3 : arg3.IsWhole) (arg4 : Memref sig .tc .vmem S1x64x512 .f32) (harg4 : arg4.IsWhole) (arg5 : Memref sig .tc .vmem S4x1x16x64x512 .f32) (harg5 : arg5.IsWhole) (arg6 : Memref sig .tc .vmem S4x1x64x512 .i32) (harg6 : arg6.IsWhole) (arg7 : Memref sig .tc .vmem S4x1x64x512 .i32) (harg7 : arg7.IsWhole)
    (x0 : Vec F S1x16x64x512 .f32) (x1 : Vec F S1x64x512 .f32) (x2 : Vec F S1x64x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2) ∗ owns (c : Thread nD τ) arg6 fullShare (out0_4 x0 x1 x2) ∗ owns (c : Thread nD τ) arg7 fullShare (out0_5 x0 x1 x2)) -∗ K ⟨⟩))
      ⊢ wp frame (wpE (defs₀ (F := F)) Variants.none c none) E (cc0__prep_kernel i arg2 harg2 arg3 harg3 arg4 harg4 arg5 harg5 arg6 harg6 arg7 harg7) K := by
  simp only [cc0__prep_kernel_eq_skeleton]; unfold cc0__prep_kernel_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    try dsimp only
    exact View.read_writes_eq_canon _ _ _ (cover0_3 _ _ _ _)
  isplitl [H4]
  · iexists _; isplitr
    swap; · iexact H4
    ipureintro
    try dsimp only
    exact View.read_writes_eq_canon _ _ _ (cover0_4 _ _ _ _)
  iexists _; isplitr
  swap; · iexact H5
  ipureintro
  try dsimp only
  exact View.read_writes_eq_canon _ _ _ (cover0_5 _ _ _ _)

/-! ## The pipeline's proof data -/

/-- The proof data of the one pipeline on core `c`: the arrays as the region finds them (`V`); after the body at
    point `t` each input's buffer at its block and each output's at `out0_W` of the three input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 0 t) (iblk m c 1 t) (iblk m c 2 t)
    | ⟨5, _⟩ => out0_5 (iblk m c 0 t) (iblk m c 1 t) (iblk m c 2 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 0 t) (iblk m c 1 t) (iblk m c 2 t) := by dsimp only [dats]
theorem after0_5 (c : Dev nD) (t : Fin cfg0.N) : (dats m 0 c).after 5 t = out0_5 (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- For any values, from any memory with zero counters: every weakly fair execution of @main on the TensorCores
    terminates, and every final state has every array of the pipeline at what the proof data give and every other
    unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.Splat.lean ====
/-
  The scalar arithmetic of the bilinear splat, at the extended reals. A pixel of the sampling grid holds two
  normalised coordinates; each goes to a position in the padded output plane, `coord a = clip(((a + 1) / 2) · 512 + 1, 0, 513)`,
  whose integer part `cell a` names the lower of the two neighbouring rows (or columns) and whose distance to the
  neighbour `cell a + e` gives the tent weight `hat e a = max (1 - |coord a - (cell a + e)|) 0`.
  One program adds the weighted pixel into row `cell a + e` of a plane padded by one cell before and two after and
  crops rows 1 … 512 afterwards; the other adds it into row `cell a + e - 1`, clamped into 0 … 511, with the weight
  replaced by zero when that row is outside 0 … 511. Both read a row number signed and wrap a negative one by the
  extent. Stated here: the definitions both programs' element-wise text reduces to, and the facts about
  them the comparison needs — the cell is between 0 and 513, so no row number wraps, and a contribution lands on
  row `p + 1` of the padded plane exactly when it is kept and lands on row `p` of the cropped one.
-/
import Idealize.ShloMosaic.PureOps.Ideal
import Idealize.ShloMosaic.Lib.ValueIdx

noncomputable section

namespace Cert.Splat

open Idealize.ShloMosaic

/-- The position in the padded plane of a normalised coordinate. -/
def coord (a : Ideal .f32) : Ideal .f32 :=
  FloatOps.minimumf (FloatOps.ofBits .f32 0x44004000#32)
    (FloatOps.maximumf (FloatOps.ofBits .f32 0x00000000#32)
      (FloatOps.addf
        (FloatOps.mulf (FloatOps.mulf (FloatOps.addf a (FloatOps.ofBits .f32 0x3F800000#32)) (FloatOps.ofBits .f32 0x3F000000#32))
          (FloatOps.ofBits .f32 0x44000000#32))
        (FloatOps.ofBits .f32 0x3F800000#32)))

/-- Its integer part, as a 32-bit word. -/
def cell (a : Ideal .f32) : BitVec 32 := FloatOps.fptosi 32 (FloatOps.floor (coord a))

/-- The tent weight of the neighbour `cell a + e`. -/
def hat (e : BitVec 32) (a : Ideal .f32) : Ideal .f32 :=
  FloatOps.maximumf
    (FloatOps.subf (FloatOps.ofBits .f32 0x3F800000#32)
      (FloatOps.absf (FloatOps.subf (coord a) (FloatOps.sitofp .f32 (IntOp.addi (cell a) e)))))
    (FloatOps.ofBits .f32 0x00000000#32)

/-- A row number wrapped by the extent `n` when negative. -/
def wrap (n v : BitVec 32) : BitVec 32 := Scalar.select (IntOp.cmpi .slt v 0#32) (IntOp.addi v n) v

/-- The row of the cropped plane: `cell a + o` (`o` is `-1` or `0`). -/
def row (o : BitVec 32) (a : Ideal .f32) : BitVec 32 := IntOp.addi (cell a) o

/-- Whether that row is one of 0 … 511. -/
def inside (o : BitVec 32) (a : Ideal .f32) : BitVec 1 :=
  IntOp.andi (IntOp.cmpi .sge (row o a) 0#32) (IntOp.cmpi .sle (row o a) 511#32)

/-- The row clamped into 0 … 511. -/
def clampRow (o : BitVec 32) (a : Ideal .f32) : BitVec 32 := IntOp.minsi 511#32 (IntOp.maxsi 0#32 (row o a))

/-! ## The constants, and the range of the cell -/

theorem lit_zero : (FloatOps.ofBits .f32 0x00000000#32 : Ideal .f32) = 0 := by
  show Ideal.ofBits .f32 0#32 = 0
  simp [Ideal.ofBits, Ideal.ieee]

theorem lit_513 : (FloatOps.ofBits .f32 0x44004000#32 : Ideal .f32) = ((513 : ℝ) : EReal) := by
  show Ideal.ofBits .f32 0x44004000#32 = _
  simp [Ideal.ofBits, Ideal.ieee, -EReal.coe_mul]; norm_num

/-- The position is between 0 and 513, whatever the coordinate (an infinite one included). -/
theorem coord_range (a : Ideal .f32) : (0 : EReal) ≤ coord a ∧ coord a ≤ ((513 : ℝ) : EReal) := by
  unfold coord
  rw [lit_zero, lit_513]
  refine ⟨le_min ?_ (le_max_left _ _), min_le_left _ _⟩
  exact_mod_cast (by norm_num : (0 : ℝ) ≤ 513)

/-- So its integer part is one of 0 … 513. -/
theorem cell_toNat_le (a : Ideal .f32) : (cell a).toNat ≤ 513 := by
  obtain ⟨h0, h1⟩ := coord_range a
  unfold cell
  show (Ideal.fptosi 32 (Ideal.liftRound Int.floor (coord a))).toNat ≤ 513
  generalize coord a = y at h0 h1
  induction y using EReal.rec with
  | bot => simp at h0
  | top => simp at h1
  | coe r =>
    have hr0 : (0 : ℝ) ≤ r := by exact_mod_cast h0
    have hr1 : r ≤ 513 := by exact_mod_cast h1
    have hn0 : 0 ≤ ⌊r⌋ := Int.floor_nonneg.mpr hr0
    have hn1 : ⌊r⌋ ≤ 513 := by
      have : ⌊r⌋ ≤ ⌊(513 : ℝ)⌋ := Int.floor_le_floor hr1
      simpa using this
    rw [Ideal.liftRound_coe, Ideal.fptosi, Ideal.toIntClamped_coe, if_pos (by exact_mod_cast hn0), Int.floor_intCast]
    generalize ⌊r⌋ = n at hn0 hn1
    rw [BitVec.toNat_ofInt]
    omega

/-! ## Row numbers as integers -/

/-- A row number that is not negative is not wrapped. -/
theorem wrap_of_nonneg (n v : BitVec 32) (h : 0 ≤ v.toInt) : wrap n v = v := by
  unfold wrap IntOp.cmpi Scalar.select
  have : ¬ v.slt 0#32 = true := by
    rw [BitVec.slt]; simp; omega
  simp [this]

theorem toInt_maxsi (x y : BitVec 32) : (IntOp.maxsi x y).toInt = max x.toInt y.toInt := by
  unfold IntOp.maxsi
  rw [BitVec.slt]
  split_ifs with h
  · simp at h; omega
  · simp at h; omega

theorem toInt_minsi (x y : BitVec 32) : (IntOp.minsi x y).toInt = min x.toInt y.toInt := by
  unfold IntOp.minsi
  rw [BitVec.slt]
  split_ifs with h
  · simp at h; omega
  · simp at h; omega

theorem inside_word_iff (w : BitVec 32) :
    IntOp.andi (IntOp.cmpi .sge w 0#32) (IntOp.cmpi .sle w 511#32) = 1#1 ↔ 0 ≤ w.toInt ∧ w.toInt ≤ 511 := by
  unfold IntOp.andi IntOp.cmpi
  simp only [BitVec.sle]
  by_cases h1 : 0 ≤ w.toInt <;> by_cases h2 : w.toInt ≤ 511 <;> simp [h1, h2]

theorem add_neg_one_toInt (c : BitVec 32) (hc : c.toNat ≤ 513) : (IntOp.addi c 0xFFFFFFFF#32).toInt = (c.toNat : Int) - 1 := by
  unfold IntOp.addi
  rw [BitVec.toInt_eq_toNat_cond, BitVec.toNat_add]
  simp only [BitVec.toNat_ofNat]
  split_ifs <;> omega
theorem add_one_toInt (c : BitVec 32) (hc : c.toNat ≤ 513) : (IntOp.addi c 1#32).toInt = (c.toNat : Int) + 1 := by
  unfold IntOp.addi
  rw [BitVec.toInt_eq_toNat_cond, BitVec.toNat_add]
  simp only [BitVec.toNat_ofNat]
  split_ifs <;> omega
theorem add_zero_toInt (c : BitVec 32) (hc : c.toNat ≤ 513) : (IntOp.addi c 0#32).toInt = (c.toNat : Int) := by
  unfold IntOp.addi
  rw [BitVec.toInt_eq_toNat_cond, BitVec.toNat_add]
  simp only [BitVec.toNat_ofNat]
  split_ifs <;> omega

/-- One axis, on words: with `v` the padded row and `w = v - 1` the cropped one, both small, the padded plane's row
    `p + 1` is hit exactly when the cropped row is one of 0 … 511 and, clamped, is `p`. -/
theorem land_axis (v w : BitVec 32) (n : Int) (hn0 : 0 ≤ n) (hn1 : n ≤ 514) (hv : v.toInt = n) (hw : w.toInt = n - 1)
    (p : Nat) (hp : p < 512) :
    (wrap 515#32 v).toInt = (p : Int) + 1 ↔
      (IntOp.andi (IntOp.cmpi .sge w 0#32) (IntOp.cmpi .sle w 511#32) = 1#1
        ∧ (wrap 512#32 (IntOp.minsi 511#32 (IntOp.maxsi 0#32 w))).toInt = (p : Int)) := by
  rw [wrap_of_nonneg 515#32 v (by omega), inside_word_iff]
  have hcl : (IntOp.minsi 511#32 (IntOp.maxsi 0#32 w)).toInt = min 511 (max 0 (n - 1)) := by
    rw [toInt_minsi, toInt_maxsi, hw]; rfl
  rw [wrap_of_nonneg 512#32 _ (by rw [hcl]; omega), hcl, hv, hw]
  omega

/-- One axis, for a coordinate: the neighbour `cell a + e` lands on row `p + 1` of the padded plane exactly when the
    row `cell a + o`, `o = e - 1`, is inside the cropped plane and, clamped, is `p`. -/
theorem land_iff (o e : BitVec 32) (hoe : (o = 0xFFFFFFFF#32 ∧ e = 0#32) ∨ (o = 0#32 ∧ e = 1#32)) (a : Ideal .f32)
    (p : Nat) (hp : p < 512) :
    (wrap 515#32 (IntOp.addi (cell a) e)).toInt = (p : Int) + 1 ↔
      (inside o a = 1#1 ∧ (wrap 512#32 (clampRow o a)).toInt = (p : Int)) := by
  have hc := cell_toNat_le a
  unfold inside clampRow row
  rcases hoe with ⟨rfl, rfl⟩ | ⟨rfl, rfl⟩
  · exact land_axis _ _ (cell a).toNat (by omega) (by omega) (add_zero_toInt _ hc) (add_neg_one_toInt _ hc) p hp
  · exact land_axis _ _ ((cell a).toNat + 1) (by omega) (by omega) (add_one_toInt _ hc)
      (by rw [add_zero_toInt _ hc]; omega) p hp

/-! ## The two sums

Both programs' results at `(b, c, p, q)` are sums over the four neighbours `k` and over the update elements
`j = (b', i, j', c')` — pixel `(b', i, j')`, channel `c'` — of the pixel's value times a weight, restricted to
the elements that land on `(b, c, p, q)`. -/

/-- The neighbour offsets of the four scatters, rows then columns: (0,0), (0,1), (1,0), (1,1). -/
def eI (k : Fin 4) : BitVec 32 := ![0#32, 0#32, 1#32, 1#32] k
def eJ (k : Fin 4) : BitVec 32 := ![0#32, 1#32, 0#32, 1#32] k
/-- The same less one: the offsets into the cropped plane. -/
def oI (k : Fin 4) : BitVec 32 := ![0xFFFFFFFF#32, 0xFFFFFFFF#32, 0#32, 0#32] k
def oJ (k : Fin 4) : BitVec 32 := ![0xFFFFFFFF#32, 0#32, 0xFFFFFFFF#32, 0#32] k

abbrev Img := (⟨4, ![8, 16, 512, 512]⟩ : Shape).Idx → EReal
abbrev Grd := (⟨4, ![8, 512, 512, 2]⟩ : Shape).Idx → EReal
abbrev UIdx := (⟨4, ![8, 512, 512, 16]⟩ : Shape).Idx

/-- The row coordinate and the column coordinate of the pixel an update element belongs to. -/
def gI (g : Grd) (j : UIdx) : EReal := g (ValueIdx.ix4 (j 0) (j 1) (j 2) (0 : Fin 2))
def gJ (g : Grd) (j : UIdx) : EReal := g (ValueIdx.ix4 (j 0) (j 1) (j 2) (1 : Fin 2))
/-- The pixel's value in the element's channel. -/
def pix (x : Img) (j : UIdx) : EReal := x (ValueIdx.ix4 (j 0) (j 3) (j 1) (j 2))

/-- Padded plane: the weighted value, -/
def refTerm (x : Img) (g : Grd) (k : Fin 4) (j : UIdx) : EReal :=
  pix x j * (hat (eI k) (gI g j) * hat (eJ k) (gJ g j))
/-- landing on row `p + 1`, column `q + 1` of the padded plane. -/
def refLands (g : Grd) (k : Fin 4) (j : UIdx) (b : Fin 8) (c : Fin 16) (p q : Fin 512) : Prop :=
  (j 0).val = b.val ∧ (j 3).val = c.val
    ∧ (wrap 515#32 (IntOp.addi (cell (gI g j)) (eI k))).toInt = (p.val : Int) + 1
    ∧ (wrap 515#32 (IntOp.addi (cell (gJ g j)) (eJ k))).toInt = (q.val : Int) + 1

instance (g : Grd) (k : Fin 4) (j : UIdx) (b : Fin 8) (c : Fin 16) (p q : Fin 512) : Decidable (refLands g k j b c p q) := by
  unfold refLands; infer_instance

def refSum (x : Img) (g : Grd) (b : Fin 8) (c : Fin 16) (p q : Fin 512) : EReal :=
  ∑ k : Fin 4, ∑ j : UIdx, if refLands g k j b c p q then refTerm x g k j else 0

/-- Cropped plane: the weight zeroed when the target is outside, -/
def kerTerm (x : Img) (g : Grd) (k : Fin 4) (j : UIdx) : EReal :=
  pix x j * Scalar.select (IntOp.andi (inside (oI k) (gI g j)) (inside (oJ k) (gJ g j)))
    (hat (eI k) (gI g j) * hat (eJ k) (gJ g j)) (FloatOps.ofBits (F := Ideal) .f32 0x00000000#32)
/-- landing on the clamped row and column. -/
def kerLands (g : Grd) (k : Fin 4) (j : UIdx) (b : Fin 8) (c : Fin 16) (p q : Fin 512) : Prop :=
  (j 0).val = b.val
    ∧ (wrap 512#32 (clampRow (oI k) (gI g j))).toInt = (p.val : Int)
    ∧ (wrap 512#32 (clampRow (oJ k) (gJ g j))).toInt = (q.val : Int)
    ∧ (j 3).val = c.val

instance (g : Grd) (k : Fin 4) (j : UIdx) (b : Fin 8) (c : Fin 16) (p q : Fin 512) : Decidable (kerLands g k j b c p q) := by
  unfold kerLands; infer_instance

def kerSum (x : Img) (g : Grd) (b : Fin 8) (c : Fin 16) (p q : Fin 512) : EReal :=
  ∑ k : Fin 4, ∑ j : UIdx, if kerLands g k j b c p q then kerTerm x g k j else 0

/-! ## The two sums are one

Element by element: an update that lands on `(p + 1, q + 1)` of the padded plane is kept by the other program, lands
on `(p, q)` there, and carries the same weight; one that lands on `(p, q)` of the cropped plane without being its
padded twin was clamped onto it from outside, and its weight is zero. -/

theorem offsets_I (k : Fin 4) : (oI k = 0xFFFFFFFF#32 ∧ eI k = 0#32) ∨ (oI k = 0#32 ∧ eI k = 1#32) := by
  fin_cases k <;> simp [oI, eI]
theorem offsets_J (k : Fin 4) : (oJ k = 0xFFFFFFFF#32 ∧ eJ k = 0#32) ∨ (oJ k = 0#32 ∧ eJ k = 1#32) := by
  fin_cases k <;> simp [oJ, eJ]

theorem andi_eq_one (u v : BitVec 1) : IntOp.andi u v = 1#1 ↔ u = 1#1 ∧ v = 1#1 := by
  revert u v; decide

theorem term_eq (x : Img) (g : Grd) (k : Fin 4) (j : UIdx) (b : Fin 8) (c : Fin 16) (p q : Fin 512) :
    (if kerLands g k j b c p q then kerTerm x g k j else 0) = (if refLands g k j b c p q then refTerm x g k j else 0) := by
  have hI := land_iff (oI k) (eI k) (offsets_I k) (gI g j) p.val p.isLt
  have hJ := land_iff (oJ k) (eJ k) (offsets_J k) (gJ g j) q.val q.isLt
  by_cases hR : refLands g k j b c p q
  · obtain ⟨hb, hc, hp, hq⟩ := hR
    obtain ⟨hiI, hpK⟩ := hI.mp hp
    obtain ⟨hiJ, hqK⟩ := hJ.mp hq
    rw [if_pos (show kerLands g k j b c p q from ⟨hb, hpK, hqK, hc⟩), if_pos (show refLands g k j b c p q from ⟨hb, hc, hp, hq⟩)]
    unfold kerTerm refTerm
    rw [hiI, hiJ]
    rfl
  · rw [if_neg hR]
    by_cases hK : kerLands g k j b c p q
    · rw [if_pos hK]
      obtain ⟨hb, hpK, hqK, hc⟩ := hK
      have hno : ¬ (IntOp.andi (inside (oI k) (gI g j)) (inside (oJ k) (gJ g j)) = 1#1) := by
        rw [andi_eq_one]
        rintro ⟨hiI, hiJ⟩
        exact hR ⟨hb, hc, hI.mpr ⟨hiI, hpK⟩, hJ.mpr ⟨hiJ, hqK⟩⟩
      unfold kerTerm Scalar.select
      rw [if_neg (show ¬ (IntOp.andi (inside (oI k) (gI g j)) (inside (oJ k) (gJ g j)) = 1) from hno), lit_zero, mul_zero]
    · rw [if_neg hK]

theorem kerSum_eq_refSum (x : Img) (g : Grd) (b : Fin 8) (c : Fin 16) (p q : Fin 512) :
    kerSum x g b c p q = refSum x g b c p q := by
  unfold kerSum refSum
  exact Finset.sum_congr rfl fun k _ => Finset.sum_congr rfl fun j _ => term_eq x g k j b c p q

end Cert.Splat

end
-- ==== Proof.Layout.lean ====
/-
  Small layout operations of this kernel read at an index written by coordinates: a leading unit axis broadcast,
  two unit axes added in front by a shape cast, and the two axis permutations between channel-major and
  channel-minor arrangements.
-/
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- A `[1, a, b]` array broadcast to `[m, a, b]` reads, at `(k, i, j)`, the operand's one slab at `(i, j)`. -/
theorem broadcastTo_1ab_mab_apply {m a b : ℕ} (ha : a ≠ 1) (hb : b ≠ 1) (v : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    rw [if_neg ha]
  | ⟨2, _⟩ =>
    show j.val = if b = 1 then 0 else j.val
    rw [if_neg hb]

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one])

/-- An `[m, a, b]` array cast to `[1, 1, m, a, b]` reads, at `(u, u', k, i, j)`, the operand at `(k, i, j)`. -/
theorem shapeCast_mab_11mab_apply {m a b : ℕ} (x : (⟨3, ![m, a, b]⟩ : Shape).Idx → α)
    (h : (⟨3, ![m, a, b]⟩ : Shape).ShapeCasts ⟨5, ![1, 1, m, a, b]⟩) (u u' : Fin 1) (k : Fin m) (i : Fin a) (j : Fin b) :
    shapeCast ⟨5, ![1, 1, m, a, b]⟩ x h (ix5 u u' k i j) = x (ix3 k i j) :=
  shapeCast_apply x h _ _ (by
    have hu : u.val = 0 := by omega
    have hu' : u'.val = 0 := by omega
    rw [Shape.rowMajor_val_five, Shape.rowMajor_val_three]
    show (k.val * a + i.val) * b + j.val = (((u.val * 1 + u'.val) * m + k.val) * a + i.val) * b + j.val
    simp only [hu, hu', Nat.zero_mul, Nat.zero_add, Nat.mul_one])

/-- A rank-5 index set is its leading coordinate's range times the rank-4 index set of the rest … -/
def idxEquiv5 {n0 n1 n2 n3 n4 : Nat} :
    (⟨5, ![n0, n1, n2, n3, n4]⟩ : Shape).Idx ≃ Fin n0 × (⟨4, ![n1, n2, n3, n4]⟩ : Shape).Idx where
  toFun j := (j 0, ix4 (j 1) (j 2) (j 3) (j 4))
  invFun p := ix5 p.1 (p.2 0) (p.2 1) (p.2 2) (p.2 3)
  left_inv j := (eq_ix5 j).symm
  right_inv p := Prod.ext rfl (eq_ix4 p.2).symm

/-- … so a sum over it is the sum over the leading coordinate of the sums over the rest. -/
theorem sum_idx5_split {M : Type*} [AddCommMonoid M] {n0 n1 n2 n3 n4 : Nat}
    (f : Fin n0 → (⟨4, ![n1, n2, n3, n4]⟩ : Shape).Idx → M) :
    ∑ j : (⟨5, ![n0, n1, n2, n3, n4]⟩ : Shape).Idx, f (j 0) (ix4 (j 1) (j 2) (j 3) (j 4)) = ∑ k : Fin n0, ∑ j', f k j' := by
  rw [← Fintype.sum_prod_type (f := fun p : Fin n0 × (⟨4, ![n1, n2, n3, n4]⟩ : Shape).Idx => f p.1 p.2)]
  exact Fintype.sum_equiv idxEquiv5 _ _ fun j => rfl

end Cert.Layout

end
-- ==== Proof.KerBlock.lean ====
/-
  What one grid point leaves in the three output buffers, element by element. The body's values are element-wise
  functions of the three input blocks — the feature slab `x0` and the two coordinate planes `x1`, `x2` —, so slab
  `k` of the update buffer at channel `cc`, row `r`, lane `l` is the feature there times the masked product of the two
  tent weights of the `k`-th neighbour, and slab `k` of each index buffer is that neighbour's clamped row or column.
-/
import proofs.«149145_j3066606649873_2_alg».proof.Proof.KernelIdealFrame
import proofs.«149145_j3066606649873_2_alg».proof.Proof.Splat
import proofs.«149145_j3066606649873_2_alg».proof.Proof.Layout

set_option maxRecDepth 100000

noncomputable section

namespace Cert.KernelIdeal.Blk

open Cert.KernelIdeal Cert.KernelIdeal.Gen Cert.KernelIdeal.Frm
open Idealize.ShloMosaic Idealize.ShloMosaic.ValueIdx Cert.Splat Cert.Layout

/-! ## The values at an element -/

theorem hzI0 : (![0, 0, 0, 0] : Fin 4 → Nat) = fun _ => 0 := funext fun a => by fin_cases a <;> rfl
theorem hzI1 : (![0, 0, 0] : Fin 3 → Nat) = fun _ => 0 := funext fun a => by fin_cases a <;> rfl

theorem v1_apply (x0 : Vec Ideal S1x16x64x512 .f32) (cc : Fin 16) (r : Fin 64) (l : Fin 512) :
    p_v1 x0 (ix3 cc r l) = x0 (ix4 (0 : Fin 1) cc r l) := by
  unfold p_v1 k0_pay2
  rw [View.ld_unit_zero (S := S1x16x64x512) hzI0]
  exact shapeCast_1abc_abc_apply _ _ cc r l

theorem v21_apply (x1 : Vec Ideal S1x64x512 .f32) (r : Fin 64) (l : Fin 512) :
    p_v21 x1 (ix2 r l) = coord (x1 (ix3 (0 : Fin 1) r l)) := by
  unfold p_v21 k0_pay3
  rw [View.ld_unit_zero (S := S1x64x512) hzI1]
  simp only [minimumf, maximumf, addf, mulf, broadcast]
  rw [shapeCast_1ab_ab_apply]
  rfl

theorem v29_apply (x2 : Vec Ideal S1x64x512 .f32) (r : Fin 64) (l : Fin 512) :
    p_v29 x2 (ix2 r l) = coord (x2 (ix3 (0 : Fin 1) r l)) := by
  unfold p_v29 k0_pay4
  rw [View.ld_unit_zero (S := S1x64x512) hzI1]
  simp only [minimumf, maximumf, addf, mulf, broadcast]
  rw [shapeCast_1ab_ab_apply]
  rfl

theorem v31_apply (x1 : Vec Ideal S1x64x512 .f32) (r : Fin 64) (l : Fin 512) :
    p_v31 x1 (ix2 r l) = cell (x1 (ix3 (0 : Fin 1) r l)) := by
  have h := v21_apply x1 r l
  unfold p_v21 at h
  unfold p_v31 k0_pay5
  simp only [fptosi, floor]
  rw [h]
  rfl

theorem v33_apply (x2 : Vec Ideal S1x64x512 .f32) (r : Fin 64) (l : Fin 512) :
    p_v33 x2 (ix2 r l) = cell (x2 (ix3 (0 : Fin 1) r l)) := by
  have h := v29_apply x2 r l
  unfold p_v29 at h
  unfold p_v33 k0_pay6
  simp only [fptosi, floor]
  rw [h]
  rfl

/-- The derived values: rows, masks and tent weights of the two neighbours on each axis. -/
theorem v35_apply (x1 : Vec Ideal S1x64x512 .f32) (r : Fin 64) (l : Fin 512) :
    p_v35 x1 (ix2 r l) = row 0xFFFFFFFF#32 (x1 (ix3 (0 : Fin 1) r l)) := by
  have h := v31_apply x1 r l
  unfold p_v35 k0_pay8 p_v34 k0_pay7
  simp only [addi, broadcast]
  rw [h]; rfl

theorem v40_apply (x1 : Vec Ideal S1x64x512 .f32) (r : Fin 64) (l : Fin 512) :
    p_v40 x1 (ix2 r l) = inside 0xFFFFFFFF#32 (x1 (ix3 (0 : Fin 1) r l)) := by
  have h := v31_apply x1 r l
  unfold p_v40 k0_pay9 k0_pay8 p_v34 k0_pay7
  simp only [andi, cmpi, addi, broadcast]
  rw [h]; rfl

theorem v49_apply (x1 : Vec Ideal S1x64x512 .f32) (r : Fin 64) (l : Fin 512) :
    p_v49 x1 (ix2 r l) = hat 0#32 (x1 (ix3 (0 : Fin 1) r l)) := by
  have h := v31_apply x1 r l
  have h' := v21_apply x1 r l
  unfold p_v49 k0_pay10
  simp only [maximumf, subf, absf, sitofp, addi, broadcast]
  rw [h, h']; rfl

theorem v131_apply (x1 : Vec Ideal S1x64x512 .f32) (r : Fin 64) (l : Fin 512) :
    p_v131 x1 (ix2 r l) = row 0#32 (x1 (ix3 (0 : Fin 1) r l)) := by
  have h := v31_apply x1 r l
  unfold p_v131 k0_pay20
  simp only [addi, broadcast]
  rw [h]; rfl

theorem v136_apply (x1 : Vec Ideal S1x64x512 .f32) (r : Fin 64) (l : Fin 512) :
    p_v136 x1 (ix2 r l) = inside 0#32 (x1 (ix3 (0 : Fin 1) r l)) := by
  have h := v31_apply x1 r l
  unfold p_v136 k0_pay21 k0_pay20
  simp only [andi, cmpi, addi, broadcast]
  rw [h]; rfl

theorem v145_apply (x1 : Vec Ideal S1x64x512 .f32) (r : Fin 64) (l : Fin 512) :
    p_v145 x1 (ix2 r l) = hat 1#32 (x1 (ix3 (0 : Fin 1) r l)) := by
  have h := v31_apply x1 r l
  have h' := v21_apply x1 r l
  unfold p_v145 k0_pay22
  simp only [maximumf, subf, absf, sitofp, addi, broadcast]
  rw [h, h']; rfl

theorem v51_apply (x2 : Vec Ideal S1x64x512 .f32) (r : Fin 64) (l : Fin 512) :
    p_v51 x2 (ix2 r l) = row 0xFFFFFFFF#32 (x2 (ix3 (0 : Fin 1) r l)) := by
  have h := v33_apply x2 r l
  unfold p_v51 k0_pay11
  simp only [addi, broadcast]
  rw [h]; rfl

theorem v91_apply (x2 : Vec Ideal S1x64x512 .f32) (r : Fin 64) (l : Fin 512) :
    p_v91 x2 (ix2 r l) = row 0#32 (x2 (ix3 (0 : Fin 1) r l)) := by
  have h := v33_apply x2 r l
  unfold p_v91 k0_pay15
  simp only [addi, broadcast]
  rw [h]; rfl

theorem v147_apply (x2 : Vec Ideal S1x64x512 .f32) (r : Fin 64) (l : Fin 512) :
    p_v147 x2 (ix2 r l) = row 0xFFFFFFFF#32 (x2 (ix3 (0 : Fin 1) r l)) := by
  have h := v33_apply x2 r l
  unfold p_v147 k0_pay23
  simp only [addi, broadcast]
  rw [h]; rfl

/-! ## The three buffers as functions of the block index -/

/-- The update buffer: at slab `k`, channel `cc`, row `r`, lane `l`, the feature times the masked weight. -/
def B3 (x0 : Vec Ideal S1x16x64x512 .f32) (x1 x2 : Vec Ideal S1x64x512 .f32) : Vec Ideal S4x1x16x64x512 .f32 := fun y =>
  x0 (ix4 (0 : Fin 1) (y 2) (y 3) (y 4)) *
    Scalar.select (IntOp.andi (inside (oI (y 0)) (x1 (ix3 (0 : Fin 1) (y 3) (y 4)))) (inside (oJ (y 0)) (x2 (ix3 (0 : Fin 1) (y 3) (y 4)))))
      (hat (eI (y 0)) (x1 (ix3 (0 : Fin 1) (y 3) (y 4))) * hat (eJ (y 0)) (x2 (ix3 (0 : Fin 1) (y 3) (y 4))))
      (FloatOps.ofBits (F := Ideal) .f32 0x00000000#32)

/-- The row-index buffer: at slab `k`, row `r`, lane `l`, the clamped row. -/
def B4 (x1 : Vec Ideal S1x64x512 .f32) : Vec Ideal S4x1x64x512 .i32 := fun y =>
  clampRow (oI (y 0)) (x1 (ix3 (0 : Fin 1) (y 2) (y 3)))

/-- The column-index buffer. -/
def B5 (x2 : Vec Ideal S1x64x512 .f32) : Vec Ideal S4x1x64x512 .i32 := fun y =>
  clampRow (oJ (y 0)) (x2 (ix3 (0 : Fin 1) (y 2) (y 3)))

/-! ## Where a slab's element sits in the buffer -/

theorem embA0 (u u' : Fin 1) (cc : Fin 16) (r : Fin 64) (l : Fin 512) :
    rA0.emb (ix5 u u' cc r l) = ix5 (0 : Fin 4) (0 : Fin 1) cc r l := by
  funext a; apply Fin.ext
  match a with
  | ⟨0, _⟩ => show 0 + 1 * u.val = 0; omega
  | ⟨1, _⟩ => show 0 + 1 * u'.val = 0; omega
  | ⟨2, _⟩ => show 0 + 1 * cc.val = cc.val; omega
  | ⟨3, _⟩ => show 0 + 1 * r.val = r.val; omega
  | ⟨4, _⟩ => show 0 + 1 * l.val = l.val; omega
theorem embA1 (u u' : Fin 1) (cc : Fin 16) (r : Fin 64) (l : Fin 512) :
    rA1.emb (ix5 u u' cc r l) = ix5 (1 : Fin 4) (0 : Fin 1) cc r l := by
  funext a; apply Fin.ext
  match a with
  | ⟨0, _⟩ => show 1 + 1 * u.val = 1; omega
  | ⟨1, _⟩ => show 0 + 1 * u'.val = 0; omega
  | ⟨2, _⟩ => show 0 + 1 * cc.val = cc.val; omega
  | ⟨3, _⟩ => show 0 + 1 * r.val = r.val; omega
  | ⟨4, _⟩ => show 0 + 1 * l.val = l.val; omega
theorem embA2 (u u' : Fin 1) (cc : Fin 16) (r : Fin 64) (l : Fin 512) :
    rA2.emb (ix5 u u' cc r l) = ix5 (2 : Fin 4) (0 : Fin 1) cc r l := by
  funext a; apply Fin.ext
  match a with
  | ⟨0, _⟩ => show 2 + 1 * u.val = 2; omega
  | ⟨1, _⟩ => show 0 + 1 * u'.val = 0; omega
  | ⟨2, _⟩ => show 0 + 1 * cc.val = cc.val; omega
  | ⟨3, _⟩ => show 0 + 1 * r.val = r.val; omega
  | ⟨4, _⟩ => show 0 + 1 * l.val = l.val; omega
theorem embA3 (u u' : Fin 1) (cc : Fin 16) (r : Fin 64) (l : Fin 512) :
    rA3.emb (ix5 u u' cc r l) = ix5 (3 : Fin 4) (0 : Fin 1) cc r l := by
  funext a; apply Fin.ext
  match a with
  | ⟨0, _⟩ => show 3 + 1 * u.val = 3; omega
  | ⟨1, _⟩ => show 0 + 1 * u'.val = 0; omega
  | ⟨2, _⟩ => show 0 + 1 * cc.val = cc.val; omega
  | ⟨3, _⟩ => show 0 + 1 * r.val = r.val; omega
  | ⟨4, _⟩ => show 0 + 1 * l.val = l.val; omega

theorem embB0 (u u' : Fin 1) (r : Fin 64) (l : Fin 512) :
    rB0.emb (ix4 u u' r l) = ix4 (0 : Fin 4) (0 : Fin 1) r l := by
  funext a; apply Fin.ext
  match a with
  | ⟨0, _⟩ => show 0 + 1 * u.val = 0; omega
  | ⟨1, _⟩ => show 0 + 1 * u'.val = 0; omega
  | ⟨2, _⟩ => show 0 + 1 * r.val = r.val; omega
  | ⟨3, _⟩ => show 0 + 1 * l.val = l.val; omega
theorem embB1 (u u' : Fin 1) (r : Fin 64) (l : Fin 512) :
    rB1.emb (ix4 u u' r l) = ix4 (1 : Fin 4) (0 : Fin 1) r l := by
  funext a; apply Fin.ext
  match a with
  | ⟨0, _⟩ => show 1 + 1 * u.val = 1; omega
  | ⟨1, _⟩ => show 0 + 1 * u'.val = 0; omega
  | ⟨2, _⟩ => show 0 + 1 * r.val = r.val; omega
  | ⟨3, _⟩ => show 0 + 1 * l.val = l.val; omega
theorem embB2 (u u' : Fin 1) (r : Fin 64) (l : Fin 512) :
    rB2.emb (ix4 u u' r l) = ix4 (2 : Fin 4) (0 : Fin 1) r l := by
  funext a; apply Fin.ext
  match a with
  | ⟨0, _⟩ => show 2 + 1 * u.val = 2; omega
  | ⟨1, _⟩ => show 0 + 1 * u'.val = 0; omega
  | ⟨2, _⟩ => show 0 + 1 * r.val = r.val; omega
  | ⟨3, _⟩ => show 0 + 1 * l.val = l.val; omega
theorem embB3 (u u' : Fin 1) (r : Fin 64) (l : Fin 512) :
    rB3.emb (ix4 u u' r l) = ix4 (3 : Fin 4) (0 : Fin 1) r l := by
  funext a; apply Fin.ext
  match a with
  | ⟨0, _⟩ => show 3 + 1 * u.val = 3; omega
  | ⟨1, _⟩ => show 0 + 1 * u'.val = 0; omega
  | ⟨2, _⟩ => show 0 + 1 * r.val = r.val; omega
  | ⟨3, _⟩ => show 0 + 1 * l.val = l.val; omega

/-! ## The index buffers -/

/-- A clamped row stored as one slab: at `(u, u', r, l)` the clamp of the row there. -/
theorem clampSlab_apply (v : IVec S64x512 32) (u u' : Fin 1) (r : Fin 64) (l : Fin 512) :
    shapeCast S1x1x64x512 (minsi (broadcast S64x512 511#32) (maxsi (broadcast S64x512 0#32) v)) shapeCasts_S64x512_S1x1x64x512 (ix4 u u' r l)
      = IntOp.minsi 511#32 (IntOp.maxsi 0#32 (v (ix2 r l))) := by
  rw [shapeCast_ab_11ab_apply]; rfl

theorem v182_apply (x2 : Vec Ideal S1x64x512 .f32) (r : Fin 64) (l : Fin 512) :
    p_v182 x2 (ix2 r l) = clampRow 0xFFFFFFFF#32 (x2 (ix3 (0 : Fin 1) r l)) := by
  have h := v147_apply x2 r l
  unfold p_v182 k0_pay26
  simp only [minsi, maxsi, broadcast]
  rw [h]; rfl

theorem v220_apply (x2 : Vec Ideal S1x64x512 .f32) (r : Fin 64) (l : Fin 512) :
    p_v220 x2 (ix2 r l) = IntOp.maxsi 0#32 (row 0#32 (x2 (ix3 (0 : Fin 1) r l))) := by
  have h := v33_apply x2 r l
  unfold p_v220 k0_pay31 k0_pay28
  simp only [maxsi, addi, broadcast]
  rw [h]; rfl

/-- Each slab of the row-index buffer is the clamped row of its neighbour. -/
theorem slabB4_3 (x1 : Vec Ideal S1x64x512 .f32) (x : S1x1x64x512.Idx) : k0_pay30 (p_v131 x1) x = B4 x1 (rB3.emb x) := by
  obtain ⟨u, u', r, l, rfl⟩ : ∃ (u u' : Fin 1) (r : Fin 64) (l : Fin 512), x = ix4 u u' r l := ⟨x 0, x 1, x 2, x 3, eq_ix4 x⟩
  rw [embB3]
  show k0_pay30 (p_v131 x1) (ix4 u u' r l) = clampRow (oI 3) (x1 (ix3 (0 : Fin 1) r l))
  unfold k0_pay30
  rw [clampSlab_apply, v131_apply]; rfl
theorem slabB4_2 (x1 : Vec Ideal S1x64x512 .f32) (x : S1x1x64x512.Idx) : k0_pay25 (p_v131 x1) x = B4 x1 (rB2.emb x) := by
  obtain ⟨u, u', r, l, rfl⟩ : ∃ (u u' : Fin 1) (r : Fin 64) (l : Fin 512), x = ix4 u u' r l := ⟨x 0, x 1, x 2, x 3, eq_ix4 x⟩
  rw [embB2]
  show k0_pay25 (p_v131 x1) (ix4 u u' r l) = clampRow (oI 2) (x1 (ix3 (0 : Fin 1) r l))
  unfold k0_pay25
  rw [clampSlab_apply, v131_apply]; rfl
theorem slabB4_1 (x1 : Vec Ideal S1x64x512 .f32) (x : S1x1x64x512.Idx) : k0_pay18 (p_v35 x1) x = B4 x1 (rB1.emb x) := by
  obtain ⟨u, u', r, l, rfl⟩ : ∃ (u u' : Fin 1) (r : Fin 64) (l : Fin 512), x = ix4 u u' r l := ⟨x 0, x 1, x 2, x 3, eq_ix4 x⟩
  rw [embB1]
  show k0_pay18 (p_v35 x1) (ix4 u u' r l) = clampRow (oI 1) (x1 (ix3 (0 : Fin 1) r l))
  unfold k0_pay18
  rw [clampSlab_apply, v35_apply]; rfl
theorem slabB4_0 (x1 : Vec Ideal S1x64x512 .f32) (x : S1x1x64x512.Idx) : k0_pay13 (p_v35 x1) 0#32 x = B4 x1 (rB0.emb x) := by
  obtain ⟨u, u', r, l, rfl⟩ : ∃ (u u' : Fin 1) (r : Fin 64) (l : Fin 512), x = ix4 u u' r l := ⟨x 0, x 1, x 2, x 3, eq_ix4 x⟩
  rw [embB0]
  show k0_pay13 (p_v35 x1) 0#32 (ix4 u u' r l) = clampRow (oI 0) (x1 (ix3 (0 : Fin 1) r l))
  unfold k0_pay13
  rw [clampSlab_apply, v35_apply]; rfl

theorem out4_eq (x0 : Vec Ideal S1x16x64x512 .f32) (x1 x2 : Vec Ideal S1x64x512 .f32) : out0_4 x0 x1 x2 = B4 x1 := by
  funext y
  unfold out0_4
  refine View.canon_apply_of_pieces (B4 x1) _ ?_ y (cover0_4 _ _ _ _ y)
  intro p hp x
  simp only [List.mem_cons, List.mem_nil_iff, or_false] at hp
  rcases hp with rfl | rfl | rfl | rfl
  · dsimp only; exact slabB4_3 x1 x
  · dsimp only; exact slabB4_2 x1 x
  · dsimp only; exact slabB4_1 x1 x
  · dsimp only; exact slabB4_0 x1 x

/-- Each slab of the column-index buffer is the clamped column of its neighbour. -/
theorem slabB5_3 (x2 : Vec Ideal S1x64x512 .f32) (x : S1x1x64x512.Idx) : k0_pay1 511#32 (p_v220 x2) x = B5 x2 (rB3.emb x) := by
  obtain ⟨u, u', r, l, rfl⟩ : ∃ (u u' : Fin 1) (r : Fin 64) (l : Fin 512), x = ix4 u u' r l := ⟨x 0, x 1, x 2, x 3, eq_ix4 x⟩
  rw [embB3]
  show k0_pay1 511#32 (p_v220 x2) (ix4 u u' r l) = clampRow (oJ 3) (x2 (ix3 (0 : Fin 1) r l))
  unfold k0_pay1
  rw [shapeCast_ab_11ab_apply]
  simp only [minsi, broadcast]
  rw [v220_apply]; rfl
theorem slabB5_2 (x2 : Vec Ideal S1x64x512 .f32) (x : S1x1x64x512.Idx) : k0_pay27 (p_v182 x2) x = B5 x2 (rB2.emb x) := by
  obtain ⟨u, u', r, l, rfl⟩ : ∃ (u u' : Fin 1) (r : Fin 64) (l : Fin 512), x = ix4 u u' r l := ⟨x 0, x 1, x 2, x 3, eq_ix4 x⟩
  rw [embB2]
  show k0_pay27 (p_v182 x2) (ix4 u u' r l) = clampRow (oJ 2) (x2 (ix3 (0 : Fin 1) r l))
  unfold k0_pay27
  rw [shapeCast_ab_11ab_apply, v182_apply]; rfl
theorem slabB5_1 (x2 : Vec Ideal S1x64x512 .f32) (x : S1x1x64x512.Idx) : k0_pay19 (p_v91 x2) x = B5 x2 (rB1.emb x) := by
  obtain ⟨u, u', r, l, rfl⟩ : ∃ (u u' : Fin 1) (r : Fin 64) (l : Fin 512), x = ix4 u u' r l := ⟨x 0, x 1, x 2, x 3, eq_ix4 x⟩
  rw [embB1]
  show k0_pay19 (p_v91 x2) (ix4 u u' r l) = clampRow (oJ 1) (x2 (ix3 (0 : Fin 1) r l))
  unfold k0_pay19
  rw [clampSlab_apply, v91_apply]; rfl
theorem slabB5_0 (x2 : Vec Ideal S1x64x512 .f32) (x : S1x1x64x512.Idx) : k0_pay14 (p_v51 x2) x = B5 x2 (rB0.emb x) := by
  obtain ⟨u, u', r, l, rfl⟩ : ∃ (u u' : Fin 1) (r : Fin 64) (l : Fin 512), x = ix4 u u' r l := ⟨x 0, x 1, x 2, x 3, eq_ix4 x⟩
  rw [embB0]
  show k0_pay14 (p_v51 x2) (ix4 u u' r l) = clampRow (oJ 0) (x2 (ix3 (0 : Fin 1) r l))
  unfold k0_pay14
  rw [clampSlab_apply, v51_apply]; rfl

theorem out5_eq (x0 : Vec Ideal S1x16x64x512 .f32) (x1 x2 : Vec Ideal S1x64x512 .f32) : out0_5 x0 x1 x2 = B5 x2 := by
  funext y
  unfold out0_5
  refine View.canon_apply_of_pieces (B5 x2) _ ?_ y (cover0_5 _ _ _ _ y)
  intro p hp x
  simp only [List.mem_cons, List.mem_nil_iff, or_false] at hp
  rcases hp with rfl | rfl | rfl | rfl
  · dsimp only; exact slabB5_3 x2 x
  · dsimp only; exact slabB5_2 x2 x
  · dsimp only; exact slabB5_1 x2 x
  · dsimp only; exact slabB5_0 x2 x

/-! ## The update buffer -/

/-- A slab of weighted features: at `(u, u', cc, r, l)` the feature times the masked weight of its pixel. -/
theorem updSlab_apply (v1 : FVec Ideal S16x64x512 .f32) (msk : IVec S64x512 1) (w : FVec Ideal S64x512 .f32)
    (u u' : Fin 1) (cc : Fin 16) (r : Fin 64) (l : Fin 512) :
    shapeCast S1x1x16x64x512
        (mulf v1 (broadcastTo S16x64x512
          (shapeCast S1x64x512 (select msk w (broadcast S64x512 (Scalar.ofBits (F := Ideal) .f32 0x00000000#32))) shapeCasts_S64x512_S1x64x512)
          broadcasts_S1x64x512_S16x64x512))
        shapeCasts_S16x64x512_S1x1x16x64x512 (ix5 u u' cc r l)
      = v1 (ix3 cc r l) * Scalar.select (msk (ix2 r l)) (w (ix2 r l)) (FloatOps.ofBits (F := Ideal) .f32 0x00000000#32) := by
  rw [shapeCast_mab_11mab_apply]
  show v1 (ix3 cc r l) * broadcastTo S16x64x512 _ broadcasts_S1x64x512_S16x64x512 (ix3 cc r l) = _
  rw [broadcastTo_1ab_mab_apply (by decide) (by decide), shapeCast_ab_1ab_apply]
  rfl

/-- Each slab of the update buffer is the feature times the masked weight of its neighbour. -/
theorem slabA3 (x0 : Vec Ideal S1x16x64x512 .f32) (x1 x2 : Vec Ideal S1x64x512 .f32) (x : S1x1x16x64x512.Idx) :
    k0_pay29 (p_v1 x0) (p_v29 x2) (p_v33 x2) (p_v136 x1) (p_v145 x1) x = B3 x0 x1 x2 (rA3.emb x) := by
  obtain ⟨u, u', cc, r, l, rfl⟩ : ∃ (u u' : Fin 1) (cc : Fin 16) (r : Fin 64) (l : Fin 512), x = ix5 u u' cc r l := ⟨x 0, x 1, x 2, x 3, x 4, eq_ix5 x⟩
  rw [embA3]
  show _ = B3 x0 x1 x2 (ix5 (3 : Fin 4) (0 : Fin 1) cc r l)
  unfold k0_pay29
  rw [updSlab_apply]
  simp only [andi, cmpi, mulf, maximumf, subf, absf, sitofp, addi, broadcast, k0_pay28]
  rw [v1_apply, v136_apply, v145_apply, v33_apply, v29_apply]
  rfl
theorem slabA2 (x0 : Vec Ideal S1x16x64x512 .f32) (x1 x2 : Vec Ideal S1x64x512 .f32) (x : S1x1x16x64x512.Idx) :
    k0_pay24 (p_v1 x0) (p_v29 x2) (p_v33 x2) (p_v136 x1) (p_v145 x1) (p_v147 x2) 0#32 x = B3 x0 x1 x2 (rA2.emb x) := by
  obtain ⟨u, u', cc, r, l, rfl⟩ : ∃ (u u' : Fin 1) (cc : Fin 16) (r : Fin 64) (l : Fin 512), x = ix5 u u' cc r l := ⟨x 0, x 1, x 2, x 3, x 4, eq_ix5 x⟩
  rw [embA2]
  show _ = B3 x0 x1 x2 (ix5 (2 : Fin 4) (0 : Fin 1) cc r l)
  unfold k0_pay24
  rw [updSlab_apply]
  simp only [andi, cmpi, mulf, maximumf, subf, absf, sitofp, addi, broadcast]
  rw [v1_apply, v136_apply, v145_apply, v147_apply, v33_apply, v29_apply]
  rfl
theorem slabA1 (x0 : Vec Ideal S1x16x64x512 .f32) (x1 x2 : Vec Ideal S1x64x512 .f32) (x : S1x1x16x64x512.Idx) :
    k0_pay17 (p_v112 x0 x1 x2) x = B3 x0 x1 x2 (rA1.emb x) := by
  obtain ⟨u, u', cc, r, l, rfl⟩ : ∃ (u u' : Fin 1) (cc : Fin 16) (r : Fin 64) (l : Fin 512), x = ix5 u u' cc r l := ⟨x 0, x 1, x 2, x 3, x 4, eq_ix5 x⟩
  rw [embA1]
  show _ = B3 x0 x1 x2 (ix5 (1 : Fin 4) (0 : Fin 1) cc r l)
  unfold k0_pay17 p_v112 k0_pay16
  dsimp only []
  rw [updSlab_apply]
  simp only [andi, cmpi, mulf, maximumf, subf, absf, sitofp, addi, broadcast, k0_pay15]
  rw [v1_apply, v40_apply, v49_apply, v33_apply, v29_apply]
  rfl
theorem slabA0 (x0 : Vec Ideal S1x16x64x512 .f32) (x1 x2 : Vec Ideal S1x64x512 .f32) (x : S1x1x16x64x512.Idx) :
    k0_pay12 (p_v1 x0) (p_v21 x1) (p_v29 x2) (p_v31 x1) (p_v33 x2) p_v34 x = B3 x0 x1 x2 (rA0.emb x) := by
  obtain ⟨u, u', cc, r, l, rfl⟩ : ∃ (u u' : Fin 1) (cc : Fin 16) (r : Fin 64) (l : Fin 512), x = ix5 u u' cc r l := ⟨x 0, x 1, x 2, x 3, x 4, eq_ix5 x⟩
  rw [embA0]
  show _ = B3 x0 x1 x2 (ix5 (0 : Fin 4) (0 : Fin 1) cc r l)
  unfold k0_pay12
  rw [updSlab_apply]
  rw [show k0_pay9 (p_v31 x1) p_v34 = p_v40 x1 from rfl, show k0_pay10 (p_v21 x1) (p_v31 x1) = p_v49 x1 from rfl,
    show k0_pay11 (p_v33 x2) = p_v51 x2 from rfl]
  simp only [andi, cmpi, mulf, maximumf, subf, absf, sitofp, addi, broadcast]
  rw [v1_apply, v40_apply, v49_apply, v51_apply, v33_apply, v29_apply]
  rfl

theorem out3_eq (x0 : Vec Ideal S1x16x64x512 .f32) (x1 x2 : Vec Ideal S1x64x512 .f32) : out0_3 x0 x1 x2 = B3 x0 x1 x2 := by
  funext y
  unfold out0_3
  refine View.canon_apply_of_pieces (B3 x0 x1 x2) _ ?_ y (cover0_3 _ _ _ _ y)
  intro p hp x
  simp only [List.mem_cons, List.mem_nil_iff, or_false] at hp
  rcases hp with rfl | rfl | rfl | rfl
  · dsimp only; exact slabA3 x0 x1 x2 x
  · dsimp only; exact slabA2 x0 x1 x2 x
  · dsimp only; exact slabA1 x0 x1 x2 x
  · dsimp only; exact slabA0 x0 x1 x2 x

end Cert.KernelIdeal.Blk

end
-- ==== Proof.KerArr.lean ====
/-
  From blocks to arrays. What one grid point leaves in an output buffer is a function of the three input blocks
  (`Blk.B3`, `Blk.B4`, `Blk.B5`); the input blocks are read off the argument arrays — the feature array directly, the
  two coordinate planes as the slices of `main_arg1` along its last axis —, and the output blocks tile the output
  arrays. So after the run each output array is one function of the argument arrays, index by index: `G3`, `G4`, `G5`.
-/
import proofs.«149145_j3066606649873_2_alg».proof.Proof.KerBlock
import Idealize.ShloMosaic.Lib.Pipeline.Value

set_option maxRecDepth 16384

noncomputable section
namespace Cert.KernelIdeal.Arr

open Cert.KernelIdeal Cert.KernelIdeal.Gen Cert.KernelIdeal.Frm Cert.KernelIdeal.Blk Cert.Splat Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ)

/-! ## The three output arrays as functions of the argument arrays

`G3`: slab `k` of the update array at batch `b`, channel `cc`, row `r`, lane `l` is the `k`-th neighbour's term of
the update element (pixel `(b, r, l)`, channel `cc`). `G4`, `G5`: slab `k` of the index arrays at `(b, r, l)` is that
pixel's `k`-th neighbour's clamped row, and clamped column. -/

def G3 (x : Img) (g : Grd) : S4x8x16x512x512.Idx → EReal := fun i => kerTerm x g (i 0) (ix4 (i 1) (i 3) (i 4) (i 2))
def G4 (g : Grd) : S4x8x512x512.Idx → BitVec 32 := fun i => clampRow (oI (i 0)) (g (ix4 (i 1) (i 2) (i 3) (0 : Fin 2)))
def G5 (g : Grd) : S4x8x512x512.Idx → BitVec 32 := fun i => clampRow (oJ (i 0)) (g (ix4 (i 1) (i 2) (i 3) (1 : Fin 2)))

/-! ## The host operations before the region

Each coordinate plane the region reads is a unit-stride slice of `main_arg1` along its last axis, with that axis
dropped: plane `d` at `(b, r, l)` is `main_arg1` at `(b, r, l, d)`. -/

theorem V_main_v1 (c : Dev nD) : (V m c main_v1 : S8x512x512.Idx → EReal) = fun i => m ((c : Thread nD τ).loc main_arg1) (ix4 (i 0) (i 1) (i 2) (0 : Fin 2)) := by
  show StableHlo.after hostOps0 (fun b => m (c, b)) (Proc.devRef .tc main_v1) = _
  after_results
  funext i
  show shapeCast S8x512x512 (extractStridedSlice S8x512x512x1 ![0, 0, 0, 0] (m ((c : Thread nD τ).loc main_arg1)) slices_S8x512x512x2_S8x512x512x1_0_0_0_0) shapeCasts_S8x512x512x1_S8x512x512 i = _
  refine (shapeCast_apply _ shapeCasts_S8x512x512x1_S8x512x512 i (ix4 (i 0) (i 1) (i 2) (0 : Fin 1)) ?_).trans ?_
  · rw [Shape.rowMajor_val_four, Shape.rowMajor_val_three]
    show (((i 0).val * 512 + (i 1).val) * 512 + (i 2).val) * 1 + 0 = ((i 0).val * 512 + (i 1).val) * 512 + (i 2).val
    omega
  · exact extractStridedSlice_apply ![0, 0, 0, 0] _ slices_S8x512x512x2_S8x512x512x1_0_0_0_0 (ix4 (i 0) (i 1) (i 2) (0 : Fin 1)) (ix4 (i 0) (i 1) (i 2) (0 : Fin 2)) (fun a => match a with
      | ⟨0, _⟩ => by show (i 0).val = 0 + (i 0).val; omega
      | ⟨1, _⟩ => by show (i 1).val = 0 + (i 1).val; omega
      | ⟨2, _⟩ => by show (i 2).val = 0 + (i 2).val; omega
      | ⟨3, _⟩ => by show (0 : Nat) = 0 + 0; omega)

theorem V_main_v3 (c : Dev nD) : (V m c main_v3 : S8x512x512.Idx → EReal) = fun i => m ((c : Thread nD τ).loc main_arg1) (ix4 (i 0) (i 1) (i 2) (1 : Fin 2)) := by
  show StableHlo.after hostOps0 (fun b => m (c, b)) (Proc.devRef .tc main_v3) = _
  after_results
  funext i
  show shapeCast S8x512x512 (extractStridedSlice S8x512x512x1 ![0, 0, 0, 1] (m ((c : Thread nD τ).loc main_arg1)) slices_S8x512x512x2_S8x512x512x1_0_0_0_1) shapeCasts_S8x512x512x1_S8x512x512 i = _
  refine (shapeCast_apply _ shapeCasts_S8x512x512x1_S8x512x512 i (ix4 (i 0) (i 1) (i 2) (0 : Fin 1)) ?_).trans ?_
  · rw [Shape.rowMajor_val_four, Shape.rowMajor_val_three]
    show (((i 0).val * 512 + (i 1).val) * 512 + (i 2).val) * 1 + 0 = ((i 0).val * 512 + (i 1).val) * 512 + (i 2).val
    omega
  · exact extractStridedSlice_apply ![0, 0, 0, 1] _ slices_S8x512x512x2_S8x512x512x1_0_0_0_1 (ix4 (i 0) (i 1) (i 2) (0 : Fin 1)) (ix4 (i 0) (i 1) (i 2) (1 : Fin 2)) (fun a => match a with
      | ⟨0, _⟩ => by show (i 0).val = 0 + (i 0).val; omega
      | ⟨1, _⟩ => by show (i 1).val = 0 + (i 1).val; omega
      | ⟨2, _⟩ => by show (i 2).val = 0 + (i 2).val; omega
      | ⟨3, _⟩ => by show (1 : Nat) = 1 + 0; omega)

theorem V_main_v1_apply (c : Dev nD) (i : S8x512x512.Idx) :
    V m c main_v1 i = m ((c : Thread nD τ).loc main_arg1) (ix4 (i 0) (i 1) (i 2) (0 : Fin 2)) := congrFun (V_main_v1 m c) i
theorem V_main_v3_apply (c : Dev nD) (i : S8x512x512.Idx) :
    V m c main_v3 i = m ((c : Thread nD τ).loc main_arg1) (ix4 (i 0) (i 1) (i 2) (1 : Fin 2)) := congrFun (V_main_v3 m c) i

/-! ## The index maps, decided over the grid

At grid point `(t0, t1)` every window sits at batch `t0` and row block `t1` of its array and at block 0 of every
other axis. -/

theorem idx_facts : ∀ t : Fin cfg0.N,
    win0_3.index t (0 : Fin 5) = 0 ∧ win0_3.index t (2 : Fin 5) = 0 ∧ win0_3.index t (4 : Fin 5) = 0
    ∧ win0_3.index t (1 : Fin 5) ≤ 7 ∧ win0_3.index t (3 : Fin 5) ≤ 7
    ∧ win0_0.index t (0 : Fin 4) = win0_3.index t (1 : Fin 5) ∧ win0_0.index t (1 : Fin 4) = 0
    ∧ win0_0.index t (2 : Fin 4) = win0_3.index t (3 : Fin 5) ∧ win0_0.index t (3 : Fin 4) = 0
    ∧ win0_1.index t (0 : Fin 3) = win0_3.index t (1 : Fin 5) ∧ win0_1.index t (1 : Fin 3) = win0_3.index t (3 : Fin 5)
    ∧ win0_1.index t (2 : Fin 3) = 0
    ∧ win0_2.index t (0 : Fin 3) = win0_3.index t (1 : Fin 5) ∧ win0_2.index t (1 : Fin 3) = win0_3.index t (3 : Fin 5)
    ∧ win0_2.index t (2 : Fin 3) = 0
    ∧ win0_4.index t (0 : Fin 4) = 0 ∧ win0_4.index t (1 : Fin 4) = win0_3.index t (1 : Fin 5)
    ∧ win0_4.index t (2 : Fin 4) = win0_3.index t (3 : Fin 5) ∧ win0_4.index t (3 : Fin 4) = 0
    ∧ win0_5.index t (0 : Fin 4) = 0 ∧ win0_5.index t (1 : Fin 4) = win0_3.index t (1 : Fin 5)
    ∧ win0_5.index t (2 : Fin 4) = win0_3.index t (3 : Fin 5) ∧ win0_5.index t (3 : Fin 4) = 0 :=
  (by decide +kernel : ∀ t : Fin grid0.N, _)

/-- Every (batch, row block) pair is some point's. -/
theorem idx_onto3 : ∀ (q0 q1 : Fin 8), ∃ t : Fin cfg0.N, win0_3.index t = ![0, q0.val, 0, q1.val, 0] :=
  (by decide +kernel : ∀ (q0 q1 : Fin 8), ∃ t : Fin grid0.N, win0_3.index t = ![0, q0.val, 0, q1.val, 0])
theorem idx_onto4 : ∀ (q0 q1 : Fin 8), ∃ t : Fin cfg0.N, win0_4.index t = ![0, q0.val, q1.val, 0] :=
  (by decide +kernel : ∀ (q0 q1 : Fin 8), ∃ t : Fin grid0.N, win0_4.index t = ![0, q0.val, q1.val, 0])
theorem idx_onto5 : ∀ (q0 q1 : Fin 8), ∃ t : Fin cfg0.N, win0_5.index t = ![0, q0.val, q1.val, 0] :=
  (by decide +kernel : ∀ (q0 q1 : Fin 8), ∃ t : Fin grid0.N, win0_5.index t = ![0, q0.val, q1.val, 0])

/-! ## The blocks cover the output arrays -/

/-- An index of the array is in point `t`'s block iff each coordinate is in the block's range on its axis. -/
theorem mem_blk3 (t : Fin cfg0.N) (i : S4x8x16x512x512.Idx) :
    i ∈ ((cfg0.win 3).blk t).view.set ↔ ∀ a : Fin 5, win0_3.index t a * S4x1x16x64x512.size a ≤ (i a).val ∧ (i a).val < win0_3.index t a * S4x1x16x64x512.size a + S4x1x16x64x512.size a := by
  show i ∈ ((View.whole main_v4_0).slice (win0_3.rect t)).set ↔ _
  rw [View.set_slice_whole, Rect.mem_set_unit]
  exact Iff.rfl
theorem mem_blk4 (t : Fin cfg0.N) (i : S4x8x512x512.Idx) :
    i ∈ ((cfg0.win 4).blk t).view.set ↔ ∀ a : Fin 4, win0_4.index t a * S4x1x64x512.size a ≤ (i a).val ∧ (i a).val < win0_4.index t a * S4x1x64x512.size a + S4x1x64x512.size a := by
  show i ∈ ((View.whole main_v4_1).slice (win0_4.rect t)).set ↔ _
  rw [View.set_slice_whole, Rect.mem_set_unit]
  exact Iff.rfl
theorem mem_blk5 (t : Fin cfg0.N) (i : S4x8x512x512.Idx) :
    i ∈ ((cfg0.win 5).blk t).view.set ↔ ∀ a : Fin 4, win0_5.index t a * S4x1x64x512.size a ≤ (i a).val ∧ (i a).val < win0_5.index t a * S4x1x64x512.size a + S4x1x64x512.size a := by
  show i ∈ ((View.whole main_v4_2).slice (win0_5.rect t)).set ↔ _
  rw [View.set_slice_whole, Rect.mem_set_unit]
  exact Iff.rfl

/-- Every index of output window 3's array is in the block of the point at its batch and its row's block. -/
theorem cover3 (i : S4x8x16x512x512.Idx) : ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 16 := (i 2).isLt
  have hi3 : (i 3).val < 512 := (i 3).isLt
  have hi4 : (i 4).val < 512 := (i 4).isLt
  obtain ⟨t, ht⟩ := idx_onto3 ⟨(i 1).val, hi1⟩ ⟨(i 3).val / 64, by omega⟩
  have q0 : win0_3.index t (0 : Fin 5) = 0 := congrFun ht 0
  have q1 : win0_3.index t (1 : Fin 5) = (i 1).val := congrFun ht 1
  have q2 : win0_3.index t (2 : Fin 5) = 0 := congrFun ht 2
  have q3 : win0_3.index t (3 : Fin 5) = (i 3).val / 64 := congrFun ht 3
  have q4 : win0_3.index t (4 : Fin 5) = 0 := congrFun ht 4
  refine ⟨t, flush0_3 t, ?_⟩
  rw [mem_blk3]
  intro a
  match a with
  | ⟨0, _⟩ => show win0_3.index t (0 : Fin 5) * 4 ≤ (i 0).val ∧ (i 0).val < win0_3.index t (0 : Fin 5) * 4 + 4; omega
  | ⟨1, _⟩ => show win0_3.index t (1 : Fin 5) * 1 ≤ (i 1).val ∧ (i 1).val < win0_3.index t (1 : Fin 5) * 1 + 1; omega
  | ⟨2, _⟩ => show win0_3.index t (2 : Fin 5) * 16 ≤ (i 2).val ∧ (i 2).val < win0_3.index t (2 : Fin 5) * 16 + 16; omega
  | ⟨3, _⟩ => show win0_3.index t (3 : Fin 5) * 64 ≤ (i 3).val ∧ (i 3).val < win0_3.index t (3 : Fin 5) * 64 + 64; omega
  | ⟨4, _⟩ => show win0_3.index t (4 : Fin 5) * 512 ≤ (i 4).val ∧ (i 4).val < win0_3.index t (4 : Fin 5) * 512 + 512; omega

theorem cover4 (i : S4x8x512x512.Idx) : ∃ t : Fin cfg0.N, (cfg0.win 4).flush t = true ∧ i ∈ ((cfg0.win 4).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, ht⟩ := idx_onto4 ⟨(i 1).val, hi1⟩ ⟨(i 2).val / 64, by omega⟩
  have q0 : win0_4.index t (0 : Fin 4) = 0 := congrFun ht 0
  have q1 : win0_4.index t (1 : Fin 4) = (i 1).val := congrFun ht 1
  have q2 : win0_4.index t (2 : Fin 4) = (i 2).val / 64 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 4 ≤ (i 0).val ∧ (i 0).val < win0_4.index t (0 : Fin 4) * 4 + 4; omega
  | ⟨1, _⟩ => show win0_4.index t (1 : Fin 4) * 1 ≤ (i 1).val ∧ (i 1).val < win0_4.index t (1 : Fin 4) * 1 + 1; omega
  | ⟨2, _⟩ => show win0_4.index t (2 : Fin 4) * 64 ≤ (i 2).val ∧ (i 2).val < win0_4.index t (2 : Fin 4) * 64 + 64; omega
  | ⟨3, _⟩ => show win0_4.index t (3 : Fin 4) * 512 ≤ (i 3).val ∧ (i 3).val < win0_4.index t (3 : Fin 4) * 512 + 512; omega

theorem cover5 (i : S4x8x512x512.Idx) : ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 512 := (i 2).isLt
  have hi3 : (i 3).val < 512 := (i 3).isLt
  obtain ⟨t, ht⟩ := idx_onto5 ⟨(i 1).val, hi1⟩ ⟨(i 2).val / 64, by omega⟩
  have q0 : win0_5.index t (0 : Fin 4) = 0 := congrFun ht 0
  have q1 : win0_5.index t (1 : Fin 4) = (i 1).val := congrFun ht 1
  have q2 : win0_5.index t (2 : Fin 4) = (i 2).val / 64 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 4 ≤ (i 0).val ∧ (i 0).val < win0_5.index t (0 : Fin 4) * 4 + 4; omega
  | ⟨1, _⟩ => show win0_5.index t (1 : Fin 4) * 1 ≤ (i 1).val ∧ (i 1).val < win0_5.index t (1 : Fin 4) * 1 + 1; omega
  | ⟨2, _⟩ => show win0_5.index t (2 : Fin 4) * 64 ≤ (i 2).val ∧ (i 2).val < win0_5.index t (2 : Fin 4) * 64 + 64; omega
  | ⟨3, _⟩ => show win0_5.index t (3 : Fin 4) * 512 ≤ (i 3).val ∧ (i 3).val < win0_5.index t (3 : Fin 4) * 512 + 512; omega

/-! ## One element of a block is one element of the array

With the three input blocks read where the arrays hold them, the block-level functions are the array-level ones. -/

theorem B3_eq_G3_of (A0 : Img) (A1 : Grd) (x0 : Vec Ideal S1x16x64x512 .f32) (x1 x2 : Vec Ideal S1x64x512 .f32)
    (y : S4x1x16x64x512.Idx) (i : S4x8x16x512x512.Idx) (h0 : (y 0 : Fin 4) = (i 0 : Fin 4))
    (hx0 : x0 (ix4 (0 : Fin 1) (y 2) (y 3) (y 4)) = A0 (ix4 (i 1) (i 2) (i 3) (i 4)))
    (hx1 : x1 (ix3 (0 : Fin 1) (y 3) (y 4)) = A1 (ix4 (i 1) (i 3) (i 4) (0 : Fin 2)))
    (hx2 : x2 (ix3 (0 : Fin 1) (y 3) (y 4)) = A1 (ix4 (i 1) (i 3) (i 4) (1 : Fin 2))) :
    B3 x0 x1 x2 y = G3 A0 A1 i := by
  unfold B3
  rw [hx0, hx1, hx2, h0]
  rfl

theorem B4_eq_G4_of (A1 : Grd) (x1 : Vec Ideal S1x64x512 .f32) (y : S4x1x64x512.Idx) (i : S4x8x512x512.Idx)
    (h0 : (y 0 : Fin 4) = (i 0 : Fin 4))
    (hx1 : x1 (ix3 (0 : Fin 1) (y 2) (y 3)) = A1 (ix4 (i 1) (i 2) (i 3) (0 : Fin 2))) :
    B4 x1 y = G4 A1 i := by
  unfold B4
  rw [hx1, h0]
  rfl

theorem B5_eq_G5_of (A1 : Grd) (x2 : Vec Ideal S1x64x512 .f32) (y : S4x1x64x512.Idx) (i : S4x8x512x512.Idx)
    (h0 : (y 0 : Fin 4) = (i 0 : Fin 4))
    (hx2 : x2 (ix3 (0 : Fin 1) (y 2) (y 3)) = A1 (ix4 (i 1) (i 2) (i 3) (1 : Fin 2))) :
    B5 x2 y = G5 A1 i := by
  unfold B5
  rw [hx2, h0]
  rfl

/-! ## What each point writes back is its block of the array-level function -/

theorem flushed3_eq (c : Dev nD) (t : Fin cfg0.N) :
    (dats m 0 c).flushed 3 t = ((cfg0.win 3).blk t).view.read (Elt Ideal) (G3 (m ((c : Thread nD τ).loc main_arg0)) (m ((c : Thread nD τ).loc main_arg1))) := by
  show (cfg0.win 3).cut (grid0.coords t) ((dats m 0 c).after 3 t) = _
  rw [after0_3, out3_eq (iblk m c 0 t) (iblk m c 1 t) (iblk m c 2 t)]
  obtain ⟨z30, z32, z34, b31, b33, e00, e01, e02, e03, e10, e11, e12, e20, e21, e22, e40, e41, e42, e43, e50, e51, e52, e53⟩ := idx_facts t
  funext y
  have hy0 : (y 0).val < 4 := (y 0).isLt
  have hy1 : (y 1).val < 1 := (y 1).isLt
  have hy2 : (y 2).val < 16 := (y 2).isLt
  have hy3 : (y 3).val < 64 := (y 3).isLt
  have hy4 : (y 4).val < 512 := (y 4).isLt
  show B3 (iblk m c 0 t) (iblk m c 1 t) (iblk m c 2 t) y = G3 (m ((c : Thread nD τ).loc main_arg0)) (m ((c : Thread nD τ).loc main_arg1)) (((cfg0.win 3).blk t).view.emb y)
  refine B3_eq_G3_of _ _ _ _ _ y _ ?_ ?_ ?_ ?_
  · apply Fin.ext
    show (y 0).val = win0_3.index t (0 : Fin 5) * 4 + 1 * (y 0).val
    omega
  · show V m c main_arg0 (((cfg0.win 0).blk t).view.emb (ix4 (0 : Fin 1) (y 2) (y 3) (y 4))) = _
    rw [V_main_arg0]
    refine congrArg _ (funext fun a => Fin.ext ?_)
    match a with
    | ⟨0, _⟩ => show win0_0.index t (0 : Fin 4) * 1 + 1 * 0 = win0_3.index t (1 : Fin 5) * 1 + 1 * (y 1).val; omega
    | ⟨1, _⟩ => show win0_0.index t (1 : Fin 4) * 16 + 1 * (y 2).val = win0_3.index t (2 : Fin 5) * 16 + 1 * (y 2).val; omega
    | ⟨2, _⟩ => show win0_0.index t (2 : Fin 4) * 64 + 1 * (y 3).val = win0_3.index t (3 : Fin 5) * 64 + 1 * (y 3).val; omega
    | ⟨3, _⟩ => show win0_0.index t (3 : Fin 4) * 512 + 1 * (y 4).val = win0_3.index t (4 : Fin 5) * 512 + 1 * (y 4).val; omega
  · show V m c main_v1 (((cfg0.win 1).blk t).view.emb (ix3 (0 : Fin 1) (y 3) (y 4))) = _
    refine (V_main_v1_apply m c _).trans (congrArg _ (funext fun a => Fin.ext ?_))
    match a with
    | ⟨0, _⟩ => show win0_1.index t (0 : Fin 3) * 1 + 1 * 0 = win0_3.index t (1 : Fin 5) * 1 + 1 * (y 1).val; omega
    | ⟨1, _⟩ => show win0_1.index t (1 : Fin 3) * 64 + 1 * (y 3).val = win0_3.index t (3 : Fin 5) * 64 + 1 * (y 3).val; omega
    | ⟨2, _⟩ => show win0_1.index t (2 : Fin 3) * 512 + 1 * (y 4).val = win0_3.index t (4 : Fin 5) * 512 + 1 * (y 4).val; omega
    | ⟨3, _⟩ => rfl
  · show V m c main_v3 (((cfg0.win 2).blk t).view.emb (ix3 (0 : Fin 1) (y 3) (y 4))) = _
    refine (V_main_v3_apply m c _).trans (congrArg _ (funext fun a => Fin.ext ?_))
    match a with
    | ⟨0, _⟩ => show win0_2.index t (0 : Fin 3) * 1 + 1 * 0 = win0_3.index t (1 : Fin 5) * 1 + 1 * (y 1).val; omega
    | ⟨1, _⟩ => show win0_2.index t (1 : Fin 3) * 64 + 1 * (y 3).val = win0_3.index t (3 : Fin 5) * 64 + 1 * (y 3).val; omega
    | ⟨2, _⟩ => show win0_2.index t (2 : Fin 3) * 512 + 1 * (y 4).val = win0_3.index t (4 : Fin 5) * 512 + 1 * (y 4).val; omega
    | ⟨3, _⟩ => rfl

theorem flushed4_eq (c : Dev nD) (t : Fin cfg0.N) :
    (dats m 0 c).flushed 4 t = ((cfg0.win 4).blk t).view.read (Elt Ideal) (G4 (m ((c : Thread nD τ).loc main_arg1))) := by
  show (cfg0.win 4).cut (grid0.coords t) ((dats m 0 c).after 4 t) = _
  rw [after0_4, out4_eq (iblk m c 0 t) (iblk m c 1 t) (iblk m c 2 t)]
  obtain ⟨z30, z32, z34, b31, b33, e00, e01, e02, e03, e10, e11, e12, e20, e21, e22, e40, e41, e42, e43, e50, e51, e52, e53⟩ := idx_facts t
  funext y
  have hy0 : (y 0).val < 4 := (y 0).isLt
  have hy1 : (y 1).val < 1 := (y 1).isLt
  have hy2 : (y 2).val < 64 := (y 2).isLt
  have hy3 : (y 3).val < 512 := (y 3).isLt
  show B4 (iblk m c 1 t) y = G4 (m ((c : Thread nD τ).loc main_arg1)) (((cfg0.win 4).blk t).view.emb y)
  refine B4_eq_G4_of _ _ y _ ?_ ?_
  · apply Fin.ext
    show (y 0).val = win0_4.index t (0 : Fin 4) * 4 + 1 * (y 0).val
    omega
  · show V m c main_v1 (((cfg0.win 1).blk t).view.emb (ix3 (0 : Fin 1) (y 2) (y 3))) = _
    refine (V_main_v1_apply m c _).trans (congrArg _ (funext fun a => Fin.ext ?_))
    match a with
    | ⟨0, _⟩ => show win0_1.index t (0 : Fin 3) * 1 + 1 * 0 = win0_4.index t (1 : Fin 4) * 1 + 1 * (y 1).val; omega
    | ⟨1, _⟩ => show win0_1.index t (1 : Fin 3) * 64 + 1 * (y 2).val = win0_4.index t (2 : Fin 4) * 64 + 1 * (y 2).val; omega
    | ⟨2, _⟩ => show win0_1.index t (2 : Fin 3) * 512 + 1 * (y 3).val = win0_4.index t (3 : Fin 4) * 512 + 1 * (y 3).val; omega
    | ⟨3, _⟩ => rfl

theorem flushed5_eq (c : Dev nD) (t : Fin cfg0.N) :
    (dats m 0 c).flushed 5 t = ((cfg0.win 5).blk t).view.read (Elt Ideal) (G5 (m ((c : Thread nD τ).loc main_arg1))) := by
  show (cfg0.win 5).cut (grid0.coords t) ((dats m 0 c).after 5 t) = _
  rw [after0_5, out5_eq (iblk m c 0 t) (iblk m c 1 t) (iblk m c 2 t)]
  obtain ⟨z30, z32, z34, b31, b33, e00, e01, e02, e03, e10, e11, e12, e20, e21, e22, e40, e41, e42, e43, e50, e51, e52, e53⟩ := idx_facts t
  funext y
  have hy0 : (y 0).val < 4 := (y 0).isLt
  have hy1 : (y 1).val < 1 := (y 1).isLt
  have hy2 : (y 2).val < 64 := (y 2).isLt
  have hy3 : (y 3).val < 512 := (y 3).isLt
  show B5 (iblk m c 2 t) y = G5 (m ((c : Thread nD τ).loc main_arg1)) (((cfg0.win 5).blk t).view.emb y)
  refine B5_eq_G5_of _ _ y _ ?_ ?_
  · apply Fin.ext
    show (y 0).val = win0_5.index t (0 : Fin 4) * 4 + 1 * (y 0).val
    omega
  · show V m c main_v3 (((cfg0.win 2).blk t).view.emb (ix3 (0 : Fin 1) (y 2) (y 3))) = _
    refine (V_main_v3_apply m c _).trans (congrArg _ (funext fun a => Fin.ext ?_))
    match a with
    | ⟨0, _⟩ => show win0_2.index t (0 : Fin 3) * 1 + 1 * 0 = win0_5.index t (1 : Fin 4) * 1 + 1 * (y 1).val; omega
    | ⟨1, _⟩ => show win0_2.index t (1 : Fin 3) * 64 + 1 * (y 2).val = win0_5.index t (2 : Fin 4) * 64 + 1 * (y 2).val; omega
    | ⟨2, _⟩ => show win0_2.index t (2 : Fin 3) * 512 + 1 * (y 3).val = win0_5.index t (3 : Fin 4) * 512 + 1 * (y 3).val; omega
    | ⟨3, _⟩ => rfl

/-! ## The output arrays after the run -/

/-- The blocks cover each output array, so it ends holding the array-level function of the argument arrays. -/
theorem final3 (c : Dev nD) : (dats m 0 c).arrAt 3 cfg0.N = G3 (m ((c : Thread nD τ).loc main_arg0)) (m ((c : Thread nD τ).loc main_arg1)) :=
  (dats m 0 c).arrAt_eq_of_cover 3 _ (fun t _ => flushed3_eq m c t) cover3
theorem final4 (c : Dev nD) : (dats m 0 c).arrAt 4 cfg0.N = G4 (m ((c : Thread nD τ).loc main_arg1)) :=
  (dats m 0 c).arrAt_eq_of_cover 4 _ (fun t _ => flushed4_eq m c t) cover4
theorem final5 (c : Dev nD) : (dats m 0 c).arrAt 5 cfg0.N = G5 (m ((c : Thread nD τ).loc main_arg1)) :=
  (dats m 0 c).arrAt_eq_of_cover 5 _ (fun t _ => flushed5_eq m c t) cover5

end Cert.KernelIdeal.Arr

end
-- ==== Proof.LibScatterSum.lean ====
/-
  The accumulating scatter as a plain sum. An update element `j` of a scatter lands on the operand element whose
  coordinate on every axis is the start of `j`'s window there (read signed off the scatter indices) plus `j`'s
  coordinate inside the window, when that is inside the operand on every axis, and is dropped otherwise. So
  `j` lands on `i` exactly when start plus window coordinate equals `i`'s coordinate on every axis
  (`resultIdx?_eq_some_iff`), and at the extended reals the scatter's value at `i` is the operand's plus the sum
  over ALL update elements of the update's value where it lands on `i` and zero where it does not
  (`scatterAdd_apply`).
-/
import Idealize.ShloMosaic.PureOps.Ideal
import Idealize.ShloMosaic.PureOps.Contract

noncomputable section

open scoped BigOperators

namespace Cert.LibScatterSum

open Idealize.ShloMosaic

/-- An update element lands on `i` exactly when, on every axis, the start of its window plus its coordinate in
    the window is `i`'s coordinate. -/
theorem resultIdx?_eq_some_iff {s si su : Shape} (d : ScatterDims s si su) {w : Nat} (j : su.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      have hv := congrArg Fin.val e'
      simp only at hv
      have := (h a).1
      omega
    · intro e
      congr 1
      funext a
      apply Fin.ext
      have := e a
      simp only
      omega
  · rename_i h
    constructor
    · intro e; cases e
    · intro e
      exfalso
      apply h
      intro a
      have := e a
      have := (i a).isLt
      omega

/-- The accumulating scatter at the extended reals, read at one operand element: the operand's value plus the sum
    over every update element of its value if it lands there and zero if not. -/
theorem scatterAdd_apply {s si su : Shape} (d : ScatterDims s si su) {w : Nat} {φ : FTy} (x : FVec Ideal s φ)
    (idx : IVec si w) (upd : FVec Ideal su φ) (i : s.Idx) :
    Host.scatterAdd d x idx upd i = x i + ∑ j : su.Idx, if d.resultIdx? j idx = some i then upd j else 0 := by
  show x i + ∑ j ∈ Finset.univ.filter (fun j => d.resultIdx? j idx = some i), upd j = _
  rw [Finset.sum_filter]

end Cert.LibScatterSum

end
-- ==== Proof.KerTail.lean ====
/-
  The host's tail of the kernel program, as one term and read at an index. After the kernel has produced, for each of
  the four neighbours, the weighted copy of the input and the clamped row and column numbers, the host arranges the
  copies channel-last, joins the batch number, the row number and the column number (each wrapped by its extent
  when negative) into an index array, adds every weighted value into a zero `[8, 512, 512, 16]` array at its batch,
  row and column, and arranges the result channel-second. Read at `(b, c, p, q)` the result is the sum of the
  weighted values of batch `b` and channel `c` whose wrapped row and column numbers are `p` and `q`.
-/
import proofs.«149145_j3066606649873_2_alg».proof.KernelIdeal
import proofs.«149145_j3066606649873_2_alg».proof.Proof.LibScatterSum
import proofs.«149145_j3066606649873_2_alg».proof.Proof.Splat
import Idealize.ShloMosaic.Lib.ValueIdx
import Idealize.ShloMosaic.Lib.Pipeline.Value

noncomputable section

open scoped BigOperators

namespace Cert.KernelIdeal.Tail

open Cert.KernelIdeal Cert.KernelIdeal.Facts₀ Idealize.ShloMosaic Idealize.ShloMosaic.ValueIdx Cert.Splat

variable [Cert.KernelIdeal.Facts]

/-! ## The term -/

/-- The batch number of every element of a `[4, 8, 512, 512]` array: its second coordinate. -/
abbrev batchCol : S4x8x512x512.Idx → BitVec 32 :=
  broadcastInDim S4x8x512x512 ![0, 1, 2, 3] bcast_S1x8x1x1_S4x8x512x512_0_1_2_3
    (broadcastInDim S1x8x1x1 ![1] bcast_S8_S1x8x1x1_1 (iotaInDim S8 32 0))

/-- Every element wrapped by the extent `N` when negative. -/
abbrev wrapV (N : BitVec 32) (v : S4x8x512x512.Idx → BitVec 32) : S4x8x512x512.Idx → BitVec 32 :=
  select (cmpi .slt v (broadcastInDim S4x8x512x512 ![] bcast_S_S4x8x512x512 (constantI S_ 32 0#32)))
    (addi v (broadcastInDim S4x8x512x512 ![] bcast_S_S4x8x512x512 (constantI S_ 32 N))) v

/-- An array as a one-column array. -/
abbrev col (v : S4x8x512x512.Idx → BitVec 32) : S4x8x512x512x1.Idx → BitVec 32 :=
  broadcastInDim S4x8x512x512x1 ![0, 1, 2, 3] bcast_S4x8x512x512_S4x8x512x512x1_0_1_2_3 v

/-- The index array: batch, row and column numbers side by side. -/
abbrev idxArr (A4 A5 : S4x8x512x512.Idx → BitVec 32) : S4x8x512x512x3.Idx → BitVec 32 :=
  concatenate S4x8x512x512x3 4 [⟨S4x8x512x512x1, col (wrapV 8#32 batchCol)⟩, ⟨S4x8x512x512x1, col (wrapV 512#32 A4)⟩,
    ⟨S4x8x512x512x1, col (wrapV 512#32 A5)⟩] concatenates_S4x8x512x512x1_S4x8x512x512x1_S4x8x512x512x1_S4x8x512x512x3_d4

/-- The host's tail of the kernel program as one term: the four weighted copies `A3` of the input, arranged channel-last,
    are added into a zero `[8, 512, 512, 16]` array at the batch, row and column numbers (the batch number, `A4` and `A5`,
    each wrapped by its extent when negative), and the result is arranged channel-second. -/
def tailTerm (A3 : S4x8x16x512x512.Idx → EReal) (A4 A5 : S4x8x512x512.Idx → BitVec 32) : S8x16x512x512.Idx → EReal :=
  transpose S8x16x512x512 [0, 3, 1, 2]
    (Host.scatterAdd scatter_S8x512x512x16_S4x8x512x512x3_S4x8x512x512x16_4_012_012_4
      (broadcastInDim S8x512x512x16 ![] bcast_S_S8x512x512x16 (constant (F := Ideal) S_ .f32 0x00000000#32))
      (idxArr A4 A5)
      (transpose S4x8x512x512x16 [0, 1, 3, 4, 2] A3 transposes_S4x8x16x512x512_S4x8x512x512x16_0_1_3_4_2))
    transposes_S8x512x512x16_S8x16x512x512_0_3_1_2

/-! ## The scatter's dimension record -/

theorem siIdx_eq (j : S4x8x512x512x16.Idx) (c : Fin scatter_S8x512x512x16_S4x8x512x512x3_S4x8x512x512x16_4_012_012_4.scatterDimsToOperandDims.length) (k : Fin 3)
    (hc : c.val = k.val) : scatter_S8x512x512x16_S4x8x512x512x3_S4x8x512x512x16_4_012_012_4.siIdx j c = ix5 (j 0) (j 1) (j 2) (j 3) k := by
  obtain ⟨v, hv⟩ := c
  simp only at hc
  subst hc
  funext b
  match b with
  | ⟨0, _⟩ => rfl
  | ⟨1, _⟩ => rfl
  | ⟨2, _⟩ => rfl
  | ⟨3, _⟩ => rfl
  | ⟨4, _⟩ => rfl

theorem start0 (j : S4x8x512x512x16.Idx) (idx : IVec S4x8x512x512x3 32) :
    scatter_S8x512x512x16_S4x8x512x512x3_S4x8x512x512x16_4_012_012_4.start j idx 0 = (idx (ix5 (j 0) (j 1) (j 2) (j 3) (0 : Fin 3))).toInt := by
  unfold ScatterDims.start
  rw [dif_pos (by show (0 : Fin S8x512x512x16.rank) ∈ ([0, 1, 2] : List (Fin S8x512x512x16.rank)); decide)]
  exact congrArg (fun k => (idx k).toInt) (siIdx_eq j _ 0 rfl)

theorem start1 (j : S4x8x512x512x16.Idx) (idx : IVec S4x8x512x512x3 32) :
    scatter_S8x512x512x16_S4x8x512x512x3_S4x8x512x512x16_4_012_012_4.start j idx 1 = (idx (ix5 (j 0) (j 1) (j 2) (j 3) (1 : Fin 3))).toInt := by
  unfold ScatterDims.start
  rw [dif_pos (by show (1 : Fin S8x512x512x16.rank) ∈ ([0, 1, 2] : List (Fin S8x512x512x16.rank)); decide)]
  exact congrArg (fun k => (idx k).toInt) (siIdx_eq j _ 1 rfl)

theorem start2 (j : S4x8x512x512x16.Idx) (idx : IVec S4x8x512x512x3 32) :
    scatter_S8x512x512x16_S4x8x512x512x3_S4x8x512x512x16_4_012_012_4.start j idx 2 = (idx (ix5 (j 0) (j 1) (j 2) (j 3) (2 : Fin 3))).toInt := by
  unfold ScatterDims.start
  rw [dif_pos (by show (2 : Fin S8x512x512x16.rank) ∈ ([0, 1, 2] : List (Fin S8x512x512x16.rank)); decide)]
  exact congrArg (fun k => (idx k).toInt) (siIdx_eq j _ 2 rfl)

theorem start3 (j : S4x8x512x512x16.Idx) (idx : IVec S4x8x512x512x3 32) : scatter_S8x512x512x16_S4x8x512x512x3_S4x8x512x512x16_4_012_012_4.start j idx 3 = 0 := by
  unfold ScatterDims.start
  rw [dif_neg (by show (3 : Fin S8x512x512x16.rank) ∉ ([0, 1, 2] : List (Fin S8x512x512x16.rank)); decide)]

theorem window0 (j : S4x8x512x512x16.Idx) : scatter_S8x512x512x16_S4x8x512x512x3_S4x8x512x512x16_4_012_012_4.window j 0 = 0 := by
  unfold ScatterDims.window
  rw [dif_neg (by show (0 : Fin S8x512x512x16.rank) ∉ S8x512x512x16.kept [0, 1, 2]; decide)]

theorem window1 (j : S4x8x512x512x16.Idx) : scatter_S8x512x512x16_S4x8x512x512x3_S4x8x512x512x16_4_012_012_4.window j 1 = 0 := by
  unfold ScatterDims.window
  rw [dif_neg (by show (1 : Fin S8x512x512x16.rank) ∉ S8x512x512x16.kept [0, 1, 2]; decide)]

theorem window2 (j : S4x8x512x512x16.Idx) : scatter_S8x512x512x16_S4x8x512x512x3_S4x8x512x512x16_4_012_012_4.window j 2 = 0 := by
  unfold ScatterDims.window
  rw [dif_neg (by show (2 : Fin S8x512x512x16.rank) ∉ S8x512x512x16.kept [0, 1, 2]; decide)]

theorem window3 (j : S4x8x512x512x16.Idx) : scatter_S8x512x512x16_S4x8x512x512x3_S4x8x512x512x16_4_012_012_4.window j 3 = (j 4).val := by
  unfold ScatterDims.window
  rw [dif_pos (by show (3 : Fin S8x512x512x16.rank) ∈ S8x512x512x16.kept [0, 1, 2]; decide)]
  rfl

/-- A batch number below 8 is not negative as a 32-bit word, so it is not wrapped. -/
theorem wrap8_toInt : ∀ n : Nat, n < 8 → (wrap 8#32 (BitVec.ofNat 32 n)).toInt = (n : Int) := by
  decide

/-- An update element lands on element `(b, p, q, c)` of the operand exactly when its batch and channel are `b` and `c` and
    its row and column numbers are `p` and `q`. -/
theorem lands_iff (idx : IVec S4x8x512x512x3 32) (j : S4x8x512x512x16.Idx) (b : Fin 8) (c : Fin 16) (p q : Fin 512)
    (r s : BitVec 32)
    (h0 : idx (ix5 (j 0) (j 1) (j 2) (j 3) (0 : Fin 3)) = wrap 8#32 (BitVec.ofNat 32 (j 1).val))
    (h1 : idx (ix5 (j 0) (j 1) (j 2) (j 3) (1 : Fin 3)) = r)
    (h2 : idx (ix5 (j 0) (j 1) (j 2) (j 3) (2 : Fin 3)) = s) :
    scatter_S8x512x512x16_S4x8x512x512x3_S4x8x512x512x16_4_012_012_4.resultIdx? j idx = some (ix4 b p q c) ↔
      ((j 1).val = b.val ∧ r.toInt = (p.val : Int) ∧ s.toInt = (q.val : Int) ∧ (j 4).val = c.val) := by
  rw [Cert.LibScatterSum.resultIdx?_eq_some_iff]
  have e0 : scatter_S8x512x512x16_S4x8x512x512x3_S4x8x512x512x16_4_012_012_4.start j idx 0 + (scatter_S8x512x512x16_S4x8x512x512x3_S4x8x512x512x16_4_012_012_4.window j 0 : Int) = ((j 1).val : Int) := by
    rw [start0, window0, h0, wrap8_toInt _ (j 1).isLt]; omega
  have e1 : scatter_S8x512x512x16_S4x8x512x512x3_S4x8x512x512x16_4_012_012_4.start j idx 1 + (scatter_S8x512x512x16_S4x8x512x512x3_S4x8x512x512x16_4_012_012_4.window j 1 : Int) = r.toInt := by
    rw [start1, window1, h1]; omega
  have e2 : scatter_S8x512x512x16_S4x8x512x512x3_S4x8x512x512x16_4_012_012_4.start j idx 2 + (scatter_S8x512x512x16_S4x8x512x512x3_S4x8x512x512x16_4_012_012_4.window j 2 : Int) = s.toInt := by
    rw [start2, window2, h2]; omega
  have e3 : scatter_S8x512x512x16_S4x8x512x512x3_S4x8x512x512x16_4_012_012_4.start j idx 3 + (scatter_S8x512x512x16_S4x8x512x512x3_S4x8x512x512x16_4_012_012_4.window j 3 : Int) = ((j 4).val : Int) := by
    rw [start3, window3]; omega
  constructor
  · intro h
    have k0 : ((j 1).val : Int) = (b.val : Int) := e0.symm.trans (h 0)
    have k1 : r.toInt = (p.val : Int) := e1.symm.trans (h 1)
    have k2 : s.toInt = (q.val : Int) := e2.symm.trans (h 2)
    have k3 : ((j 4).val : Int) = (c.val : Int) := e3.symm.trans (h 3)
    exact ⟨by omega, k1, k2, by omega⟩
  · rintro ⟨g0, g1, g2, g3⟩ a
    match a with
    | ⟨0, _⟩ => exact e0.trans (show ((j 1).val : Int) = (b.val : Int) by omega)
    | ⟨1, _⟩ => exact e1.trans g1
    | ⟨2, _⟩ => exact e2.trans g2
    | ⟨3, _⟩ => exact e3.trans (show ((j 4).val : Int) = (c.val : Int) by omega)

/-! ## A join of three one-column arrays along the last axis, read at a column -/

section
variable {α : Type}

theorem cat5_apply0 (A B C : S4x8x512x512x1.Idx → α)
    (h : Shape.Concatenates (([⟨S4x8x512x512x1, A⟩, ⟨S4x8x512x512x1, B⟩, ⟨S4x8x512x512x1, C⟩] : List ((s : Shape) × (s.Idx → α))).map (·.1)) S4x8x512x512x3 4)
    (k : Fin 4) (b : Fin 8) (i j : Fin 512) :
    concatenate S4x8x512x512x3 4 [⟨S4x8x512x512x1, A⟩, ⟨S4x8x512x512x1, B⟩, ⟨S4x8x512x512x1, C⟩] h (ix5 k b i j (0 : Fin 3))
      = A (ix5 k b i j (0 : Fin 1)) := by
  refine concatenate_apply_piece (4 : Fin 5) [⟨S4x8x512x512x1, A⟩, ⟨S4x8x512x512x1, B⟩, ⟨S4x8x512x512x1, C⟩] h (ix5 k b i j (0 : Fin 3))
    0 (by show (0 : Nat) < 3; omega) S4x8x512x512x1 A rfl rfl 0 (by rfl) (ix5 k b i j (0 : Fin 1)) ?_ (by rfl)
  intro c hc
  match c with
  | ⟨0, _⟩ => rfl
  | ⟨1, _⟩ => rfl
  | ⟨2, _⟩ => rfl
  | ⟨3, _⟩ => rfl
  | ⟨4, _⟩ => exact absurd rfl hc

theorem cat5_apply1 (A B C : S4x8x512x512x1.Idx → α)
    (h : Shape.Concatenates (([⟨S4x8x512x512x1, A⟩, ⟨S4x8x512x512x1, B⟩, ⟨S4x8x512x512x1, C⟩] : List ((s : Shape) × (s.Idx → α))).map (·.1)) S4x8x512x512x3 4)
    (k : Fin 4) (b : Fin 8) (i j : Fin 512) :
    concatenate S4x8x512x512x3 4 [⟨S4x8x512x512x1, A⟩, ⟨S4x8x512x512x1, B⟩, ⟨S4x8x512x512x1, C⟩] h (ix5 k b i j (1 : Fin 3))
      = B (ix5 k b i j (0 : Fin 1)) := by
  refine concatenate_apply_piece (4 : Fin 5) [⟨S4x8x512x512x1, A⟩, ⟨S4x8x512x512x1, B⟩, ⟨S4x8x512x512x1, C⟩] h (ix5 k b i j (1 : Fin 3))
    1 (by show (1 : Nat) < 3; omega) S4x8x512x512x1 B rfl rfl 1 (by rfl) (ix5 k b i j (0 : Fin 1)) ?_ (by rfl)
  intro c hc
  match c with
  | ⟨0, _⟩ => rfl
  | ⟨1, _⟩ => rfl
  | ⟨2, _⟩ => rfl
  | ⟨3, _⟩ => rfl
  | ⟨4, _⟩ => exact absurd rfl hc

theorem cat5_apply2 (A B C : S4x8x512x512x1.Idx → α)
    (h : Shape.Concatenates (([⟨S4x8x512x512x1, A⟩, ⟨S4x8x512x512x1, B⟩, ⟨S4x8x512x512x1, C⟩] : List ((s : Shape) × (s.Idx → α))).map (·.1)) S4x8x512x512x3 4)
    (k : Fin 4) (b : Fin 8) (i j : Fin 512) :
    concatenate S4x8x512x512x3 4 [⟨S4x8x512x512x1, A⟩, ⟨S4x8x512x512x1, B⟩, ⟨S4x8x512x512x1, C⟩] h (ix5 k b i j (2 : Fin 3))
      = C (ix5 k b i j (0 : Fin 1)) := by
  refine concatenate_apply_piece (4 : Fin 5) [⟨S4x8x512x512x1, A⟩, ⟨S4x8x512x512x1, B⟩, ⟨S4x8x512x512x1, C⟩] h (ix5 k b i j (2 : Fin 3))
    2 (by show (2 : Nat) < 3; omega) S4x8x512x512x1 C rfl rfl 2 (by rfl) (ix5 k b i j (0 : Fin 1)) ?_ (by rfl)
  intro c hc
  match c with
  | ⟨0, _⟩ => rfl
  | ⟨1, _⟩ => rfl
  | ⟨2, _⟩ => rfl
  | ⟨3, _⟩ => rfl
  | ⟨4, _⟩ => exact absurd rfl hc

end

/-! ## The pieces read at an index -/

theorem bc_const (c : BitVec 32) (i : S4x8x512x512.Idx) :
    broadcastInDim S4x8x512x512 ![] bcast_S_S4x8x512x512 (constantI S_ 32 c) i = c :=
  broadcastInDim_apply _ bcast_S_S4x8x512x512 (constantI S_ 32 c) i (fun a => a.elim0) (fun a => a.elim0)

theorem wrapV_apply (N : BitVec 32) (v : S4x8x512x512.Idx → BitVec 32) (i : S4x8x512x512.Idx) :
    wrapV N v i = wrap N (v i) := by
  show Scalar.select (IntOp.cmpi .slt (v i) (broadcastInDim S4x8x512x512 ![] bcast_S_S4x8x512x512 (constantI S_ 32 0#32) i))
    (IntOp.addi (v i) (broadcastInDim S4x8x512x512 ![] bcast_S_S4x8x512x512 (constantI S_ 32 N) i)) (v i) = _
  rw [bc_const, bc_const]
  rfl

theorem col_apply (v : S4x8x512x512.Idx → BitVec 32) (k : Fin 4) (b : Fin 8) (i j : Fin 512) :
    col v (ix5 k b i j (0 : Fin 1)) = v (ix4 k b i j) :=
  broadcastInDim_apply _ bcast_S4x8x512x512_S4x8x512x512x1_0_1_2_3 v _ (ix4 k b i j) (fun a => match a with
    | ⟨0, _⟩ => by show k.val = if (4 : Nat) = 1 then 0 else k.val; rw [if_neg (by decide)]
    | ⟨1, _⟩ => by show b.val = if (8 : Nat) = 1 then 0 else b.val; rw [if_neg (by decide)]
    | ⟨2, _⟩ => by show i.val = if (512 : Nat) = 1 then 0 else i.val; rw [if_neg (by decide)]
    | ⟨3, _⟩ => by show j.val = if (512 : Nat) = 1 then 0 else j.val; rw [if_neg (by decide)])

theorem batchCol_apply (k : Fin 4) (b : Fin 8) (i j : Fin 512) :
    batchCol (ix4 k b i j) = BitVec.ofNat 32 b.val := by
  have e1 : batchCol (ix4 k b i j)
      = broadcastInDim S1x8x1x1 ![1] bcast_S8_S1x8x1x1_1 (iotaInDim S8 32 0) (ix4 (0 : Fin 1) b (0 : Fin 1) (0 : Fin 1)) :=
    broadcastInDim_apply _ bcast_S1x8x1x1_S4x8x512x512_0_1_2_3 _ _ (ix4 (0 : Fin 1) b (0 : Fin 1) (0 : Fin 1)) (fun a => match a with
      | ⟨0, _⟩ => by show 0 = if (1 : Nat) = 1 then 0 else k.val; rw [if_pos rfl]
      | ⟨1, _⟩ => by show b.val = if (8 : Nat) = 1 then 0 else b.val; rw [if_neg (by decide)]
      | ⟨2, _⟩ => by show 0 = if (1 : Nat) = 1 then 0 else i.val; rw [if_pos rfl]
      | ⟨3, _⟩ => by show 0 = if (1 : Nat) = 1 then 0 else j.val; rw [if_pos rfl])
  have e2 : broadcastInDim S1x8x1x1 ![1] bcast_S8_S1x8x1x1_1 (iotaInDim S8 32 0) (ix4 (0 : Fin 1) b (0 : Fin 1) (0 : Fin 1))
      = iotaInDim S8 32 0 (ix1 b) :=
    broadcastInDim_apply _ bcast_S8_S1x8x1x1_1 _ _ (ix1 b) (fun a => match a with
      | ⟨0, _⟩ => by show b.val = if (8 : Nat) = 1 then 0 else b.val; rw [if_neg (by decide)])
  rw [e1, e2]
  rfl

theorem idxArr_col0 (A4 A5 : S4x8x512x512.Idx → BitVec 32) (j : S4x8x512x512x16.Idx) :
    idxArr A4 A5 (ix5 (j 0) (j 1) (j 2) (j 3) (0 : Fin 3)) = wrap 8#32 (BitVec.ofNat 32 (j 1).val) := by
  exact (cat5_apply0 _ _ _ _ (j 0) (j 1) (j 2) (j 3)).trans ((col_apply _ (j 0) (j 1) (j 2) (j 3)).trans
    ((wrapV_apply _ _ _).trans (congrArg (wrap 8#32) (batchCol_apply (j 0) (j 1) (j 2) (j 3)))))

theorem idxArr_col1 (A4 A5 : S4x8x512x512.Idx → BitVec 32) (j : S4x8x512x512x16.Idx) :
    idxArr A4 A5 (ix5 (j 0) (j 1) (j 2) (j 3) (1 : Fin 3)) = wrap 512#32 (A4 (ix4 (j 0) (j 1) (j 2) (j 3))) := by
  exact (cat5_apply1 _ _ _ _ (j 0) (j 1) (j 2) (j 3)).trans ((col_apply _ (j 0) (j 1) (j 2) (j 3)).trans (wrapV_apply _ _ _))

theorem idxArr_col2 (A4 A5 : S4x8x512x512.Idx → BitVec 32) (j : S4x8x512x512x16.Idx) :
    idxArr A4 A5 (ix5 (j 0) (j 1) (j 2) (j 3) (2 : Fin 3)) = wrap 512#32 (A5 (ix4 (j 0) (j 1) (j 2) (j 3))) := by
  exact (cat5_apply2 _ _ _ _ (j 0) (j 1) (j 2) (j 3)).trans ((col_apply _ (j 0) (j 1) (j 2) (j 3)).trans (wrapV_apply _ _ _))

theorem upd_apply (A3 : S4x8x16x512x512.Idx → EReal) (j : S4x8x512x512x16.Idx) :
    transpose S4x8x512x512x16 [0, 1, 3, 4, 2] A3 transposes_S4x8x16x512x512_S4x8x512x512x16_0_1_3_4_2 j
      = A3 (ix5 (j 0) (j 1) (j 4) (j 2) (j 3)) :=
  transpose_apply [0, 1, 3, 4, 2] A3 transposes_S4x8x16x512x512_S4x8x512x512x16_0_1_3_4_2 j (ix5 (j 0) (j 1) (j 4) (j 2) (j 3))
    (fun b => match b with
      | ⟨0, _⟩ => rfl
      | ⟨1, _⟩ => rfl
      | ⟨2, _⟩ => rfl
      | ⟨3, _⟩ => rfl
      | ⟨4, _⟩ => rfl)

theorem out_apply (Y : S8x512x512x16.Idx → EReal) (b : Fin 8) (c : Fin 16) (p q : Fin 512) :
    transpose S8x16x512x512 [0, 3, 1, 2] Y transposes_S8x512x512x16_S8x16x512x512_0_3_1_2 (ix4 b c p q) = Y (ix4 b p q c) :=
  transpose_apply [0, 3, 1, 2] Y transposes_S8x512x512x16_S8x16x512x512_0_3_1_2 (ix4 b c p q) (ix4 b p q c)
    (fun a => match a with
      | ⟨0, _⟩ => rfl
      | ⟨1, _⟩ => rfl
      | ⟨2, _⟩ => rfl
      | ⟨3, _⟩ => rfl)

theorem zero_apply (i : S8x512x512x16.Idx) :
    broadcastInDim S8x512x512x16 ![] bcast_S_S8x512x512x16 (constant (F := Ideal) S_ .f32 0x00000000#32) i = 0 :=
  (broadcastInDim_apply _ bcast_S_S8x512x512x16 (constant (F := Ideal) S_ .f32 0x00000000#32) i (fun a => a.elim0)
    (fun a => a.elim0)).trans lit_zero

/-! ## The tail at an index -/

/-- The tail's result at `(b, c, p, q)`: the sum of the update values of batch `b` and channel `c` whose row and
    column numbers are `p` and `q`. -/
theorem tailTerm_apply (A3 : S4x8x16x512x512.Idx → EReal) (A4 A5 : S4x8x512x512.Idx → BitVec 32)
    (b : Fin 8) (c : Fin 16) (p q : Fin 512) :
    tailTerm A3 A4 A5 (ix4 b c p q)
      = ∑ j : S4x8x512x512x16.Idx,
          if ((j 1).val = b.val ∧ (wrap 512#32 (A4 (ix4 (j 0) (j 1) (j 2) (j 3)))).toInt = (p.val : Int)
              ∧ (wrap 512#32 (A5 (ix4 (j 0) (j 1) (j 2) (j 3)))).toInt = (q.val : Int) ∧ (j 4).val = c.val)
          then A3 (ix5 (j 0) (j 1) (j 4) (j 2) (j 3)) else 0 := by
  unfold tailTerm
  rw [out_apply, Cert.LibScatterSum.scatterAdd_apply, zero_apply, zero_add]
  refine Finset.sum_congr rfl fun j _ => ?_
  rw [upd_apply]
  exact if_congr (lands_iff _ j b c p q _ _ (idxArr_col0 A4 A5 j) (idxArr_col1 A4 A5 j) (idxArr_col2 A4 A5 j)) rfl rfl

end Cert.KernelIdeal.Tail

end
-- ==== Proof.KerValue.lean ====
/-
  The idealized kernel's result. After the region the three output arrays hold, element by element, the weighted
  features and the clamped rows and columns of the four neighbours (the blocks written back tile the arrays); the
  operations after the region scatter-add the former at the latter into a zero array and move the channel axis
  back. Read at `(b, c, p, q)` the result is the sum, over the four neighbours and over the pixels, of the
  contributions that land on `(p, q)` in batch `b`, channel `c`.
-/
import proofs.«149145_j3066606649873_2_alg».proof.Proof.KerArr
import proofs.«149145_j3066606649873_2_alg».proof.Proof.KerTail

set_option maxRecDepth 16384

noncomputable section

namespace Cert.KernelIdeal.Val

open Cert.KernelIdeal Cert.KernelIdeal.Gen Cert.KernelIdeal.Frm Cert.KernelIdeal.Blk Cert.KernelIdeal.Arr Cert.KernelIdeal.Tail
open Idealize.ShloMosaic Idealize.ShloMosaic.TcCoe Idealize.ShloMosaic.ValueIdx Idealize.SL.Sem Cert.Splat Cert.Layout
open Idealize.ShloMosaic.StableHlo
open Idealize.ShloMosaic.Pipeline (Dat)

variable (m : (ℓ : Loc nD τ sig) → Buf (Elt Ideal) ℓ) (ρ : Dev nD → PrngReg)

/-- The result array as a function of the two argument arrays. -/
def result (x : Img) (g : Grd) : S8x16x512x512.Idx → EReal := fun i => kerSum x g (i 0) (i 1) (i 2) (i 3)

/-- From any contents `W` of the buffers at the region's exit, the operations that follow the region leave in the
    result buffer their composed term of the three output arrays' contents. -/
theorem tail_of (W : Valuation τ sig (Elt Ideal)) :
    StableHlo.after hostOps1 W (Proc.devRef .tc main_v30)
      = tailTerm (W (Proc.devRef .tc main_v4_0)) (W (Proc.devRef .tc main_v4_1)) (W (Proc.devRef .tc main_v4_2)) := by
  after_results_simp <;> rfl

/-- The result buffer after the operations that follow the region is their composed term of the three output arrays. -/
theorem tail_eq (c : Dev nD) :
    Pipeline.afterTail₀ cfgs (dats m) 0 (V0 m) [hostOps1] c main_v30
      = tailTerm ((dats m 0 c).arrAt 3 cfg0.N) ((dats m 0 c).arrAt 4 cfg0.N) ((dats m 0 c).arrAt 5 cfg0.N) := by
  have h3 : Pipeline.withArrays (cfgs 0).spec c (V0 m c) (fun w => (dats m 0 c).arrAt w (cfgs 0).N) (Proc.devRef .tc main_v4_0) = (dats m 0 c).arrAt 3 cfg0.N :=
    Pipeline.withArrays_arr spec0 launch0.win.arr_inj c _ _ 3
  have h4 : Pipeline.withArrays (cfgs 0).spec c (V0 m c) (fun w => (dats m 0 c).arrAt w (cfgs 0).N) (Proc.devRef .tc main_v4_1) = (dats m 0 c).arrAt 4 cfg0.N :=
    Pipeline.withArrays_arr spec0 launch0.win.arr_inj c _ _ 4
  have h5 : Pipeline.withArrays (cfgs 0).spec c (V0 m c) (fun w => (dats m 0 c).arrAt w (cfgs 0).N) (Proc.devRef .tc main_v4_2) = (dats m 0 c).arrAt 5 cfg0.N :=
    Pipeline.withArrays_arr spec0 launch0.win.arr_inj c _ _ 5
  unfold Pipeline.afterTail₀
  refine (tail_of _).trans ?_
  rw [h3, h4, h5]

/-- One update element: its value and its landing condition, read off the array-level functions, are the neighbour's
    term and landing condition of the rank-4 update element. -/
theorem elem_eq (x : Img) (g : Grd) (b : Fin 8) (cc : Fin 16) (p q : Fin 512) (k : Fin 4) (j1 : Fin 8) (j2 j3 : Fin 512) (j4 : Fin 16) :
    (if (j1.val = b.val ∧ (wrap 512#32 (G4 g (ix4 k j1 j2 j3))).toInt = (p.val : Int)
          ∧ (wrap 512#32 (G5 g (ix4 k j1 j2 j3))).toInt = (q.val : Int) ∧ j4.val = cc.val)
      then G3 x g (ix5 k j1 j4 j2 j3) else 0)
      = if kerLands g k (ix4 j1 j2 j3 j4) b cc p q then kerTerm x g k (ix4 j1 j2 j3 j4) else 0 :=
  if_congr Iff.rfl rfl rfl

/-- The tail's term of the three array-level functions, at `(b, cc, p, q)`, is the sum over the four neighbours and
    the update elements: the rank-5 update index is the neighbour and the rank-4 update element. -/
theorem tailTerm_G_apply (x : Img) (g : Grd) (b : Fin 8) (cc : Fin 16) (p q : Fin 512) :
    tailTerm (G3 x g) (G4 g) (G5 g) (ix4 b cc p q) = kerSum x g b cc p q := by
  refine (tailTerm_apply (G3 x g) (G4 g) (G5 g) b cc p q).trans ?_
  unfold kerSum
  refine Eq.trans (Finset.sum_congr rfl fun j _ => ?_)
    (sum_idx5_split (fun k j' => if kerLands g k j' b cc p q then kerTerm x g k j' else 0))
  exact elem_eq x g b cc p q (j 0) (j 1) (j 2) (j 3) (j 4)

theorem tailTerm_G (x : Img) (g : Grd) : tailTerm (G3 x g) (G4 g) (G5 g) = result x g := by
  funext i
  exact (congrArg (tailTerm (G3 x g) (G4 g) (G5 g)) (eq_ix4 i)).trans (tailTerm_G_apply x g (i 0) (i 1) (i 2) (i 3))
/-- The result buffer after the run is `result` of the two argument arrays as launched. -/
theorem result_eq (c : Dev nD) :
    Pipeline.afterTail₀ cfgs (dats m) 0 (V0 m) [hostOps1] c main_v30
      = result (m ((c : Thread nD τ).loc main_arg0)) (m ((c : Thread nD τ).loc main_arg1)) := by
  rw [tail_eq, final3, final4, final5]
  exact tailTerm_G _ _

/-- From any memory with zero counters, every weakly fair execution of @main on the TensorCores terminates, with the
    result buffer at `result` of the two argument arrays and both argument arrays as launched. -/
theorem run : θ_run defs (onTc (τ := τ) (main (F := Ideal))) ⟨m, fun _ => 0, ρ⟩ (fun r => ∀ c : Dev nD,
      r.2.mem ((c.tc : Thread nD τ).loc main_v30) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v30 (Pipeline.mem_restRefs_of main_v30 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Val

end
-- ==== Proof.RefSide.lean ====
/-
  The reference program's result at an index, as a plain sum. The program computes, for every pixel of the
  sampling grid, the two positions `coord`, their integer parts `cell` and the tent weights `hat`; it then adds, four
  times over (once per neighbour), the weighted pixel values into a zero plane padded by one cell before and two
  after, at the row and column `cell + offset` (wrapped by the extent when negative), and crops rows and columns
  1 … 512. Read here one operation at a time: the positions, cells, weights and wrapped row numbers at a pixel; the
  three columns of each index array; each update array as `refTerm`; each accumulation as the operand plus the sum
  over all update elements of the ones that land on the element read (`refLands`); and last the cropped result as
  `refSum`.
-/
import proofs.«149145_j3066606649873_2_alg».proof.Proof.Gen.ReferenceIdeal.Read
import proofs.«149145_j3066606649873_2_alg».proof.Proof.Splat
import proofs.«149145_j3066606649873_2_alg».proof.Proof.LibScatterSum
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Splat

/-! ## The scatter's dimension record: where an update element's window starts, and its coordinate inside it -/

theorem siIdx_eq (j : S8x512x512x16.Idx) (c : Fin scatter_S8x16x515x515_S8x512x512x3_S8x512x512x16_3_023_023_3.scatterDimsToOperandDims.length) (k : Fin 3)
    (hc : c.val = k.val) : scatter_S8x16x515x515_S8x512x512x3_S8x512x512x16_3_023_023_3.siIdx j c = ix4 (j 0) (j 1) (j 2) k := by
  obtain ⟨v, hv⟩ := c
  simp only at hc
  subst hc
  funext b
  match b with
  | ⟨0, _⟩ => rfl
  | ⟨1, _⟩ => rfl
  | ⟨2, _⟩ => rfl
  | ⟨3, _⟩ => rfl

theorem start0 (j : S8x512x512x16.Idx) (idx : IVec S8x512x512x3 32) :
    scatter_S8x16x515x515_S8x512x512x3_S8x512x512x16_3_023_023_3.start j idx 0 = (idx (ix4 (j 0) (j 1) (j 2) (0 : Fin 3))).toInt := by
  unfold ScatterDims.start
  rw [dif_pos (by decide)]
  exact congrArg (fun k => (idx k).toInt) (siIdx_eq j _ 0 rfl)

theorem start1 (j : S8x512x512x16.Idx) (idx : IVec S8x512x512x3 32) : scatter_S8x16x515x515_S8x512x512x3_S8x512x512x16_3_023_023_3.start j idx 1 = 0 := by
  unfold ScatterDims.start
  rw [dif_neg (by decide)]

theorem start2 (j : S8x512x512x16.Idx) (idx : IVec S8x512x512x3 32) :
    scatter_S8x16x515x515_S8x512x512x3_S8x512x512x16_3_023_023_3.start j idx 2 = (idx (ix4 (j 0) (j 1) (j 2) (1 : Fin 3))).toInt := by
  unfold ScatterDims.start
  rw [dif_pos (by decide)]
  exact congrArg (fun k => (idx k).toInt) (siIdx_eq j _ 1 rfl)

theorem start3 (j : S8x512x512x16.Idx) (idx : IVec S8x512x512x3 32) :
    scatter_S8x16x515x515_S8x512x512x3_S8x512x512x16_3_023_023_3.start j idx 3 = (idx (ix4 (j 0) (j 1) (j 2) (2 : Fin 3))).toInt := by
  unfold ScatterDims.start
  rw [dif_pos (by decide)]
  exact congrArg (fun k => (idx k).toInt) (siIdx_eq j _ 2 rfl)

theorem window0 (j : S8x512x512x16.Idx) : scatter_S8x16x515x515_S8x512x512x3_S8x512x512x16_3_023_023_3.window j 0 = 0 := by
  unfold ScatterDims.window
  rw [dif_neg (by decide)]

theorem window1 (j : S8x512x512x16.Idx) : scatter_S8x16x515x515_S8x512x512x3_S8x512x512x16_3_023_023_3.window j 1 = (j 3).val := by
  unfold ScatterDims.window
  rw [dif_pos (by decide)]
  rfl

theorem window2 (j : S8x512x512x16.Idx) : scatter_S8x16x515x515_S8x512x512x3_S8x512x512x16_3_023_023_3.window j 2 = 0 := by
  unfold ScatterDims.window
  rw [dif_neg (by decide)]

theorem window3 (j : S8x512x512x16.Idx) : scatter_S8x16x515x515_S8x512x512x3_S8x512x512x16_3_023_023_3.window j 3 = 0 := by
  unfold ScatterDims.window
  rw [dif_neg (by decide)]

/-- A batch number below 8 is not negative as a 32-bit word, so it is not wrapped. -/
theorem wrap8_toInt : ∀ n : Nat, n < 8 → (wrap 8#32 (BitVec.ofNat 32 n)).toInt = (n : Int) := by
  decide

/-- An update element lands on element `(b, c, p + 1, q + 1)` of the padded plane exactly when its batch and channel are
    `b` and `c` and its row and column numbers are `p + 1` and `q + 1`. -/
theorem lands_iff (idx : IVec S8x512x512x3 32) (j : S8x512x512x16.Idx) (b : Fin 8) (c : Fin 16) (p q : Fin 512)
    (r s : BitVec 32)
    (h0 : idx (ix4 (j 0) (j 1) (j 2) (0 : Fin 3)) = wrap 8#32 (BitVec.ofNat 32 (j 0).val))
    (h1 : idx (ix4 (j 0) (j 1) (j 2) (1 : Fin 3)) = r)
    (h2 : idx (ix4 (j 0) (j 1) (j 2) (2 : Fin 3)) = s) :
    scatter_S8x16x515x515_S8x512x512x3_S8x512x512x16_3_023_023_3.resultIdx? j idx = some (idx_main_v190 (ix4 b c p q)) ↔
      ((j 0).val = b.val ∧ (j 3).val = c.val ∧ r.toInt = (p.val : Int) + 1 ∧ s.toInt = (q.val : Int) + 1) := by
  rw [Cert.LibScatterSum.resultIdx?_eq_some_iff]
  have e0 : scatter_S8x16x515x515_S8x512x512x3_S8x512x512x16_3_023_023_3.start j idx 0 + (scatter_S8x16x515x515_S8x512x512x3_S8x512x512x16_3_023_023_3.window j 0 : Int) = ((j 0).val : Int) := by
    rw [start0, window0, h0, wrap8_toInt _ (j 0).isLt]; omega
  have e1 : scatter_S8x16x515x515_S8x512x512x3_S8x512x512x16_3_023_023_3.start j idx 1 + (scatter_S8x16x515x515_S8x512x512x3_S8x512x512x16_3_023_023_3.window j 1 : Int) = ((j 3).val : Int) := by
    rw [start1, window1]; omega
  have e2 : scatter_S8x16x515x515_S8x512x512x3_S8x512x512x16_3_023_023_3.start j idx 2 + (scatter_S8x16x515x515_S8x512x512x3_S8x512x512x16_3_023_023_3.window j 2 : Int) = r.toInt := by
    rw [start2, window2, h1]; omega
  have e3 : scatter_S8x16x515x515_S8x512x512x3_S8x512x512x16_3_023_023_3.start j idx 3 + (scatter_S8x16x515x515_S8x512x512x3_S8x512x512x16_3_023_023_3.window j 3 : Int) = s.toInt := by
    rw [start3, window3, h2]; omega
  constructor
  · intro h
    have k0 : ((j 0).val : Int) = (b.val : Int) := e0.symm.trans (h 0)
    have k1 : ((j 3).val : Int) = (c.val : Int) := e1.symm.trans (h 1)
    have k2 : r.toInt = ((1 + p.val : Nat) : Int) := e2.symm.trans (h 2)
    have k3 : s.toInt = ((1 + q.val : Nat) : Int) := e3.symm.trans (h 3)
    exact ⟨by omega, by omega, by omega, by omega⟩
  · rintro ⟨g0, g1, g2, g3⟩ a
    match a with
    | ⟨0, _⟩ => exact e0.trans (show ((j 0).val : Int) = (b.val : Int) by omega)
    | ⟨1, _⟩ => exact e1.trans (show ((j 3).val : Int) = (c.val : Int) by omega)
    | ⟨2, _⟩ => exact e2.trans (show r.toInt = ((1 + p.val : Nat) : Int) by omega)
    | ⟨3, _⟩ => exact e3.trans (show s.toInt = ((1 + q.val : Nat) : Int) by omega)

/-! ## A join of three one-column arrays along the last axis, read at a column -/

section
variable {α : Type}

theorem cat3_apply0 (A B C : S8x512x512x1.Idx → α)
    (h : Shape.Concatenates (([⟨S8x512x512x1, A⟩, ⟨S8x512x512x1, B⟩, ⟨S8x512x512x1, C⟩] : List ((s : Shape) × (s.Idx → α))).map (·.1)) S8x512x512x3 3)
    (b : Fin 8) (i j : Fin 512) :
    concatenate S8x512x512x3 3 [⟨S8x512x512x1, A⟩, ⟨S8x512x512x1, B⟩, ⟨S8x512x512x1, C⟩] h (ix4 b i j (0 : Fin 3))
      = A (ix4 b i j (0 : Fin 1)) := by
  refine concatenate_apply_piece (3 : Fin 4) [⟨S8x512x512x1, A⟩, ⟨S8x512x512x1, B⟩, ⟨S8x512x512x1, C⟩] h (ix4 b i j (0 : Fin 3))
    0 (by show (0 : Nat) < 3; omega) S8x512x512x1 A rfl rfl 0 (by rfl) (ix4 b i j (0 : Fin 1)) ?_ (by rfl)
  intro c hc
  match c with
  | ⟨0, _⟩ => rfl
  | ⟨1, _⟩ => rfl
  | ⟨2, _⟩ => rfl
  | ⟨3, _⟩ => exact absurd rfl hc

theorem cat3_apply1 (A B C : S8x512x512x1.Idx → α)
    (h : Shape.Concatenates (([⟨S8x512x512x1, A⟩, ⟨S8x512x512x1, B⟩, ⟨S8x512x512x1, C⟩] : List ((s : Shape) × (s.Idx → α))).map (·.1)) S8x512x512x3 3)
    (b : Fin 8) (i j : Fin 512) :
    concatenate S8x512x512x3 3 [⟨S8x512x512x1, A⟩, ⟨S8x512x512x1, B⟩, ⟨S8x512x512x1, C⟩] h (ix4 b i j (1 : Fin 3))
      = B (ix4 b i j (0 : Fin 1)) := by
  refine concatenate_apply_piece (3 : Fin 4) [⟨S8x512x512x1, A⟩, ⟨S8x512x512x1, B⟩, ⟨S8x512x512x1, C⟩] h (ix4 b i j (1 : Fin 3))
    1 (by show (1 : Nat) < 3; omega) S8x512x512x1 B rfl rfl 1 (by rfl) (ix4 b i j (0 : Fin 1)) ?_ (by rfl)
  intro c hc
  match c with
  | ⟨0, _⟩ => rfl
  | ⟨1, _⟩ => rfl
  | ⟨2, _⟩ => rfl
  | ⟨3, _⟩ => exact absurd rfl hc

theorem cat3_apply2 (A B C : S8x512x512x1.Idx → α)
    (h : Shape.Concatenates (([⟨S8x512x512x1, A⟩, ⟨S8x512x512x1, B⟩, ⟨S8x512x512x1, C⟩] : List ((s : Shape) × (s.Idx → α))).map (·.1)) S8x512x512x3 3)
    (b : Fin 8) (i j : Fin 512) :
    concatenate S8x512x512x3 3 [⟨S8x512x512x1, A⟩, ⟨S8x512x512x1, B⟩, ⟨S8x512x512x1, C⟩] h (ix4 b i j (2 : Fin 3))
      = C (ix4 b i j (0 : Fin 1)) := by
  refine concatenate_apply_piece (3 : Fin 4) [⟨S8x512x512x1, A⟩, ⟨S8x512x512x1, B⟩, ⟨S8x512x512x1, C⟩] h (ix4 b i j (2 : Fin 3))
    2 (by show (2 : Nat) < 3; omega) S8x512x512x1 C rfl rfl 2 (by rfl) (ix4 b i j (0 : Fin 1)) ?_ (by rfl)
  intro c hc
  match c with
  | ⟨0, _⟩ => rfl
  | ⟨1, _⟩ => rfl
  | ⟨2, _⟩ => rfl
  | ⟨3, _⟩ => exact absurd rfl hc

end

/-! ## The positions, cells, weights and row numbers at a pixel -/

theorem idx_v5 (t : S8x512x512.Idx) : idx_main_v4 (idx_main_v5 t) = ix4 (t 0) (t 1) (t 2) (0 : Fin 2) := by
  funext a
  have h0 : (t 0).val < 8 := (t 0).isLt
  have h1 : (t 1).val < 512 := (t 1).isLt
  have h2 : (t 2).val < 512 := (t 2).isLt
  match a with
  | ⟨0, _⟩ => apply Fin.ext; show (((t 0).val * 512 + (t 1).val) * 512 + (t 2).val) / 262144 = (t 0).val; omega
  | ⟨1, _⟩ => apply Fin.ext; show (((t 0).val * 512 + (t 1).val) * 512 + (t 2).val) / 512 % 512 = (t 1).val; omega
  | ⟨2, _⟩ => apply Fin.ext; show (((t 0).val * 512 + (t 1).val) * 512 + (t 2).val) / 1 % 512 = (t 2).val; omega
  | ⟨3, _⟩ => rfl

theorem idx_v12 (t : S8x512x512.Idx) : idx_main_v11 (idx_main_v12 t) = ix4 (t 0) (t 1) (t 2) (1 : Fin 2) := by
  funext a
  have h0 : (t 0).val < 8 := (t 0).isLt
  have h1 : (t 1).val < 512 := (t 1).isLt
  have h2 : (t 2).val < 512 := (t 2).isLt
  match a with
  | ⟨0, _⟩ => apply Fin.ext; show (((t 0).val * 512 + (t 1).val) * 512 + (t 2).val) / 262144 = (t 0).val; omega
  | ⟨1, _⟩ => apply Fin.ext; show (((t 0).val * 512 + (t 1).val) * 512 + (t 2).val) / 512 % 512 = (t 1).val; omega
  | ⟨2, _⟩ => apply Fin.ext; show (((t 0).val * 512 + (t 1).val) * 512 + (t 2).val) / 1 % 512 = (t 2).val; omega
  | ⟨3, _⟩ => rfl

theorem idx_v25 (j : S8x512x512x16.Idx) : idx_main_v25 j = ix4 (j 0) (j 3) (j 1) (j 2) := by
  funext a
  match a with
  | ⟨0, _⟩ => rfl
  | ⟨1, _⟩ => rfl
  | ⟨2, _⟩ => rfl
  | ⟨3, _⟩ => rfl

/-- The row position of a pixel. -/
theorem v10_at (x1 : S8x512x512x2.Idx → EReal) (t : S8x512x512.Idx) :
    val_main_v10 (F := Ideal) x1 t = coord (x1 (ix4 (t 0) (t 1) (t 2) (0 : Fin 2))) := by
  simp only [val_main_v10_apply, val_main_call0_v4_apply, val_main_call0_v3_apply, val_main_cst_4_apply, val_main_call0_v2_apply, val_main_call0_v1_apply, val_main_call0_v0_apply, val_main_cst_3_apply, val_main_v9_apply, val_main_v8_apply, val_main_cst_2_apply, val_main_v7_apply, val_main_v6_apply, val_main_cst_1_apply, val_main_v5_apply, val_main_v4_apply, idx_v5,
    val_main_v3_apply, val_main_v1_apply, val_main_v0_apply, val_main_cst_apply, val_main_v2_apply, val_main_cst_0_apply]
  rfl

/-- The column position of a pixel. -/
theorem v17_at (x1 : S8x512x512x2.Idx → EReal) (t : S8x512x512.Idx) :
    val_main_v17 (F := Ideal) x1 t = coord (x1 (ix4 (t 0) (t 1) (t 2) (1 : Fin 2))) := by
  simp only [val_main_v17_apply, val_main_call1_v4_apply, val_main_call1_v3_apply, val_main_cst_8_apply, val_main_call1_v2_apply, val_main_call1_v1_apply, val_main_call1_v0_apply, val_main_cst_7_apply, val_main_v16_apply, val_main_v15_apply, val_main_cst_6_apply, val_main_v14_apply, val_main_v13_apply, val_main_cst_5_apply, val_main_v12_apply, val_main_v11_apply, idx_v12,
    val_main_v3_apply, val_main_v1_apply, val_main_v0_apply, val_main_cst_apply, val_main_v2_apply, val_main_cst_0_apply]
  rfl

theorem v19_at (x1 : S8x512x512x2.Idx → EReal) (t : S8x512x512.Idx) :
    val_main_v19 (F := Ideal) x1 t = cell (x1 (ix4 (t 0) (t 1) (t 2) (0 : Fin 2))) := by
  simp only [val_main_v19_apply, val_main_v18_apply, v10_at]
  rfl

theorem v21_at (x1 : S8x512x512x2.Idx → EReal) (t : S8x512x512.Idx) :
    val_main_v21 (F := Ideal) x1 t = cell (x1 (ix4 (t 0) (t 1) (t 2) (1 : Fin 2))) := by
  simp only [val_main_v21_apply, val_main_v20_apply, v17_at]
  rfl

theorem v33_at (x1 : S8x512x512x2.Idx → EReal) (t : S8x512x512.Idx) :
    val_main_v33 (F := Ideal) x1 t = hat 0#32 (x1 (ix4 (t 0) (t 1) (t 2) (0 : Fin 2))) := by
  simp only [val_main_v33_apply, val_main_v32_apply, val_main_v31_apply, val_main_cst_10_apply, val_main_v30_apply, val_main_v29_apply, val_main_v28_apply, val_main_v27_apply, val_main_v26_apply, val_main_c_apply, val_main_call2_v0_apply, val_main_call2_cst_apply, v10_at, v19_at]
  rfl

theorem v41_at (x1 : S8x512x512x2.Idx → EReal) (t : S8x512x512.Idx) :
    val_main_v41 (F := Ideal) x1 t = hat 0#32 (x1 (ix4 (t 0) (t 1) (t 2) (1 : Fin 2))) := by
  simp only [val_main_v41_apply, val_main_v40_apply, val_main_v39_apply, val_main_cst_12_apply, val_main_v38_apply, val_main_v37_apply, val_main_v36_apply, val_main_v35_apply, val_main_v34_apply, val_main_c_11_apply, val_main_call3_v0_apply, val_main_call3_cst_apply, v17_at, v21_at]
  rfl

theorem v78_at (x1 : S8x512x512x2.Idx → EReal) (t : S8x512x512.Idx) :
    val_main_v78 (F := Ideal) x1 t = hat 1#32 (x1 (ix4 (t 0) (t 1) (t 2) (1 : Fin 2))) := by
  simp only [val_main_v78_apply, val_main_v77_apply, val_main_v76_apply, val_main_cst_22_apply, val_main_v75_apply, val_main_v74_apply, val_main_v73_apply, val_main_v72_apply, val_main_v71_apply, val_main_c_21_apply, val_main_call4_v0_apply, val_main_call4_cst_apply, v17_at, v21_at]
  rfl

theorem v115_at (x1 : S8x512x512x2.Idx → EReal) (t : S8x512x512.Idx) :
    val_main_v115 (F := Ideal) x1 t = hat 1#32 (x1 (ix4 (t 0) (t 1) (t 2) (0 : Fin 2))) := by
  simp only [val_main_v115_apply, val_main_v114_apply, val_main_v113_apply, val_main_cst_32_apply, val_main_v112_apply, val_main_v111_apply, val_main_v110_apply, val_main_v109_apply, val_main_v108_apply, val_main_c_31_apply, val_main_call5_v0_apply, val_main_call5_cst_apply, v10_at, v19_at]
  rfl

theorem v123_at (x1 : S8x512x512x2.Idx → EReal) (t : S8x512x512.Idx) :
    val_main_v123 (F := Ideal) x1 t = hat 0#32 (x1 (ix4 (t 0) (t 1) (t 2) (1 : Fin 2))) := by
  simp only [val_main_v123_apply, val_main_v122_apply, val_main_v121_apply, val_main_cst_34_apply, val_main_v120_apply, val_main_v119_apply, val_main_v118_apply, val_main_v117_apply, val_main_v116_apply, val_main_c_33_apply, val_main_call6_v0_apply, val_main_call6_cst_apply, v17_at, v21_at]
  rfl

theorem v160_at (x1 : S8x512x512x2.Idx → EReal) (t : S8x512x512.Idx) :
    val_main_v160 (F := Ideal) x1 t = hat 1#32 (x1 (ix4 (t 0) (t 1) (t 2) (1 : Fin 2))) := by
  simp only [val_main_v160_apply, val_main_v159_apply, val_main_v158_apply, val_main_cst_44_apply, val_main_v157_apply, val_main_v156_apply, val_main_v155_apply, val_main_v154_apply, val_main_v153_apply, val_main_c_43_apply, val_main_call7_v0_apply, val_main_call7_cst_apply, v17_at, v21_at]
  rfl

theorem v59_at (x1 : S8x512x512x2.Idx → EReal) (t : S8x512x512.Idx) :
    val_main_v59 (F := Ideal) x1 t = wrap 515#32 (IntOp.addi (cell (x1 (ix4 (t 0) (t 1) (t 2) (0 : Fin 2)))) 0#32) := by
  simp only [val_main_v59_apply, val_main_v56_apply, val_main_v58_apply, val_main_v45_apply, val_main_v44_apply, val_main_c_13_apply, val_main_v55_apply, val_main_c_17_apply, val_main_v57_apply, val_main_c_18_apply, v19_at]
  rfl

theorem v64_at (x1 : S8x512x512x2.Idx → EReal) (t : S8x512x512.Idx) :
    val_main_v64 (F := Ideal) x1 t = wrap 515#32 (IntOp.addi (cell (x1 (ix4 (t 0) (t 1) (t 2) (1 : Fin 2)))) 0#32) := by
  simp only [val_main_v64_apply, val_main_v61_apply, val_main_v63_apply, val_main_v47_apply, val_main_v46_apply, val_main_c_14_apply, val_main_v60_apply, val_main_c_19_apply, val_main_v62_apply, val_main_c_20_apply, v21_at]
  rfl

theorem v96_at (x1 : S8x512x512x2.Idx → EReal) (t : S8x512x512.Idx) :
    val_main_v96 (F := Ideal) x1 t = wrap 515#32 (IntOp.addi (cell (x1 (ix4 (t 0) (t 1) (t 2) (0 : Fin 2)))) 0#32) := by
  simp only [val_main_v96_apply, val_main_v93_apply, val_main_v95_apply, val_main_v82_apply, val_main_v81_apply, val_main_c_23_apply, val_main_v92_apply, val_main_c_27_apply, val_main_v94_apply, val_main_c_28_apply, v19_at]
  rfl

theorem v101_at (x1 : S8x512x512x2.Idx → EReal) (t : S8x512x512.Idx) :
    val_main_v101 (F := Ideal) x1 t = wrap 515#32 (IntOp.addi (cell (x1 (ix4 (t 0) (t 1) (t 2) (1 : Fin 2)))) 1#32) := by
  simp only [val_main_v101_apply, val_main_v98_apply, val_main_v100_apply, val_main_v84_apply, val_main_v83_apply, val_main_c_24_apply, val_main_v97_apply, val_main_c_29_apply, val_main_v99_apply, val_main_c_30_apply, v21_at]
  rfl

theorem v141_at (x1 : S8x512x512x2.Idx → EReal) (t : S8x512x512.Idx) :
    val_main_v141 (F := Ideal) x1 t = wrap 515#32 (IntOp.addi (cell (x1 (ix4 (t 0) (t 1) (t 2) (0 : Fin 2)))) 1#32) := by
  simp only [val_main_v141_apply, val_main_v138_apply, val_main_v140_apply, val_main_v127_apply, val_main_v126_apply, val_main_c_35_apply, val_main_v137_apply, val_main_c_39_apply, val_main_v139_apply, val_main_c_40_apply, v19_at]
  rfl

theorem v146_at (x1 : S8x512x512x2.Idx → EReal) (t : S8x512x512.Idx) :
    val_main_v146 (F := Ideal) x1 t = wrap 515#32 (IntOp.addi (cell (x1 (ix4 (t 0) (t 1) (t 2) (1 : Fin 2)))) 0#32) := by
  simp only [val_main_v146_apply, val_main_v143_apply, val_main_v145_apply, val_main_v129_apply, val_main_v128_apply, val_main_c_36_apply, val_main_v142_apply, val_main_c_41_apply, val_main_v144_apply, val_main_c_42_apply, v21_at]
  rfl

theorem v178_at (x1 : S8x512x512x2.Idx → EReal) (t : S8x512x512.Idx) :
    val_main_v178 (F := Ideal) x1 t = wrap 515#32 (IntOp.addi (cell (x1 (ix4 (t 0) (t 1) (t 2) (0 : Fin 2)))) 1#32) := by
  simp only [val_main_v178_apply, val_main_v175_apply, val_main_v177_apply, val_main_v164_apply, val_main_v163_apply, val_main_c_45_apply, val_main_v174_apply, val_main_c_49_apply, val_main_v176_apply, val_main_c_50_apply, v19_at]
  rfl

theorem v183_at (x1 : S8x512x512x2.Idx → EReal) (t : S8x512x512.Idx) :
    val_main_v183 (F := Ideal) x1 t = wrap 515#32 (IntOp.addi (cell (x1 (ix4 (t 0) (t 1) (t 2) (1 : Fin 2)))) 1#32) := by
  simp only [val_main_v183_apply, val_main_v180_apply, val_main_v182_apply, val_main_v166_apply, val_main_v165_apply, val_main_c_46_apply, val_main_v179_apply, val_main_c_51_apply, val_main_v181_apply, val_main_c_52_apply, v21_at]
  rfl

theorem v54_at (t : S8x1x1.Idx) :
    val_main_v54 (F := Ideal) t = wrap 8#32 (BitVec.ofNat 32 (t 0).val) := by
  simp only [val_main_v54_apply, val_main_v51_apply, val_main_v53_apply, val_main_v24_apply, val_main_v23_apply, val_main_v50_apply, val_main_c_15_apply, val_main_v52_apply, val_main_c_16_apply]
  rfl

theorem v91_at (t : S8x1x1.Idx) :
    val_main_v91 (F := Ideal) t = wrap 8#32 (BitVec.ofNat 32 (t 0).val) := by
  simp only [val_main_v91_apply, val_main_v88_apply, val_main_v90_apply, val_main_v24_apply, val_main_v23_apply, val_main_v87_apply, val_main_c_25_apply, val_main_v89_apply, val_main_c_26_apply]
  rfl

theorem v136_at (t : S8x1x1.Idx) :
    val_main_v136 (F := Ideal) t = wrap 8#32 (BitVec.ofNat 32 (t 0).val) := by
  simp only [val_main_v136_apply, val_main_v133_apply, val_main_v135_apply, val_main_v24_apply, val_main_v23_apply, val_main_v132_apply, val_main_c_37_apply, val_main_v134_apply, val_main_c_38_apply]
  rfl

theorem v173_at (t : S8x1x1.Idx) :
    val_main_v173 (F := Ideal) t = wrap 8#32 (BitVec.ofNat 32 (t 0).val) := by
  simp only [val_main_v173_apply, val_main_v170_apply, val_main_v172_apply, val_main_v24_apply, val_main_v23_apply, val_main_v169_apply, val_main_c_47_apply, val_main_v171_apply, val_main_c_48_apply]
  rfl

/-! ## The four accumulations -/

theorem v22_zero (i : S8x16x515x515.Idx) : val_main_v22 (F := Ideal) i = 0 := by
  rw [val_main_v22_apply, val_main_cst_9_apply]
  exact lit_zero

/-! ### Neighbour 0 -/

theorem v69_col0 (x1 : S8x512x512x2.Idx → EReal) (j : UIdx) :
    val_main_v69 (F := Ideal) x1 (ix4 (j 0) (j 1) (j 2) (0 : Fin 3)) = wrap 8#32 (BitVec.ofNat 32 (j 0).val) := by
  exact (cat3_apply0 _ _ _ _ (j 0) (j 1) (j 2)).trans (by
    simp only [val_main_v66_apply, val_main_v65_apply, v54_at])

theorem v69_col1 (x1 : S8x512x512x2.Idx → EReal) (j : UIdx) :
    val_main_v69 (F := Ideal) x1 (ix4 (j 0) (j 1) (j 2) (1 : Fin 3))
      = wrap 515#32 (IntOp.addi (cell (gI x1 j)) (eI 0)) := by
  exact (cat3_apply1 _ _ _ _ (j 0) (j 1) (j 2)).trans (by
    simp only [val_main_v67_apply, v59_at]
    rfl)

theorem v69_col2 (x1 : S8x512x512x2.Idx → EReal) (j : UIdx) :
    val_main_v69 (F := Ideal) x1 (ix4 (j 0) (j 1) (j 2) (2 : Fin 3))
      = wrap 515#32 (IntOp.addi (cell (gJ x1 j)) (eJ 0)) := by
  exact (cat3_apply2 _ _ _ _ (j 0) (j 1) (j 2)).trans (by
    simp only [val_main_v68_apply, v64_at]
    rfl)

theorem v49_at (x0 : S8x16x512x512.Idx → EReal) (x1 : S8x512x512x2.Idx → EReal) (j : UIdx) :
    val_main_v49 (F := Ideal) x0 x1 j = refTerm x0 x1 0 j := by
  simp only [val_main_v49_apply, val_main_v25_apply, val_main_v48_apply, val_main_v43_apply, val_main_v42_apply, idx_v25, v33_at, v41_at]
  rfl

theorem v70_at (x0 : S8x16x512x512.Idx → EReal) (x1 : S8x512x512x2.Idx → EReal) (b : Fin 8) (c : Fin 16) (p q : Fin 512) :
    val_main_v70 (F := Ideal) x0 x1 (idx_main_v190 (ix4 b c p q))
      = val_main_v22 (F := Ideal) (idx_main_v190 (ix4 b c p q))
        + ∑ j : UIdx, if refLands x1 0 j b c p q then refTerm x0 x1 0 j else 0 := by
  unfold val_main_v70
  rw [Cert.LibScatterSum.scatterAdd_apply]
  refine congrArg (HAdd.hAdd (val_main_v22 (F := Ideal) (idx_main_v190 (ix4 b c p q)))) ?_
  refine Finset.sum_congr rfl fun j _ => ?_
  rw [v49_at]
  exact if_congr (lands_iff _ j b c p q _ _ (v69_col0 x1 j) (v69_col1 x1 j) (v69_col2 x1 j)) rfl rfl

/-! ### Neighbour 1 -/

theorem v106_col0 (x1 : S8x512x512x2.Idx → EReal) (j : UIdx) :
    val_main_v106 (F := Ideal) x1 (ix4 (j 0) (j 1) (j 2) (0 : Fin 3)) = wrap 8#32 (BitVec.ofNat 32 (j 0).val) := by
  exact (cat3_apply0 _ _ _ _ (j 0) (j 1) (j 2)).trans (by
    simp only [val_main_v103_apply, val_main_v102_apply, v91_at])

theorem v106_col1 (x1 : S8x512x512x2.Idx → EReal) (j : UIdx) :
    val_main_v106 (F := Ideal) x1 (ix4 (j 0) (j 1) (j 2) (1 : Fin 3))
      = wrap 515#32 (IntOp.addi (cell (gI x1 j)) (eI 1)) := by
  exact (cat3_apply1 _ _ _ _ (j 0) (j 1) (j 2)).trans (by
    simp only [val_main_v104_apply, v96_at]
    rfl)

theorem v106_col2 (x1 : S8x512x512x2.Idx → EReal) (j : UIdx) :
    val_main_v106 (F := Ideal) x1 (ix4 (j 0) (j 1) (j 2) (2 : Fin 3))
      = wrap 515#32 (IntOp.addi (cell (gJ x1 j)) (eJ 1)) := by
  exact (cat3_apply2 _ _ _ _ (j 0) (j 1) (j 2)).trans (by
    simp only [val_main_v105_apply, v101_at]
    rfl)

theorem v86_at (x0 : S8x16x512x512.Idx → EReal) (x1 : S8x512x512x2.Idx → EReal) (j : UIdx) :
    val_main_v86 (F := Ideal) x0 x1 j = refTerm x0 x1 1 j := by
  simp only [val_main_v86_apply, val_main_v25_apply, val_main_v85_apply, val_main_v80_apply, val_main_v79_apply, idx_v25, v33_at, v78_at]
  rfl

theorem v107_at (x0 : S8x16x512x512.Idx → EReal) (x1 : S8x512x512x2.Idx → EReal) (b : Fin 8) (c : Fin 16) (p q : Fin 512) :
    val_main_v107 (F := Ideal) x0 x1 (idx_main_v190 (ix4 b c p q))
      = val_main_v70 (F := Ideal) x0 x1 (idx_main_v190 (ix4 b c p q))
        + ∑ j : UIdx, if refLands x1 1 j b c p q then refTerm x0 x1 1 j else 0 := by
  unfold val_main_v107
  rw [Cert.LibScatterSum.scatterAdd_apply]
  refine congrArg (HAdd.hAdd (val_main_v70 (F := Ideal) x0 x1 (idx_main_v190 (ix4 b c p q)))) ?_
  refine Finset.sum_congr rfl fun j _ => ?_
  rw [v86_at]
  exact if_congr (lands_iff _ j b c p q _ _ (v106_col0 x1 j) (v106_col1 x1 j) (v106_col2 x1 j)) rfl rfl

/-! ### Neighbour 2 -/

theorem v151_col0 (x1 : S8x512x512x2.Idx → EReal) (j : UIdx) :
    val_main_v151 (F := Ideal) x1 (ix4 (j 0) (j 1) (j 2) (0 : Fin 3)) = wrap 8#32 (BitVec.ofNat 32 (j 0).val) := by
  exact (cat3_apply0 _ _ _ _ (j 0) (j 1) (j 2)).trans (by
    simp only [val_main_v148_apply, val_main_v147_apply, v136_at])

theorem v151_col1 (x1 : S8x512x512x2.Idx → EReal) (j : UIdx) :
    val_main_v151 (F := Ideal) x1 (ix4 (j 0) (j 1) (j 2) (1 : Fin 3))
      = wrap 515#32 (IntOp.addi (cell (gI x1 j)) (eI 2)) := by
  exact (cat3_apply1 _ _ _ _ (j 0) (j 1) (j 2)).trans (by
    simp only [val_main_v149_apply, v141_at]
    rfl)

theorem v151_col2 (x1 : S8x512x512x2.Idx → EReal) (j : UIdx) :
    val_main_v151 (F := Ideal) x1 (ix4 (j 0) (j 1) (j 2) (2 : Fin 3))
      = wrap 515#32 (IntOp.addi (cell (gJ x1 j)) (eJ 2)) := by
  exact (cat3_apply2 _ _ _ _ (j 0) (j 1) (j 2)).trans (by
    simp only [val_main_v150_apply, v146_at]
    rfl)

theorem v131_at (x0 : S8x16x512x512.Idx → EReal) (x1 : S8x512x512x2.Idx → EReal) (j : UIdx) :
    val_main_v131 (F := Ideal) x0 x1 j = refTerm x0 x1 2 j := by
  simp only [val_main_v131_apply, val_main_v25_apply, val_main_v130_apply, val_main_v125_apply, val_main_v124_apply, idx_v25, v115_at, v123_at]
  rfl

theorem v152_at (x0 : S8x16x512x512.Idx → EReal) (x1 : S8x512x512x2.Idx → EReal) (b : Fin 8) (c : Fin 16) (p q : Fin 512) :
    val_main_v152 (F := Ideal) x0 x1 (idx_main_v190 (ix4 b c p q))
      = val_main_v107 (F := Ideal) x0 x1 (idx_main_v190 (ix4 b c p q))
        + ∑ j : UIdx, if refLands x1 2 j b c p q then refTerm x0 x1 2 j else 0 := by
  unfold val_main_v152
  rw [Cert.LibScatterSum.scatterAdd_apply]
  refine congrArg (HAdd.hAdd (val_main_v107 (F := Ideal) x0 x1 (idx_main_v190 (ix4 b c p q)))) ?_
  refine Finset.sum_congr rfl fun j _ => ?_
  rw [v131_at]
  exact if_congr (lands_iff _ j b c p q _ _ (v151_col0 x1 j) (v151_col1 x1 j) (v151_col2 x1 j)) rfl rfl

/-! ### Neighbour 3 -/

theorem v188_col0 (x1 : S8x512x512x2.Idx → EReal) (j : UIdx) :
    val_main_v188 (F := Ideal) x1 (ix4 (j 0) (j 1) (j 2) (0 : Fin 3)) = wrap 8#32 (BitVec.ofNat 32 (j 0).val) := by
  exact (cat3_apply0 _ _ _ _ (j 0) (j 1) (j 2)).trans (by
    simp only [val_main_v185_apply, val_main_v184_apply, v173_at])

theorem v188_col1 (x1 : S8x512x512x2.Idx → EReal) (j : UIdx) :
    val_main_v188 (F := Ideal) x1 (ix4 (j 0) (j 1) (j 2) (1 : Fin 3))
      = wrap 515#32 (IntOp.addi (cell (gI x1 j)) (eI 3)) := by
  exact (cat3_apply1 _ _ _ _ (j 0) (j 1) (j 2)).trans (by
    simp only [val_main_v186_apply, v178_at]
    rfl)

theorem v188_col2 (x1 : S8x512x512x2.Idx → EReal) (j : UIdx) :
    val_main_v188 (F := Ideal) x1 (ix4 (j 0) (j 1) (j 2) (2 : Fin 3))
      = wrap 515#32 (IntOp.addi (cell (gJ x1 j)) (eJ 3)) := by
  exact (cat3_apply2 _ _ _ _ (j 0) (j 1) (j 2)).trans (by
    simp only [val_main_v187_apply, v183_at]
    rfl)

theorem v168_at (x0 : S8x16x512x512.Idx → EReal) (x1 : S8x512x512x2.Idx → EReal) (j : UIdx) :
    val_main_v168 (F := Ideal) x0 x1 j = refTerm x0 x1 3 j := by
  simp only [val_main_v168_apply, val_main_v25_apply, val_main_v167_apply, val_main_v162_apply, val_main_v161_apply, idx_v25, v115_at, v160_at]
  rfl

theorem v189_at (x0 : S8x16x512x512.Idx → EReal) (x1 : S8x512x512x2.Idx → EReal) (b : Fin 8) (c : Fin 16) (p q : Fin 512) :
    val_main_v189 (F := Ideal) x0 x1 (idx_main_v190 (ix4 b c p q))
      = val_main_v152 (F := Ideal) x0 x1 (idx_main_v190 (ix4 b c p q))
        + ∑ j : UIdx, if refLands x1 3 j b c p q then refTerm x0 x1 3 j else 0 := by
  unfold val_main_v189
  rw [Cert.LibScatterSum.scatterAdd_apply]
  refine congrArg (HAdd.hAdd (val_main_v152 (F := Ideal) x0 x1 (idx_main_v190 (ix4 b c p q)))) ?_
  refine Finset.sum_congr rfl fun j _ => ?_
  rw [v168_at]
  exact if_congr (lands_iff _ j b c p q _ _ (v188_col0 x1 j) (v188_col1 x1 j) (v188_col2 x1 j)) rfl rfl

/-! ## The result -/

/-- The reference's result at `(b, c, p, q)` is the sum, over the four neighbours and all update elements, of the
    weighted pixel values that land on row `p + 1`, column `q + 1` of the padded plane. -/
theorem ref_apply (x0 : S8x16x512x512.Idx → EReal) (x1 : S8x512x512x2.Idx → EReal) (b : Fin 8) (c : Fin 16) (p q : Fin 512) :
    val_main_v190 (F := Ideal) x0 x1 (ix4 b c p q) = refSum x0 x1 b c p q := by
  rw [val_main_v190_apply, v189_at, v152_at, v107_at, v70_at, v22_zero, zero_add]
  unfold refSum
  rw [Fin.sum_univ_four]

end Cert.ReferenceIdeal.RefValue

end
-- ==== Proof.lean ====
/-
  The certificate of the bilinear splat kernel against its reference, over the extended reals.

  Both programs take a feature array `x` of shape [8, 16, 512, 512] and a sampling grid of shape [8, 512, 512, 2], send
  every pixel to a position in the output plane, and add its features, weighted by the two tent weights of each of
  the four neighbouring cells, into those cells. The reference adds into a plane padded by one cell before and two
  after and crops the padding away at the end; the kernel computes the weighted features and the target cells block
  by block on a grid of 8 × 8 points, replaces the weight by zero where the target falls outside the cropped plane and
  clamps the target into it, and one scatter-add into a zero array does the rest. At the extended reals both results
  at `(b, c, p, q)` are the same sum over neighbours and pixels (`Cert.Splat.kerSum_eq_refSum`): a contribution that the
  reference lands on a cell of the cropped plane the kernel keeps and lands on the same cell, and one the kernel
  clamps onto a cell from outside carries weight zero. No finiteness of the inputs is used.

  The frames: each kernel program runs block by block to the end and leaves its arguments alone (`Frm.frame`); the
  reference is a line of host operations (its run). The idealization rewrote nothing, so `preserves` is trivial.
-/
import proofs.«149145_j3066606649873_2_alg».proof.Defs
import proofs.«149145_j3066606649873_2_alg».proof.Proof.Gen.Kernel
import proofs.«149145_j3066606649873_2_alg».proof.Proof.Gen.KernelIdeal
import proofs.«149145_j3066606649873_2_alg».proof.Proof.Gen.ReferenceIdeal
import proofs.«149145_j3066606649873_2_alg».proof.Proof.Gen.Pre_finite_inputs
import proofs.«149145_j3066606649873_2_alg».proof.Proof.KernelFrame
import proofs.«149145_j3066606649873_2_alg».proof.Proof.KerValue
import proofs.«149145_j3066606649873_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the one sum, read at every index. -/
theorem algebraic : Cert.algebraic_KernelIdeal_ReferenceIdeal := by
  intro m ρ m' ρ' _ hagree
  refine ⟨fun c => Cert.KernelIdeal.Val.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v190_eq, (hagree c).1, (hagree c).2]
  funext i
  rw [ValueIdx.eq_ix4 i]
  exact (Cert.ReferenceIdeal.RefValue.ref_apply _ _ (i 0) (i 1) (i 2) (i 3)).trans
    (Cert.Splat.kerSum_eq_refSum _ _ (i 0) (i 1) (i 2) (i 3)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
